-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8 : Shape := ⟨2, ![32, 8]⟩
abbrev S32x2048 : Shape := ⟨2, ![32, 2048]⟩
abbrev S32x2048x32 : Shape := ⟨3, ![32, 2048, 32]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S32x2048x32 : S_.BroadcastsInDim S32x2048x32 (![] : Fin 0 → Fin S32x2048x32.rank)
  reducesTo_S32x2048x32_S_d0_1_2 : S32x2048x32.ReducesTo [0, 1, 2] S_

variable [Facts]

def fn {F : FTy → Type} [FloatOps F] (main_arg0 : FVec F S32x8 .f32) (main_arg1 : FVec F S32x2048 .f32) (main_arg2 : FVec F S32x2048x32 .f32) (main_arg3 : IVec S32x2048x32 1) : IVec S_ 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32x2048x32 .f32 := Host.absf main_arg2
  let main_cst_2 : FVec F S_ .f32 := constant S_ .f32 0x7F800000#32
  let main_v10 : FVec F S32x2048x32 .f32 := broadcastInDim S32x2048x32 ![] bcast_S_S32x2048x32 main_cst_2
  let main_v11 : IVec S32x2048x32 1 := cmpf .olt main_v9 main_v10
  let main_c_3 : IVec S_ 1 := constantI S_ 1 1#1
  let main_v12 : IVec S_ 1 := (fun x v => Host.reduce IntOp.andi x v reducesTo_S32x2048x32_S_d0_1_2 h_S_) main_v11 main_c_3
  let main_v13 : IVec S_ 1 := andi main_v8 main_v12
  main_v13
-- ==== Kernel.lean ====
abbrev S32x8 : Shape := ⟨2, ![32, 8]⟩
abbrev S32x2048 : Shape := ⟨2, ![32, 2048]⟩
abbrev S32x2048x32 : Shape := ⟨3, ![32, 2048, 32]⟩
abbrev S_ : Shape := ⟨0, ![]⟩
abbrev S32x32 : Shape := ⟨2, ![32, 32]⟩
abbrev S32x32x2048 : Shape := ⟨3, ![32, 32, 2048]⟩
abbrev S32x1x32 : Shape := ⟨3, ![32, 1, 32]⟩
abbrev S40x32x2048x42 : Shape := ⟨4, ![40, 32, 2048, 42]⟩
abbrev S32x256 : Shape := ⟨2, ![32, 256]⟩
abbrev S1x32x256 : Shape := ⟨3, ![1, 32, 256]⟩
abbrev S1x1x32 : Shape := ⟨3, ![1, 1, 32]⟩
abbrev S1x32x512x42 : Shape := ⟨4, ![1, 32, 512, 42]⟩
abbrev S32x512x2 : Shape := ⟨3, ![32, 512, 2]⟩
abbrev S1x512x1 : Shape := ⟨3, ![1, 512, 1]⟩
abbrev S32x1x256 : Shape := ⟨3, ![32, 1, 256]⟩
abbrev S32x512x256 : Shape := ⟨3, ![32, 512, 256]⟩
abbrev S32x256x1 : Shape := ⟨3, ![32, 256, 1]⟩
abbrev S32x256x2 : Shape := ⟨3, ![32, 256, 2]⟩
abbrev S32 : Shape := ⟨1, ![32]⟩
abbrev S1x512 : Shape := ⟨2, ![1, 512]⟩
abbrev S32x1 : Shape := ⟨2, ![32, 1]⟩
abbrev S32x512 : Shape := ⟨2, ![32, 512]⟩
abbrev S1x1x40 : Shape := ⟨3, ![1, 1, 40]⟩
abbrev S32x512x1 : Shape := ⟨3, ![32, 512, 1]⟩
abbrev S32x512x40 : Shape := ⟨3, ![32, 512, 40]⟩
abbrev S32x512x42 : Shape := ⟨3, ![32, 512, 42]⟩
abbrev S8x32 : Shape := ⟨2, ![8, 32]⟩
abbrev S8x1x32 : Shape := ⟨3, ![8, 1, 32]⟩
abbrev S1x32x2048x42 : Shape := ⟨4, ![1, 32, 2048, 42]⟩
abbrev S1x40 : Shape := ⟨2, ![1, 40]⟩
abbrev S32x40 : Shape := ⟨2, ![32, 40]⟩
abbrev S32x42 : Shape := ⟨2, ![32, 42]⟩
abbrev S1x2048 : Shape := ⟨2, ![1, 2048]⟩
abbrev S1x2048x1 : Shape := ⟨3, ![1, 2048, 1]⟩
abbrev S32x1x42 : Shape := ⟨3, ![32, 1, 42]⟩
abbrev S32x2048x42 : Shape := ⟨3, ![32, 2048, 42]⟩

abbrev nBuf : Space → Nat
  | .hbm => 24
  | .vmem => 17
  | .smem => 0
  | _ => 0

abbrev bufTy : (tb : Table) → Fin (tcTables nBuf tb) → BufTy
  | .hbm, ⟨0, _⟩ => ⟨S32x8, .f32⟩
  | .hbm, ⟨1, _⟩ => ⟨S32x2048, .f32⟩
  | .hbm, ⟨2, _⟩ => ⟨S32x2048x32, .f32⟩
  | .hbm, ⟨3, _⟩ => ⟨S32x2048x32, .i1⟩
  | .hbm, ⟨4, _⟩ => ⟨S32x2048x32, .f32⟩
  | .hbm, ⟨5, _⟩ => ⟨S32x2048x32, .i32⟩
  | .hbm, ⟨6, _⟩ => ⟨S_, .i32⟩
  | .hbm, ⟨7, _⟩ => ⟨S_, .i32⟩
  | .hbm, ⟨8, _⟩ => ⟨S32x2048x32, .i32⟩
  | .hbm, ⟨9, _⟩ => ⟨S_, .i32⟩
  | .hbm, ⟨10, _⟩ => ⟨S32x2048x32, .i32⟩
  | .hbm, ⟨11, _⟩ => ⟨S32x2048x32, .i32⟩
  | .hbm, ⟨12, _⟩ => ⟨S32x2048x32, .i32⟩
  | .hbm, ⟨13, _⟩ => ⟨S_, .i32⟩
  | .hbm, ⟨14, _⟩ => ⟨S32x32, .i32⟩
  | .hbm, ⟨15, _⟩ => ⟨S32x32x2048, .f32⟩
  | .hbm, ⟨16, _⟩ => ⟨S32x32x2048, .i32⟩
  | .hbm, ⟨17, _⟩ => ⟨S32x32x2048, .f32⟩
  | .hbm, ⟨18, _⟩ => ⟨S32x32, .i32⟩
  | .hbm, ⟨19, _⟩ => ⟨S32x1x32, .i32⟩
  | .hbm, ⟨20, _⟩ => ⟨S40x32x2048x42, .f32⟩
  | .hbm, ⟨21, _⟩ => ⟨S8x32, .f32⟩
  | .hbm, ⟨22, _⟩ => ⟨S8x1x32, .f32⟩
  | .hbm, ⟨23, _⟩ => ⟨S40x32x2048x42, .f32⟩
  | .local _ .vmem, ⟨0, _⟩ => ⟨S32x256, .f32⟩
  | .local _ .vmem, ⟨1, _⟩ => ⟨S32x256, .f32⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .i32⟩
  | .local _ .vmem, ⟨7, _⟩ => ⟨S1x32x256, .i32⟩
  | .local _ .vmem, ⟨8, _⟩ => ⟨S1x1x32, .i32⟩
  | .local _ .vmem, ⟨9, _⟩ => ⟨S1x1x32, .i32⟩
  | .local _ .vmem, ⟨10, _⟩ => ⟨S1x32x512x42, .f32⟩
  | .local _ .vmem, ⟨11, _⟩ => ⟨S1x32x512x42, .f32⟩
  | .local _ .vmem, ⟨12, _⟩ => ⟨S32x512x2, .f32⟩
  | .local _ .vmem, ⟨13, _⟩ => ⟨S1x1x32, .f32⟩
  | .local _ .vmem, ⟨14, _⟩ => ⟨S1x1x32, .f32⟩
  | .local _ .vmem, ⟨15, _⟩ => ⟨S1x32x2048x42, .f32⟩
  | .local _ .vmem, ⟨16, _⟩ => ⟨S1x32x2048x42, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨3, ![32, 4, 8], ![false, false, false]⟩

def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x32x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x32x512x42 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![8], ![false]⟩

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage1_0 : Fin 2 → Memref sig .tc .vmem S1x1x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x2048x42 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  natLt_1_32 : 1 < 32
  bcast_S_S_ : S_.BroadcastsInDim S_ (![] : Fin 0 → Fin S_.rank)
  reduceWindows_S32x2048x32_S32x2048x32_w1s1p0_0_w2048s1p2047_0_w1s1p0_0 : S32x2048x32.ReduceWindows (![1, 2048, 1] : Fin 3 → Nat) ![1, 1, 1] ![0, 2047, 0] ![0, 0, 0] S32x2048x32
  h_S_ : 0 < S_.numel
  bcast_S_S32x2048x32 : S_.BroadcastsInDim S32x2048x32 (![] : Fin 0 → Fin S32x2048x32.rank)
  reducesTo_S32x2048x32_S32x32_d1 : S32x2048x32.ReducesTo [1] S32x32
  transposes_S32x2048x32_S32x32x2048_2_0_1 : S32x2048x32.Transposes [2, 0, 1] S32x32x2048
  transposes_S32x32_S32x32_1_0 : S32x32.Transposes [1, 0] S32x32
  bcast_S32x32_S32x1x32_0_2 : S32x32.BroadcastsInDim S32x1x32 (![0, 2] : Fin 2 → Fin S32x1x32.rank)
  inb_S32x512x2_S32x512x2_0_0_0 : ∀ a, (![0, 0, 0] : Fin 3 → Nat) a + S32x512x2.size a ≤ S32x512x2.size a
  h_S32x512x2 : 0 < S32x512x2.numel
  shapeCasts_S32x512x2_S32x512x2 : S32x512x2.ShapeCasts S32x512x2
  inb_S32x256_S32x256_0_0 : ∀ a, (![0, 0] : Fin 2 → Nat) a + S32x256.size a ≤ S32x256.size a
  h_S32x256 : 0 < S32x256.numel
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  iota_S1x512x1_d1_w32 : S1x512x1.Iotas .tc 32 [1]
  shapeCasts_S32x256_S32x1x256 : S32x256.ShapeCasts S32x1x256
  broadcasts_S1x512x1_S32x512x256 : S1x512x1.Broadcasts S32x512x256
  broadcasts_S32x1x256_S32x512x256 : S32x1x256.Broadcasts S32x512x256
  shapeCasts_S32x1x256_S32x1x256 : S32x1x256.ShapeCasts S32x1x256
  shapeCasts_S32x256_S32x256x1 : S32x256.ShapeCasts S32x256x1
  concatenates_S32x256x1_S32x256x1_S32x256x2_d2 : Shape.Concatenates [S32x256x1, S32x256x1] S32x256x2 2
  inb_S1x1x32_S1x1x32_0_0_0 : ∀ a, (![0, 0, 0] : Fin 3 → Nat) a + S1x1x32.size a ≤ S1x1x32.size a
  h_S1x1x32 : 0 < S1x1x32.numel
  shapeCasts_S1x1x32_S32 : S1x1x32.ShapeCasts S32
  iota_S1x512_d1_w32 : S1x512.Iotas .tc 32 [1]
  shapeCasts_S32_S32x1 : S32.ShapeCasts S32x1
  broadcasts_S1x512_S32x512 : S1x512.Broadcasts S32x512
  broadcasts_S32x1_S32x512 : S32x1.Broadcasts S32x512
  iota_S1x1x40_d2_w32 : S1x1x40.Iotas .tc 32 [2]
  shapeCasts_S32x512_S32x512x1 : S32x512.ShapeCasts S32x512x1
  broadcasts_S32x512x1_S32x512x40 : S32x512x1.Broadcasts S32x512x40
  broadcasts_S1x1x40_S32x512x40 : S1x1x40.Broadcasts S32x512x40
  slices_S32x512x2_o0_0_0_S32x512x1 : S32x512x2.Slices ![0, 0, 0] S32x512x1
  slices_S32x512x2_o0_0_1_S32x512x1 : S32x512x2.Slices ![0, 0, 1] S32x512x1
  concatenates_S32x512x1_S32x512x40_S32x512x1_S32x512x42_d2 : Shape.Concatenates [S32x512x1, S32x512x40, S32x512x1] S32x512x42 2
  inb_S1x32x512x42_S1x32x512x42_0_0_0_0 : ∀ a, (![0, 0, 0, 0] : Fin 4 → Nat) a + S1x32x512x42.size a ≤ S1x32x512x42.size a
  h_S1x32x512x42 : 0 < S1x32x512x42.numel
  shapeCasts_S1x32x512x42_S32x512x42 : S1x32x512x42.ShapeCasts S32x512x42
  shapeCasts_S32x512x42_S1x32x512x42 : S32x512x42.ShapeCasts S1x32x512x42
  transposes_S32x8_S8x32_1_0 : S32x8.Transposes [1, 0] S8x32
  bcast_S8x32_S8x1x32_0_2 : S8x32.BroadcastsInDim S8x1x32 (![0, 2] : Fin 2 → Fin S8x1x32.rank)
  iota_S1x40_d1_w32 : S1x40.Iotas .tc 32 [1]
  shapeCasts_S1x40_S1x40 : S1x40.ShapeCasts S1x40
  broadcasts_S1x40_S32x40 : S1x40.Broadcasts S32x40
  concatenates_S32x1_S32x40_S32x1_S32x42_d1 : Shape.Concatenates [S32x1, S32x40, S32x1] S32x42 1
  iota_S1x2048_d1_w32 : S1x2048.Iotas .tc 32 [1]
  shapeCasts_S1x2048_S1x2048x1 : S1x2048.ShapeCasts S1x2048x1
  shapeCasts_S32x42_S32x1x42 : S32x42.ShapeCasts S32x1x42
  broadcasts_S1x2048x1_S32x2048x42 : S1x2048x1.Broadcasts S32x2048x42
  broadcasts_S32x1x42_S32x2048x42 : S32x1x42.Broadcasts S32x2048x42
  inb_S1x32x2048x42_S1x32x2048x42_0_0_0_0 : ∀ a, (![0, 0, 0, 0] : Fin 4 → Nat) a + S1x32x2048x42.size a ≤ S1x32x2048x42.size a
  h_S1x32x2048x42 : 0 < S1x32x2048x42.numel
  shapeCasts_S1x32x2048x42_S32x2048x42 : S1x32x2048x42.ShapeCasts S32x2048x42
  shapeCasts_S32x2048x42_S1x32x2048x42 : S32x2048x42.ShapeCasts S1x32x2048x42
  dot_S32x512x256_S32x256x2_S32x512x2_2_1_1_2_0_0_wf : DotDims.WF S32x512x256 S32x256x2 S32x512x2 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x2048.size a
  hwx0_0 : ∀ i : grid0.Coords, EltTy.bits .f32 = 32 ∨ (Rect.block (s := S32x2048) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256.size a ≤ S32x32x2048.size a
  hwx0_1 : ∀ i : grid0.Coords, EltTy.bits .f32 = 32 ∨ (Rect.block (s := S32x32x2048) S1x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256.size a ≤ S32x32x2048.size a
  hwx0_2 : ∀ i : grid0.Coords, EltTy.bits .f32 = 32 ∨ (Rect.block (s := S32x32x2048) S1x32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256.size a ≤ S32x32x2048.size a
  hwx0_3 : ∀ i : grid0.Coords, EltTy.bits .i32 = 32 ∨ (Rect.block (s := S32x32x2048) S1x32x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S32x1x32.size a
  hwx0_4 : ∀ i : grid0.Coords, EltTy.bits .i32 = 32 ∨ (Rect.block (s := S32x1x32) S1x1x32.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512x42.size a ≤ S40x32x2048x42.size a
  hwx0_5 : ∀ i : grid0.Coords, EltTy.bits .f32 = 32 ∨ (Rect.block (s := S40x32x2048x42) S1x32x512x42.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x1x32.size a ≤ S8x1x32.size a
  hwx1_0 : ∀ i : grid1.Coords, EltTy.bits .f32 = 32 ∨ (Rect.block (s := S8x1x32) S1x1x32.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x32x2048x42.size a ≤ S40x32x2048x42.size a
  hwx1_1 : ∀ i : grid1.Coords, EltTy.bits .f32 = 32 ∨ (Rect.block (s := S40x32x2048x42) S1x32x2048x42.size (cc1_transform_2 i) (hinb1_1 i)).WholeWords (EltTy.packing .f32)

variable [Facts₀]

def dot_S32x512x256_S32x256x2_S32x512x2_2_1_1_2_0_0 : DotDims S32x512x256 S32x256x2 S32x512x2 where
  lhsContracting := [2]
  rhsContracting := [1]
  lhsNonContracting := [1]
  rhsNonContracting := [2]
  lhsBatch := [0]
  rhsBatch := [0]
  wf := dot_S32x512x256_S32x256x2_S32x512x2_2_1_1_2_0_0_wf

abbrev win0_0 : Pipeline.Window sig grid0 :=
  Pipeline.Window.ofSpec (Memref.whole main_arg1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x32x512x42.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v14) S1x1x32.size cc1_transform_1 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x32x2048x42.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32x8 : Shape := ⟨2, ![32, 8]⟩
abbrev S32x2048 : Shape := ⟨2, ![32, 2048]⟩
abbrev S32x2048x32 : Shape := ⟨3, ![32, 2048, 32]⟩
abbrev S_ : Shape := ⟨0, ![]⟩
abbrev S40x40 : Shape := ⟨2, ![40, 40]⟩
abbrev S32x40 : Shape := ⟨2, ![32, 40]⟩
abbrev S32x2048x1 : Shape := ⟨3, ![32, 2048, 1]⟩
abbrev S32x2048x32x1 : Shape := ⟨4, ![32, 2048, 32, 1]⟩
abbrev S1x1x32x40 : Shape := ⟨4, ![1, 1, 32, 40]⟩
abbrev S32x2048x32x40 : Shape := ⟨4, ![32, 2048, 32, 40]⟩
abbrev S32x2048x32x42 : Shape := ⟨4, ![32, 2048, 32, 42]⟩
abbrev S32 : Shape := ⟨1, ![32]⟩
abbrev S1x1x32 : Shape := ⟨3, ![1, 1, 32]⟩
abbrev S32x1x1 : Shape := ⟨3, ![32, 1, 1]⟩
abbrev S32x32x2049x42 : Shape := ⟨4, ![32, 32, 2049, 42]⟩
abbrev S32x2048x32x3 : Shape := ⟨4, ![32, 2048, 32, 3]⟩
abbrev S32x32x2048x42 : Shape := ⟨4, ![32, 32, 2048, 42]⟩
abbrev S8 : Shape := ⟨1, ![8]⟩
abbrev S8x1 : Shape := ⟨2, ![8, 1]⟩
abbrev S8x40 : Shape := ⟨2, ![8, 40]⟩
abbrev S8x32x1 : Shape := ⟨3, ![8, 32, 1]⟩
abbrev S8x1x40 : Shape := ⟨3, ![8, 1, 40]⟩
abbrev S8x32x40 : Shape := ⟨3, ![8, 32, 40]⟩
abbrev S8x32 : Shape := ⟨2, ![8, 32]⟩
abbrev S8x32x42 : Shape := ⟨3, ![8, 32, 42]⟩
abbrev S8x32x2048x42 : Shape := ⟨4, ![8, 32, 2048, 42]⟩
abbrev S1 : Shape := ⟨1, ![1]⟩
abbrev S40x32x2048x42 : Shape := ⟨4, ![40, 32, 2048, 42]⟩

abbrev nBuf : Space → Nat
  | .hbm => 107
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x2048, .f32⟩
  | .hbm, ⟨2, _⟩ => ⟨S32x2048x32, .f32⟩
  | .hbm, ⟨3, _⟩ => ⟨S32x2048x32, .i1⟩
  | .hbm, ⟨4, _⟩ => ⟨S32x2048x32, .f32⟩
  | .hbm, ⟨5, _⟩ => ⟨S32x2048x32, .i32⟩
  | .hbm, ⟨6, _⟩ => ⟨S_, .i32⟩
  | .hbm, ⟨7, _⟩ => ⟨S_, .i32⟩
  | .hbm, ⟨8, _⟩ => ⟨S32x2048x32, .i32⟩
  | .hbm, ⟨9, _⟩ => ⟨S_, .i32⟩
  | .hbm, ⟨10, _⟩ => ⟨S32x2048x32, .i32⟩
  | .hbm, ⟨11, _⟩ => ⟨S32x2048x32, .i32⟩
  | .hbm, ⟨12, _⟩ => ⟨S_, .i32⟩
  | .hbm, ⟨13, _⟩ => ⟨S_, .i32⟩
  | .hbm, ⟨14, _⟩ => ⟨S32x2048x32, .i32⟩
  | .hbm, ⟨15, _⟩ => ⟨S32x2048x32, .i32⟩
  | .hbm, ⟨16, _⟩ => ⟨S40x40, .i32⟩
  | .hbm, ⟨17, _⟩ => ⟨S40x40, .i32⟩
  | .hbm, ⟨18, _⟩ => ⟨S_, .i32⟩
  | .hbm, ⟨19, _⟩ => ⟨S40x40, .i32⟩
  | .hbm, ⟨20, _⟩ => ⟨S40x40, .i32⟩
  | .hbm, ⟨21, _⟩ => ⟨S40x40, .i1⟩
  | .hbm, ⟨22, _⟩ => ⟨S40x40, .f32⟩
  | .hbm, ⟨23, _⟩ => ⟨S32x40, .f32⟩
  | .hbm, ⟨24, _⟩ => ⟨S32x2048x1, .f32⟩
  | .hbm, ⟨25, _⟩ => ⟨S32x2048x32, .f32⟩
  | .hbm, ⟨26, _⟩ => ⟨S32x2048x32, .f32⟩
  | .hbm, ⟨27, _⟩ => ⟨S32x2048x32x1, .f32⟩
  | .hbm, ⟨28, _⟩ => ⟨S32x2048x32x1, .f32⟩
  | .hbm, ⟨29, _⟩ => ⟨S1x1x32x40, .f32⟩
  | .hbm, ⟨30, _⟩ => ⟨S32x2048x32x40, .f32⟩
  | .hbm, ⟨31, _⟩ => ⟨S32x2048x32x40, .f32⟩
  | .hbm, ⟨32, _⟩ => ⟨S32x2048x32x40, .f32⟩
  | .hbm, ⟨33, _⟩ => ⟨S32x2048x32, .f32⟩
  | .hbm, ⟨34, _⟩ => ⟨S32x2048x32x1, .f32⟩
  | .hbm, ⟨35, _⟩ => ⟨S32x2048x32x42, .f32⟩
  | .hbm, ⟨36, _⟩ => ⟨S32, .i32⟩
  | .hbm, ⟨37, _⟩ => ⟨S1x1x32, .i32⟩
  | .hbm, ⟨38, _⟩ => ⟨S32x2048x32, .i32⟩
  | .hbm, ⟨39, _⟩ => ⟨S32, .i32⟩
  | .hbm, ⟨40, _⟩ => ⟨S32x1x1, .i32⟩
  | .hbm, ⟨41, _⟩ => ⟨S32x2048x32, .i32⟩
  | .hbm, ⟨42, _⟩ => ⟨S_, .f32⟩
  | .hbm, ⟨43, _⟩ => ⟨S32x32x2049x42, .f32⟩
  | .hbm, ⟨44, _⟩ => ⟨S_, .i32⟩
  | .hbm, ⟨45, _⟩ => ⟨S32x2048x32, .i32⟩
  | .hbm, ⟨46, _⟩ => ⟨S32x2048x32, .i1⟩
  | .hbm, ⟨47, _⟩ => ⟨S_, .i32⟩
  | .hbm, ⟨48, _⟩ => ⟨S32x2048x32, .i32⟩
  | .hbm, ⟨49, _⟩ => ⟨S32x2048x32, .i32⟩
  | .hbm, ⟨50, _⟩ => ⟨S32x2048x32, .i32⟩
  | .hbm, ⟨51, _⟩ => ⟨S_, .i32⟩
  | .hbm, ⟨52, _⟩ => ⟨S32x2048x32, .i32⟩
  | .hbm, ⟨53, _⟩ => ⟨S32x2048x32, .i1⟩
  | .hbm, ⟨54, _⟩ => ⟨S_, .i32⟩
  | .hbm, ⟨55, _⟩ => ⟨S32x2048x32, .i32⟩
  | .hbm, ⟨56, _⟩ => ⟨S32x2048x32, .i32⟩
  | .hbm, ⟨57, _⟩ => ⟨S32x2048x32, .i32⟩
  | .hbm, ⟨58, _⟩ => ⟨S_, .i32⟩
  | .hbm, ⟨59, _⟩ => ⟨S32x2048x32, .i32⟩
  | .hbm, ⟨60, _⟩ => ⟨S32x2048x32, .i1⟩
  | .hbm, ⟨61, _⟩ => ⟨S_, .i32⟩
  | .hbm, ⟨62, _⟩ => ⟨S32x2048x32, .i32⟩
  | .hbm, ⟨63, _⟩ => ⟨S32x2048x32, .i32⟩
  | .hbm, ⟨64, _⟩ => ⟨S32x2048x32, .i32⟩
  | .hbm, ⟨65, _⟩ => ⟨S32x2048x32x1, .i32⟩
  | .hbm, ⟨66, _⟩ => ⟨S32x2048x32x1, .i32⟩
  | .hbm, ⟨67, _⟩ => ⟨S32x2048x32x1, .i32⟩
  | .hbm, ⟨68, _⟩ => ⟨S32x2048x32x3, .i32⟩
  | .hbm, ⟨69, _⟩ => ⟨S32x32x2049x42, .f32⟩
  | .hbm, ⟨70, _⟩ => ⟨S32x32x2048x42, .f32⟩
  | .hbm, ⟨71, _⟩ => ⟨S8, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S_, .i32⟩
  | .hbm, ⟨76, _⟩ => ⟨S8, .i32⟩
  | .hbm, ⟨77, _⟩ => ⟨S8, .i32⟩
  | .hbm, ⟨78, _⟩ => ⟨S40x40, .i32⟩
  | .hbm, ⟨79, _⟩ => ⟨S40x40, .i32⟩
  | .hbm, ⟨80, _⟩ => ⟨S_, .i32⟩
  | .hbm, ⟨81, _⟩ => ⟨S40x40, .i32⟩
  | .hbm, ⟨82, _⟩ => ⟨S40x40, .i32⟩
  | .hbm, ⟨83, _⟩ => ⟨S40x40, .i1⟩
  | .hbm, ⟨84, _⟩ => ⟨S40x40, .f32⟩
  | .hbm, ⟨85, _⟩ => ⟨S_, .i32⟩
  | .hbm, ⟨86, _⟩ => ⟨S8, .i32⟩
  | .hbm, ⟨87, _⟩ => ⟨S8, .i1⟩
  | .hbm, ⟨88, _⟩ => ⟨S_, .i32⟩
  | .hbm, ⟨89, _⟩ => ⟨S8, .i32⟩
  | .hbm, ⟨90, _⟩ => ⟨S8, .i32⟩
  | .hbm, ⟨91, _⟩ => ⟨S8, .i32⟩
  | .hbm, ⟨92, _⟩ => ⟨S8x1, .i32⟩
  | .hbm, ⟨93, _⟩ => ⟨S8x40, .f32⟩
  | .hbm, ⟨94, _⟩ => ⟨S_, .f32⟩
  | .hbm, ⟨95, _⟩ => ⟨S8x32x1, .f32⟩
  | .hbm, ⟨96, _⟩ => ⟨S8x1x40, .f32⟩
  | .hbm, ⟨97, _⟩ => ⟨S8x32x40, .f32⟩
  | .hbm, ⟨98, _⟩ => ⟨S8x32, .f32⟩
  | .hbm, ⟨99, _⟩ => ⟨S8x32x1, .f32⟩
  | .hbm, ⟨100, _⟩ => ⟨S8x32x42, .f32⟩
  | .hbm, ⟨101, _⟩ => ⟨S_, .f32⟩
  | .hbm, ⟨102, _⟩ => ⟨S8x32x2048x42, .f32⟩
  | .hbm, ⟨103, _⟩ => ⟨S_, .i32⟩
  | .hbm, ⟨104, _⟩ => ⟨S1, .i32⟩
  | .hbm, ⟨105, _⟩ => ⟨S8x32x2048x42, .f32⟩
  | .hbm, ⟨106, _⟩ => ⟨S40x32x2048x42, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_c_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S32x2048x32_S32x2048x32_w1s1p0_0_w2048s1p2047_0_w1s1p0_0 : S32x2048x32.ReduceWindows (![1, 2048, 1] : Fin 3 → Nat) ![1, 1, 1] ![0, 2047, 0] ![0, 0, 0] S32x2048x32
  h_S_ : 0 < S_.numel
  bcast_S_S32x2048x32 : S_.BroadcastsInDim S32x2048x32 (![] : Fin 0 → Fin S32x2048x32.rank)
  bcast_S_S40x40 : S_.BroadcastsInDim S40x40 (![] : Fin 0 → Fin S40x40.rank)
  slices_S40x40_S32x40_0_0 : S40x40.Slices ![0, 0] S32x40
  bcast_S32x2048_S32x2048x1_0_1 : S32x2048.BroadcastsInDim S32x2048x1 (![0, 1] : Fin 2 → Fin S32x2048x1.rank)
  bcast_S32x2048x1_S32x2048x32_0_1_2 : S32x2048x1.BroadcastsInDim S32x2048x32 (![0, 1, 2] : Fin 3 → Fin S32x2048x32.rank)
  bcast_S32x2048x32_S32x2048x32x1_0_1_2 : S32x2048x32.BroadcastsInDim S32x2048x32x1 (![0, 1, 2] : Fin 3 → Fin S32x2048x32x1.rank)
  bcast_S32x40_S1x1x32x40_2_3 : S32x40.BroadcastsInDim S1x1x32x40 (![2, 3] : Fin 2 → Fin S1x1x32x40.rank)
  bcast_S32x2048x32x1_S32x2048x32x40_0_1_2_3 : S32x2048x32x1.BroadcastsInDim S32x2048x32x40 (![0, 1, 2, 3] : Fin 4 → Fin S32x2048x32x40.rank)
  bcast_S1x1x32x40_S32x2048x32x40_0_1_2_3 : S1x1x32x40.BroadcastsInDim S32x2048x32x40 (![0, 1, 2, 3] : Fin 4 → Fin S32x2048x32x40.rank)
  concatenates_S32x2048x32x1_S32x2048x32x40_S32x2048x32x1_S32x2048x32x42_d3 : Shape.Concatenates [S32x2048x32x1, S32x2048x32x40, S32x2048x32x1] S32x2048x32x42 3
  bcast_S32_S1x1x32_2 : S32.BroadcastsInDim S1x1x32 (![2] : Fin 1 → Fin S1x1x32.rank)
  bcast_S1x1x32_S32x2048x32_0_1_2 : S1x1x32.BroadcastsInDim S32x2048x32 (![0, 1, 2] : Fin 3 → Fin S32x2048x32.rank)
  bcast_S32_S32x1x1_0 : S32.BroadcastsInDim S32x1x1 (![0] : Fin 1 → Fin S32x1x1.rank)
  bcast_S32x1x1_S32x2048x32_0_1_2 : S32x1x1.BroadcastsInDim S32x2048x32 (![0, 1, 2] : Fin 3 → Fin S32x2048x32.rank)
  bcast_S_S32x32x2049x42 : S_.BroadcastsInDim S32x32x2049x42 (![] : Fin 0 → Fin S32x32x2049x42.rank)
  concatenates_S32x2048x32x1_S32x2048x32x1_S32x2048x32x1_S32x2048x32x3_d3 : Shape.Concatenates [S32x2048x32x1, S32x2048x32x1, S32x2048x32x1] S32x2048x32x3 3
  slices_S32x32x2049x42_S32x32x2048x42_0_0_0_0 : S32x32x2049x42.Slices ![0, 0, 0, 0] S32x32x2048x42
  bcast_S_S8 : S_.BroadcastsInDim S8 (![] : Fin 0 → Fin S8.rank)
  bcast_S8_S8x1_0 : S8.BroadcastsInDim S8x1 (![0] : Fin 1 → Fin S8x1.rank)
  bcast_S_S8x32x1 : S_.BroadcastsInDim S8x32x1 (![] : Fin 0 → Fin S8x32x1.rank)
  bcast_S8x40_S8x1x40_0_2 : S8x40.BroadcastsInDim S8x1x40 (![0, 2] : Fin 2 → Fin S8x1x40.rank)
  bcast_S8x1x40_S8x32x40_0_1_2 : S8x1x40.BroadcastsInDim S8x32x40 (![0, 1, 2] : Fin 3 → Fin S8x32x40.rank)
  transposes_S32x8_S8x32_1_0 : S32x8.Transposes [1, 0] S8x32
  bcast_S8x32_S8x32x1_0_1 : S8x32.BroadcastsInDim S8x32x1 (![0, 1] : Fin 2 → Fin S8x32x1.rank)
  concatenates_S8x32x1_S8x32x40_S8x32x1_S8x32x42_d2 : Shape.Concatenates [S8x32x1, S8x32x40, S8x32x1] S8x32x42 2
  bcast_S_S8x32x2048x42 : S_.BroadcastsInDim S8x32x2048x42 (![] : Fin 0 → Fin S8x32x2048x42.rank)
  bcast_S_S1 : S_.BroadcastsInDim S1 (![] : Fin 0 → Fin S1.rank)
  concatenates_S32x32x2048x42_S8x32x2048x42_S40x32x2048x42_d0 : Shape.Concatenates [S32x32x2048x42, S8x32x2048x42] S40x32x2048x42 0
  scatter_S32x32x2049x42_S32x2048x32x3_S32x2048x32x42_3_012_012_3_wf : ScatterDims.WF S32x32x2049x42 S32x2048x32x3 S32x2048x32x42 [3] [0, 1, 2] [0, 1, 2] 3
  gather_S40x40_S8x1_S8x40_1_0_n_n_0_1_140_wf : GatherDims.WF S40x40 S8x1 S8x40 [1] [0] [] [0] [] 1 ![1, 40]
  scatter_S8x32x2048x42_S1_S8x32x42_012_2_2_0_wf : ScatterDims.WF S8x32x2048x42 S1 S8x32x42 [0, 1, 2] [2] [2] 0

variable [Facts₀]

def scatter_S32x32x2049x42_S32x2048x32x3_S32x2048x32x42_3_012_012_3 : ScatterDims S32x32x2049x42 S32x2048x32x3 S32x2048x32x42 where
  updateWindowDims := [3]
  insertedWindowDims := [0, 1, 2]
  scatterDimsToOperandDims := [0, 1, 2]
  indexVectorDim := 3
  wf := scatter_S32x32x2049x42_S32x2048x32x3_S32x2048x32x42_3_012_012_3_wf
def gather_S40x40_S8x1_S8x40_1_0_n_n_0_1_140 : GatherDims S40x40 S8x1 S8x40 where
  offsetDims := [1]
  collapsedSliceDims := [0]
  operandBatchingDims := []
  startIndicesBatchingDims := []
  startIndexMap := [0]
  indexVectorDim := 1
  sliceSizes := ![1, 40]
  wf := gather_S40x40_S8x1_S8x40_1_0_n_n_0_1_140_wf
def scatter_S8x32x2048x42_S1_S8x32x42_012_2_2_0 : ScatterDims S8x32x2048x42 S1 S8x32x42 where
  updateWindowDims := [0, 1, 2]
  insertedWindowDims := [2]
  scatterDimsToOperandDims := [2]
  indexVectorDim := 0
  wf := scatter_S8x32x2048x42_S1_S8x32x42_012_2_2_0_wf

class Facts : Prop extends Facts₀ where

variable [Facts]
-- ==== Proof.K.PackBase.lean ====
/-
  The first pallas_call (the packing kernel, grid 32 × 4 × 8 = channel × block of 512 packed positions × block of
  256 time steps) as a pipeline region entered at buffer contents `V`: what is shared by the three control cases of
  its body. The body zeroes its accumulator (a scratch of 32 × 512 × 2 numbers) at the first time block (k = 0),
  adds one block's selection product into it at every point, and stores the output block only at the last time
  block (k = 7); so a point is in case A (k = 0), B (0 < k < 7) or C (k = 7), the output window is idle in A and B,
  and the accumulator is carried from point to point.
-/
import proofs.«146262_j33595234189952_2_alg».proof.Proof.Gen.Kernel.Launch
import proofs.«146262_j33595234189952_2_alg».proof.Proof.Gen.Kernel.Skeleton
import proofs.«146262_j33595234189952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the five input windows holds its block at every point, whether the pipeline fetched it there or not
    (when it did not, the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end AtEntry

/-! ## The two branch conditions, in closed form over the grid -/

/-- The accumulator is zeroed where the time-block coordinate is 0. -/
abbrev condZ (i : grid0.Coords) : Prop := (Scalar.cmpi .ne (Scalar.extui (Scalar.cmpi .eq (BitVec.ofNat 32 (i 2).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- The output block is stored where the time-block coordinate is 7. -/
abbrev condS (i : grid0.Coords) : Prop := k0_cond2 i = 1#1
theorem hcondS : ∀ t : Fin cfg0.N, condS (grid0.coords t) ↔ t.val % 8 = 7 :=
  (by decide +kernel : ∀ t : Fin grid0.N, condS (grid0.coords t) ↔ t.val % 8 = 7)

/-! ## Where the output window is idle -/

theorem idle5_A : ∀ t : Fin cfg0.N, condZ (grid0.coords t) → ¬condS (grid0.coords t) → cfg0.idle 5 (grid0.coords t) = true := by decide +kernel
theorem noFlush5_A : ∀ t : Fin cfg0.N, condZ (grid0.coords t) → ¬condS (grid0.coords t) → (cfg0.win 5).flush t = false := by decide +kernel
theorem idle5_B : ∀ t : Fin cfg0.N, ¬condZ (grid0.coords t) → ¬condS (grid0.coords t) → cfg0.idle 5 (grid0.coords t) = true := by decide +kernel
theorem noFlush5_B : ∀ t : Fin cfg0.N, ¬condZ (grid0.coords t) → ¬condS (grid0.coords t) → (cfg0.win 5).flush t = false := by decide +kernel
theorem live5_C : ∀ t : Fin cfg0.N, ¬condZ (grid0.coords t) → condS (grid0.coords t) → cfg0.idle 5 (grid0.coords t) = false := by decide +kernel

/-! ## The memrefs the body is called with -/

/-- One staging buffer of the output window, through which its contents are stated. -/
abbrev VO5 : View sig .tc .vmem S1x32x512x42 .f32 := (Memref.whole cc0_stg5_0 : Memref sig .tc .vmem S1x32x512x42 .f32).view
abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x32 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512x42 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S32x512x2 .f32 := Memref.whole cc0_scratch0
abbrev accV : View sig .tc .vmem S32x512x2 .f32 := (accM).view

/-- The other scoped buffers that are no staging buffer of this region (the second pallas_call's), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's plain invariant with the accumulator as a memref owned at some contents. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

end Cert.Kernel.Hand

end
-- ==== Proof.K.PackRunA.lean ====
/-
  The packing kernel's body in CASE A (the first time block: the accumulator is zeroed, then one block's product is added; the output window is not touched and is handed back as found): the pieces its stores leave in the output window's buffer and in the
  accumulator, with the proof that the body runs from the inputs' buffers at their contents to the continuation
  holding them unchanged and those pieces written.
-/
import proofs.«146262_j33595234189952_2_alg».proof.Proof.K.PackBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) :
    Σ' (L5 : List (View.Piece (Elt F) S1x32x512x42 .f32)), { LS : List (View.Piece (Elt F) S32x512x2 .f32) //
      ∀ (xi5 : Vec F S1x32x512x42 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨[], ?_, fun xi5 E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.K.PackRunB.lean ====
/-
  The packing kernel's body in CASE B (an inner time block: one block's product is added to the accumulator the point before left; the output window is not touched and is handed back as found): the pieces its stores leave in the output window's buffer and in the
  accumulator, with the proof that the body runs from the inputs' buffers at their contents to the continuation
  holding them unchanged and those pieces written.
-/
import proofs.«146262_j33595234189952_2_alg».proof.Proof.K.PackBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    Σ' (L5 : List (View.Piece (Elt F) S1x32x512x42 .f32)), { LS : List (View.Piece (Elt F) S32x512x2 .f32) //
      ∀ (xi5 : Vec F S1x32x512x42 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨[], ?_, fun xi5 E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.K.PackRunC.lean ====
/-
  The packing kernel's body in CASE C (the last time block: one block's product is added to the accumulator the point before left, and the output block is stored): the pieces its stores leave in the output window's buffer and in the
  accumulator, with the proof that the body runs from the inputs' buffers at their contents to the continuation
  holding them unchanged and those pieces written.
-/
import proofs.«146262_j33595234189952_2_alg».proof.Proof.K.PackBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    Σ' (L5 : List (View.Piece (Elt F) S1x32x512x42 .f32)), { LS : List (View.Piece (Elt F) S32x512x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨?_, ?_, fun E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.K.PackFrame.lean ====
/-
  The packing kernel as a pipeline region entered at buffer contents `V`: what its output window's buffer and its
  accumulator hold after each grid point (by recursion on the point: the accumulator is zeroed and restarted at every
  first time block, and carried over otherwise), the region's invariant (the accumulator at what the point before
  left), the pipeline's proof data, and the body's obligation at every point — a case split on the time-block
  coordinate, each case the body's run in that case.
-/
import proofs.«146262_j33595234189952_2_alg».proof.Proof.K.PackRunA
import proofs.«146262_j33595234189952_2_alg».proof.Proof.K.PackRunB
import proofs.«146262_j33595234189952_2_alg».proof.Proof.K.PackRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: what the output window's buffer reads as after the body (no store: a placeholder nothing consults, the window being idle and not written back there). -/
def outA_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) : Vec F S1x32x512x42 .f32 :=
  VO5.read (Elt F) (VO5.writes (Elt F) VO5.junk (kernelRunA c i arg3 harg3 arg4 harg4 arg5 harg5 arg6 harg6 arg7 harg7 arg8 harg8 arg9 harg9 hc0 hc1 x0 x1 x2 x3 x4).1)

/-- Case A's stores into the accumulator cover it. -/
theorem scoverA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) (y : S32x512x2.Idx) :
    ∃ pc ∈ (kernelRunA c i arg3 harg3 arg4 harg4 arg5 harg5 arg6 harg6 arg7 harg7 arg8 harg8 arg9 harg9 hc0 hc1 x0 x1 x2 x3 x4).2.1, y ∈ pc.1.set :=
  View.cover_of_tiledL (kernelRunA c i arg3 harg3 arg4 harg4 arg5 harg5 arg6 harg6 arg7 harg7 arg8 harg8 arg9 harg9 hc0 hc1 x0 x1 x2 x3 x4).2.1 S32x512x2.size (by sl_kernel_rfl) y

/-- What case A leaves in the accumulator: its stored pieces read back. -/
def soutA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) : Vec F S32x512x2 .f32 :=
  accV.read (Elt F) (accV.writes (Elt F) accV.junk (kernelRunA c i arg3 harg3 arg4 harg4 arg5 harg5 arg6 harg6 arg7 harg7 arg8 harg8 arg9 harg9 hc0 hc1 x0 x1 x2 x3 x4).2.1)

/-- Case B: what the output window's buffer reads as after the body (no store: a placeholder nothing consults, the window being idle and not written back there). -/
def outB_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S1x32x512x42 .f32 :=
  VO5.read (Elt F) (VO5.writes (Elt F) VO5.junk (kernelRunB c i arg3 harg3 arg4 harg4 arg5 harg5 arg6 harg6 arg7 harg7 arg8 harg8 arg9 harg9 hc0 hc1 x0 x1 x2 x3 x4 xs).1)

/-- Case B's stores into the accumulator cover it. -/
theorem scoverB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S32x512x2.Idx) :
    ∃ pc ∈ (kernelRunB c i arg3 harg3 arg4 harg4 arg5 harg5 arg6 harg6 arg7 harg7 arg8 harg8 arg9 harg9 hc0 hc1 x0 x1 x2 x3 x4 xs).2.1, y ∈ pc.1.set :=
  View.cover_of_tiledL (kernelRunB c i arg3 harg3 arg4 harg4 arg5 harg5 arg6 harg6 arg7 harg7 arg8 harg8 arg9 harg9 hc0 hc1 x0 x1 x2 x3 x4 xs).2.1 S32x512x2.size (by sl_kernel_rfl) y

/-- What case B leaves in the accumulator: its stored pieces read back. -/
def soutB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S32x512x2 .f32 :=
  accV.read (Elt F) (accV.writes (Elt F) accV.junk (kernelRunB c i arg3 harg3 arg4 harg4 arg5 harg5 arg6 harg6 arg7 harg7 arg8 harg8 arg9 harg9 hc0 hc1 x0 x1 x2 x3 x4 xs).2.1)

/-- Case C's store into the output window's buffer covers the block. -/
theorem coverC_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S1x32x512x42.Idx) :
    ∃ pc ∈ (kernelRunC c i arg3 harg3 arg4 harg4 arg5 harg5 arg6 harg6 arg7 harg7 arg8 harg8 arg9 harg9 hc0 hc1 x0 x1 x2 x3 x4 xs).1, y ∈ pc.1.set :=
  View.cover_of_tiledL (kernelRunC c i arg3 harg3 arg4 harg4 arg5 harg5 arg6 harg6 arg7 harg7 arg8 harg8 arg9 harg9 hc0 hc1 x0 x1 x2 x3 x4 xs).1 S1x32x512x42.size (by sl_kernel_rfl) y

/-- Case C: what the output window's buffer reads as after the body (its stored pieces over anything). -/
def outC_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S1x32x512x42 .f32 :=
  VO5.read (Elt F) (VO5.writes (Elt F) VO5.junk (kernelRunC c i arg3 harg3 arg4 harg4 arg5 harg5 arg6 harg6 arg7 harg7 arg8 harg8 arg9 harg9 hc0 hc1 x0 x1 x2 x3 x4 xs).1)

/-- Case C's stores into the accumulator cover it. -/
theorem scoverC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S32x512x2.Idx) :
    ∃ pc ∈ (kernelRunC c i arg3 harg3 arg4 harg4 arg5 harg5 arg6 harg6 arg7 harg7 arg8 harg8 arg9 harg9 hc0 hc1 x0 x1 x2 x3 x4 xs).2.1, y ∈ pc.1.set :=
  View.cover_of_tiledL (kernelRunC c i arg3 harg3 arg4 harg4 arg5 harg5 arg6 harg6 arg7 harg7 arg8 harg8 arg9 harg9 hc0 hc1 x0 x1 x2 x3 x4 xs).2.1 S32x512x2.size (by sl_kernel_rfl) y

/-- What case C leaves in the accumulator: its stored pieces read back. -/
def soutC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S32x512x2 .f32 :=
  accV.read (Elt F) (accV.writes (Elt F) accV.junk (kernelRunC c i arg3 harg3 arg4 harg4 arg5 harg5 arg6 harg6 arg7 harg7 arg8 harg8 arg9 harg9 hc0 hc1 x0 x1 x2 x3 x4 xs).2.1)

section AtEntry
variable (V : (c : Dev nD) → (b : Ref sig .tc) → Buf (Elt F) ((c : Thread nD τ).loc b))

/-! ## What the output window's buffer and the accumulator hold after each point -/

/-- After the body at position `n`: (the output window's buffer, the accumulator). The case is read off `n % 8`;
    cases B and C start from the accumulator the point before left. -/
def outsAt0 (c : Dev nD) : (n : ℕ) → n < cfg0.N → Vec F S1x32x512x42 .f32 × Vec F S32x512x2 .f32
  | 0, hn => (outA_5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZ ⟨0, hn⟩).mpr (Nat.zero_mod _)) (fun h => (fun h => by (try dsimp only at h); omega) ((hcondS ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZ ⟨0, hn⟩).mpr (Nat.zero_mod _)) (fun h => (fun h => by (try dsimp only at h); omega) ((hcondS ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : (n + 1) % 8 = 7 then
        False.elim (by omega)
      else
        (outA_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZ ⟨n + 1, hn⟩).mpr h0) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZ ⟨n + 1, hn⟩).mpr h0) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (outC_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) ((hcondS ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) ((hcondS ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (outB_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (outA_5 c (grid0.coords t) (ms0 t) (hs0 t) (ms1 t) (hs1 t) (ms2 t) (hs2 t) (ms3 t) (hs3 t) (ms4 t) (hs4 t) (ms5 t) (hs5 t) accM (Memref.isWhole_whole _) ((hcondZ t).mpr h0) (fun h => h1 ((hcondS t).mp h)) (iblk0 V c 0 t) (iblk0 V c 1 t) (iblk0 V c 2 t) (iblk0 V c 3 t) (iblk0 V c 4 t), soutA c (grid0.coords t) (ms0 t) (hs0 t) (ms1 t) (hs1 t) (ms2 t) (hs2 t) (ms3 t) (hs3 t) (ms4 t) (hs4 t) (ms5 t) (hs5 t) accM (Memref.isWhole_whole _) ((hcondZ t).mpr h0) (fun h => h1 ((hcondS t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (outB_5 c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) (fun h => h1 ((hcondS t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, soutB c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) (fun h => h1 ((hcondS t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outC_5 c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) ((hcondS t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, soutC c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) ((hcondS t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

/-- Before position `n`: at the first point the plain invariant (every scoped buffer at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped (F := F) c) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves_in0 (c : Dev nD) (t : Fin cfg0.N) : (dat0 V c).leavesExact 0 t = owns (c : Thread nD τ) (ms0 t) fullShare (iblk0 V c 0 t) := by
  rw [show (dat0 V c).leavesExact 0 t = owns (c : Thread nD τ) (ms0 t) fullShare ((dat0 V c).after 0 t) from rfl, after0_0]
theorem leaves_in1 (c : Dev nD) (t : Fin cfg0.N) : (dat0 V c).leavesExact 1 t = owns (c : Thread nD τ) (ms1 t) fullShare (iblk0 V c 1 t) := by
  rw [show (dat0 V c).leavesExact 1 t = owns (c : Thread nD τ) (ms1 t) fullShare ((dat0 V c).after 1 t) from rfl, after0_1]
theorem leaves_in2 (c : Dev nD) (t : Fin cfg0.N) : (dat0 V c).leavesExact 2 t = owns (c : Thread nD τ) (ms2 t) fullShare (iblk0 V c 2 t) := by
  rw [show (dat0 V c).leavesExact 2 t = owns (c : Thread nD τ) (ms2 t) fullShare ((dat0 V c).after 2 t) from rfl, after0_2]
theorem leaves_in3 (c : Dev nD) (t : Fin cfg0.N) : (dat0 V c).leavesExact 3 t = owns (c : Thread nD τ) (ms3 t) fullShare (iblk0 V c 3 t) := by
  rw [show (dat0 V c).leavesExact 3 t = owns (c : Thread nD τ) (ms3 t) fullShare ((dat0 V c).after 3 t) from rfl, after0_3]
theorem leaves_in4 (c : Dev nD) (t : Fin cfg0.N) : (dat0 V c).leavesExact 4 t = owns (c : Thread nD τ) (ms4 t) fullShare (iblk0 V c 4 t) := by
  rw [show (dat0 V c).leavesExact 4 t = owns (c : Thread nD τ) (ms4 t) fullShare ((dat0 V c).after 4 t) from rfl, after0_4]

set_option maxHeartbeats 4800000 in
/-- The body at any point: the inputs' buffers hold their blocks; the point's time-block coordinate says which case it
    is in; the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [leaves_in0, leaves_in1, leaves_in2, leaves_in3, leaves_in4]
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  by_cases h0 : t.val % 8 = 0
  · by_cases h1 : t.val % 8 = 7
    · exfalso; omega
    · rw [Dat.leavesExact_idle (dat0 V c) 5 t (idle5_A t ((hcondZ t).mpr h0) (fun h => h1 ((hcondS t).mp h))) (noFlush5_A t ((hcondZ t).mpr h0) (fun h => h1 ((hcondS t).mp h)))]
      rw [outsAt0_A V c t h0 h1]
      unfold soutA; (try dsimp only)
      by_cases hz : t.val = 0
      · rw [PhiS_castSucc V c t, PhiS_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunA c (grid0.coords t) _ _ _ _ _ _ _ _ _ _ _ _ _ _ ((hcondZ t).mpr h0) (fun h => h1 ((hcondS t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverA c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunA c (grid0.coords t) _ _ _ _ _ _ _ _ _ _ _ _ _ _ ((hcondZ t).mpr h0) (fun h => h1 ((hcondS t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverA c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat0 V c).leavesExact 5 t = owns (c : Thread nD τ) (ms5 t) fullShare ((dat0 V c).after 5 t) from by
        unfold Dat.leavesExact; rw [live5_C t (fun h => h0 ((hcondZ t).mp h)) ((hcondS t).mpr h1)], after0_5]
      rw [outsAt0_C V c t h0 h1]
      unfold outC_5 soutC; (try dsimp only)
      by_cases hz : t.val = 0
      · exfalso; omega
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunC c (grid0.coords t) _ _ _ _ _ _ _ _ _ _ _ _ _ _ (fun h => h0 ((hcondZ t).mp h)) ((hcondS t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [HS Hrest Hg]
        · isplitl [HS Hrest]
          · isplitl [HS]
            · unfold owns; iexists _; isplitr
              swap; · iexact HS
              ipureintro; exact View.read_writes_of_cover _ _ _ _ _ (scoverC c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC_5 c _ _ _ _ _ _ _ _ _ _ _ _ _ _ _ _ _ _ _ _ _ _ _)
    · rw [Dat.leavesExact_idle (dat0 V c) 5 t (idle5_B t (fun h => h0 ((hcondZ t).mp h)) (fun h => h1 ((hcondS t).mp h))) (noFlush5_B t (fun h => h0 ((hcondZ t).mp h)) (fun h => h1 ((hcondS t).mp h)))]
      rw [outsAt0_B V c t h0 h1]
      unfold soutB; (try dsimp only)
      by_cases hz : t.val = 0
      · exfalso; omega
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunB c (grid0.coords t) _ _ _ _ _ _ _ _ _ _ _ _ _ _ (fun h => h0 ((hcondZ t).mp h)) (fun h => h1 ((hcondS t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverB c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hrest⟩, Hg⟩
  isplitl [HS Hrest]
  · isplitl [HS]
    · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 1024 := N_0; omega)

end AtEntry

end Cert.Kernel.Hand

end
-- ==== Proof.K.DemoFrame.lean ====
/- The second pallas_call's half of the frame of the kernel program: custom_call 1, the demo kernel (pipeline 1, a
   grid of 8 points). Window 0 is the operand's block [1,1,32], fetched at every point; window 1 is the result's
   block [1,32,2048,42], written back at every point. At a parameter `V` — the TensorCore's buffer contents when
   the region is entered — : each window's block at a point, what the body leaves in the output window's buffer,
   the body's triple, the proof data of the pipeline and its body obligation. -/
import proofs.«146262_j33595234189952_2_alg».proof.Proof.Gen.Kernel.Launch
import proofs.«146262_j33595234189952_2_alg».proof.Proof.Gen.Kernel.Skeleton
import proofs.«146262_j33595234189952_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x32x2048x42 := Rect.unit (s := S1x32x2048x42) ![0, 0, 0, 0] S1x32x2048x42.size inb_S1x32x2048x42_S1x32x2048x42_0_0_0_0

/-! ## What the body leaves in the output window's buffer -/

/-- Window 1's staging buffer after the body, from the input window's block: its one store, of the whole block. -/
def out1_1 (i : grid1.Coords) (x0 : Vec F S1x1x32 .f32) : Vec F S1x32x2048x42 .f32 :=
  View.canon [⟨r1_0, k1_pay1 i (View.ld x0 (Rect.unit (s := S1x1x32) ![0, 0, 0] S1x1x32.size inb_S1x1x32_S1x1x32_0_0_0))⟩]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The body loads its whole input block and stores its whole output block: what it leaves is the payload of the input block. -/
theorem out1_1_eq (i : grid1.Coords) (x0 : Vec F S1x1x32 .f32) : out1_1 i x0 = k1_pay1 i x0 := by
  unfold out1_1
  rw [View.canon_unit_zero (S := S1x32x2048x42) zeros4]
  rw [View.ld_unit_zero (S := S1x1x32) zeros3]

/-- The one store is of the whole buffer, so it covers it. -/
theorem cover1_1 (p0 : Vec F S1x32x2048x42 .f32) (y : S1x32x2048x42.Idx) :
    ∃ pc ∈ ([⟨r1_0, p0⟩] : List (View.Piece (Elt F) S1x32x2048x42 .f32)), y ∈ pc.1.set :=
  View.cover_of_tiled [⟨r1_0, p0⟩] S1x32x2048x42.size (by rfl) y

/-! ## The body's triple -/

set_option maxHeartbeats 1000000 in
/-- The kernel body on whole staging memrefs, the input's at read contents `x0` and the output's at anything, runs to
    the continuation holding the input's as it was and the output's at `out1_1` of the input's. The first argument, the
    whole result array in HBM, is touched by no operation of the body. -/
theorem sound_kernel1 (c : Dev nD) (E : Set ℕ) (i : grid1.Coords) (arg1 : Memref sig .tc .hbm S40x32x2048x42 .f32) (harg1 : arg1.IsWhole)
    (arg2 : Memref sig .tc .vmem S1x1x32 .f32) (harg2 : arg2.IsWhole) (arg3 : Memref sig .tc .vmem S1x32x2048x42 .f32) (harg3 : arg3.IsWhole)
    (x0 : Vec F S1x1x32 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 i x0)) -∗ K ⟨⟩))
      ⊢ wp frame (wpE (defs₀ (F := F)) Variants.none c none) E (cc1__demo_kernel i arg1 harg1 arg2 harg2 arg3 harg3) K := by
  simp only [cc1__demo_kernel_eq_skeleton]; unfold cc1__demo_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` the input's buffer at its block and the output's at `out1_1` of the input block; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (grid1.coords t) (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The whole program as a run of six segments — three stretches of host operations, the packing kernel's region, one
  more stretch, the demo kernel's region — from the launch memory to the return: the buffer contents at every segment
  boundary as a fold from the launch memory (a stretch's operations applied; a region's arrays at what its write-backs
  leave), each region entered from and left at "every unscoped buffer at the boundary's contents, the generator
  register at some state, nothing owed", and the run's conclusion: every weakly fair execution terminates with every
  unscoped buffer at the last boundary's contents — in particular the result array, and each argument array as launched.
-/
import proofs.«146262_j33595234189952_2_alg».proof.Proof.K.PackFrame
import proofs.«146262_j33595234189952_2_alg».proof.Proof.K.DemoFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Wt2 : Dev nD → Valuation τ sig (Elt F) := fun c => StableHlo.after hostOps0_1 (Wt1 m ρ c)
abbrev Wt3 : Dev nD → Valuation τ sig (Elt F) := fun c => StableHlo.after hostOps0_2 (Wt2 m ρ c)
/-- The packing region's entry contents, read at the TensorCore's references. -/
abbrev Vt3 : (c : Dev nD) → (b : Ref sig .tc) → Buf (Elt F) ((c : Thread nD τ).loc b) := fun c b => Wt3 m ρ c b
/-- At the packing region's exit: its arrays at what the pipeline leaves, every other buffer as entered. -/
def Wt4 (c : Dev nD) : Valuation τ sig (Elt F) :=
  Pipeline.withArrays spec0 c (Wt3 m ρ c) fun w => (dat0 (Vt3 m ρ) c).arrAt w cfg0.N
theorem Wt4_arr (c : Dev nD) (w : Fin cfg0.W) :
    Wt4 m ρ c (Proc.devRef .tc (Pipeline.arrRef spec0 w)) = (dat0 (Vt3 m ρ) c).arrAt w cfg0.N := by
  unfold Wt4; exact Pipeline.withArrays_arr spec0 launch0.win.arr_inj c _ _ w
theorem Wt4_of_ne (c : Dev nD) (b : Ref sig .tc) (hb : ∀ w, Pipeline.arrRef spec0 w ≠ b) :
    Wt4 m ρ c (Proc.devRef .tc b) = Wt3 m ρ c (Proc.devRef .tc b) := by
  unfold Wt4; exact Pipeline.withArrays_of_ne spec0 c _ _ b hb
abbrev Vt4 : (c : Dev nD) → (b : Ref sig .tc) → Buf (Elt F) ((c : Thread nD τ).loc b) := fun c b => Wt4 m ρ c b
theorem hF0 (c : Dev nD) (w : Fin cfg0.W) : (dat0 (Vt3 m ρ) c).arrAt w cfg0.N = Vt4 m ρ c (Pipeline.arrRef spec0 w) :=
  (Wt4_arr m ρ c w).symm
theorem hrest0 (c : Dev nD) : ∀ b, b ∉ Finset.univ.image (Pipeline.arrRef spec0) → Vt4 m ρ c b = Vt3 m ρ c b :=
  fun b hb => Wt4_of_ne m ρ c b fun w e => hb (Finset.mem_image.mpr ⟨w, Finset.mem_univ _, e⟩)

abbrev Wt5 : Dev nD → Valuation τ sig (Elt F) := fun c => StableHlo.after hostOps1 (Wt4 m ρ c)
/-- The demo region's entry contents. -/
abbrev Vt5 : (c : Dev nD) → (b : Ref sig .tc) → Buf (Elt F) ((c : Thread nD τ).loc b) := fun c b => Wt5 m ρ c b
def Wt6 (c : Dev nD) : Valuation τ sig (Elt F) :=
  Pipeline.withArrays spec1 c (Wt5 m ρ c) fun w => (dat1 (Vt5 m ρ) c).arrAt w cfg1.N
theorem Wt6_arr (c : Dev nD) (w : Fin cfg1.W) :
    Wt6 m ρ c (Proc.devRef .tc (Pipeline.arrRef spec1 w)) = (dat1 (Vt5 m ρ) c).arrAt w cfg1.N := by
  unfold Wt6; exact Pipeline.withArrays_arr spec1 launch1.win.arr_inj c _ _ w
theorem Wt6_of_ne (c : Dev nD) (b : Ref sig .tc) (hb : ∀ w, Pipeline.arrRef spec1 w ≠ b) :
    Wt6 m ρ c (Proc.devRef .tc b) = Wt5 m ρ c (Proc.devRef .tc b) := by
  unfold Wt6; exact Pipeline.withArrays_of_ne spec1 c _ _ b hb
abbrev Vt6 : (c : Dev nD) → (b : Ref sig .tc) → Buf (Elt F) ((c : Thread nD τ).loc b) := fun c b => Wt6 m ρ c b
theorem hF1 (c : Dev nD) (w : Fin cfg1.W) : (dat1 (Vt5 m ρ) c).arrAt w cfg1.N = Vt6 m ρ c (Pipeline.arrRef spec1 w) :=
  (Wt6_arr m ρ c w).symm
theorem hrest1 (c : Dev nD) : ∀ b, b ∉ Finset.univ.image (Pipeline.arrRef spec1) → Vt6 m ρ c b = Vt5 m ρ c b :=
  fun b hb => Wt6_of_ne m ρ c b fun w e => hb (Finset.mem_image.mpr ⟨w, Finset.mem_univ _, e⟩)

/-! ### The arguments end as launched: no host operation writes one and no region changes one -/

theorem Wt6_main_arg0 (c : Dev nD) : Wt6 m ρ c (Proc.devRef .tc main_arg0) = m ((c : Thread nD τ).loc main_arg0) :=
  calc Wt6 m ρ c (Proc.devRef .tc main_arg0)
    _ = Wt5 m ρ c (Proc.devRef .tc main_arg0) := Wt6_of_ne m ρ c main_arg0 (by decide)
    _ = Wt4 m ρ c (Proc.devRef .tc main_arg0) := StableHlo.after_of_forall_not_mem (b := Proc.devRef .tc main_arg0) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg0) := Wt4_of_ne m ρ c main_arg0 (by decide)
    _ = Wt2 m ρ c (Proc.devRef .tc main_arg0) := StableHlo.after_of_forall_not_mem (b := Proc.devRef .tc main_arg0) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg0) := StableHlo.after_of_forall_not_mem (b := Proc.devRef .tc main_arg0) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg0) := StableHlo.after_of_forall_not_mem (b := Proc.devRef .tc main_arg0) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wt6_main_arg1 (c : Dev nD) : Wt6 m ρ c (Proc.devRef .tc main_arg1) = m ((c : Thread nD τ).loc main_arg1) :=
  calc Wt6 m ρ c (Proc.devRef .tc main_arg1)
    _ = Wt5 m ρ c (Proc.devRef .tc main_arg1) := Wt6_of_ne m ρ c main_arg1 (by decide)
    _ = Wt4 m ρ c (Proc.devRef .tc main_arg1) := StableHlo.after_of_forall_not_mem (b := Proc.devRef .tc main_arg1) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg1) := (Wt4_arr m ρ c 0).trans (((dat0 (Vt3 m ρ) c).arrAt_in 0 rfl _).trans (A_eq0 (Vt3 m ρ) c 0))
    _ = Wt2 m ρ c (Proc.devRef .tc main_arg1) := StableHlo.after_of_forall_not_mem (b := Proc.devRef .tc main_arg1) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg1) := StableHlo.after_of_forall_not_mem (b := Proc.devRef .tc main_arg1) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg1) := StableHlo.after_of_forall_not_mem (b := Proc.devRef .tc main_arg1) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wt6_main_arg2 (c : Dev nD) : Wt6 m ρ c (Proc.devRef .tc main_arg2) = m ((c : Thread nD τ).loc main_arg2) :=
  calc Wt6 m ρ c (Proc.devRef .tc main_arg2)
    _ = Wt5 m ρ c (Proc.devRef .tc main_arg2) := Wt6_of_ne m ρ c main_arg2 (by decide)
    _ = Wt4 m ρ c (Proc.devRef .tc main_arg2) := StableHlo.after_of_forall_not_mem (b := Proc.devRef .tc main_arg2) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg2) := Wt4_of_ne m ρ c main_arg2 (by decide)
    _ = Wt2 m ρ c (Proc.devRef .tc main_arg2) := StableHlo.after_of_forall_not_mem (b := Proc.devRef .tc main_arg2) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg2) := StableHlo.after_of_forall_not_mem (b := Proc.devRef .tc main_arg2) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg2) := StableHlo.after_of_forall_not_mem (b := Proc.devRef .tc main_arg2) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wt6_main_arg3 (c : Dev nD) : Wt6 m ρ c (Proc.devRef .tc main_arg3) = m ((c : Thread nD τ).loc main_arg3) :=
  calc Wt6 m ρ c (Proc.devRef .tc main_arg3)
    _ = Wt5 m ρ c (Proc.devRef .tc main_arg3) := Wt6_of_ne m ρ c main_arg3 (by decide)
    _ = Wt4 m ρ c (Proc.devRef .tc main_arg3) := StableHlo.after_of_forall_not_mem (b := Proc.devRef .tc main_arg3) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg3) := Wt4_of_ne m ρ c main_arg3 (by decide)
    _ = Wt2 m ρ c (Proc.devRef .tc main_arg3) := StableHlo.after_of_forall_not_mem (b := Proc.devRef .tc main_arg3) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg3) := StableHlo.after_of_forall_not_mem (b := Proc.devRef .tc main_arg3) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg3) := StableHlo.after_of_forall_not_mem (b := Proc.devRef .tc main_arg3) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what the demo region's write-backs leave in it. -/
theorem Wt6_result (c : Dev nD) : Wt6 m ρ c (Proc.devRef .tc main_v15) = (dat1 (Vt5 m ρ) c).arrAt 1 cfg1.N :=
  Wt6_arr m ρ c 1

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vt3 m ρ) c
  | ⟨1, _⟩ => fun c => dat1 (Vt5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wt6 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt3 m ρ) c).loose
  hwaits := Pipeline.hwaits_of_owed_zero _ _ _ _ L lv 0 fun _ _ => rfl
  pre c := iprop(StableHlo.held (c : Thread nD τ) (Pipeline.ucRefs τ sig) (Wt3 m ρ c) ∗ R c)
  post c := iprop(StableHlo.held (c : Thread nD τ) (Pipeline.ucRefs τ sig) (Wt4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (Vt3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt3 m ρ c) (Vt4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt5 m ρ) c).loose
  hwaits := Pipeline.hwaits_of_owed_zero _ _ _ _ L lv 1 fun _ _ => rfl
  pre c := iprop(StableHlo.held (c : Thread nD τ) (Pipeline.ucRefs τ sig) (Wt5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt5 m ρ c) (Vt6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (Wt0 m ρ)),
    .host (hseg hostOps0_1 hostOps0_1_sub hostOps0_1_fresh (Wt1 m ρ)),
    .host (hseg hostOps0_2 hostOps0_2_sub hostOps0_2_fresh (Wt2 m ρ)),
    .region (reg0 m ρ),
    .host (hseg hostOps1 hostOps1_sub hostOps1_fresh (Wt4 m ρ)),
    .region (reg1 m ρ) ]
theorem main_run (c : Dev nD) : main (F := F) c = Pipeline.Seg.run (segs m ρ) := by
  rw [main_chain c, Pipeline.Seg.run_eq_chain]; rfl

set_option backward.isDefEq.respectTransparency.types false in
/-- Every weakly fair execution from memory `m` with zero counters terminates, nothing faulting, with the result array
    at what the demo region's write-backs leave and every argument array as launched. -/
theorem run_val : θ_run defs (onTc (τ := τ) (main (F := F))) ⟨m, fun _ => 0, ρ⟩ (fun r => ∀ c : Dev nD,
      r.2.mem ((c.tc : Thread nD τ).loc main_v15) = (dat1 (Vt5 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt6 m ρ c) s')
      isplitl [Hh] <;> iassumption)
    (hQ := fun s h c =>
      ⟨(h c _ (mem_uc main_v15 (by decide))).trans (Wt6_result m ρ c),
       (h c _ (mem_uc main_arg0 (by decide))).trans (Wt6_main_arg0 m ρ c),
       (h c _ (mem_uc main_arg1 (by decide))).trans (Wt6_main_arg1 m ρ c),
       (h c _ (mem_uc main_arg2 (by decide))).trans (Wt6_main_arg2 m ρ c),
       (h c _ (mem_uc main_arg3 (by decide))).trans (Wt6_main_arg3 m ρ c)⟩)

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_val m ρ)

end Cert.Kernel.Hand

end
-- ==== Proof.KI.PackBase.lean ====
/-
  The first pallas_call (the packing kernel, grid 32 × 4 × 8 = channel × block of 512 packed positions × block of
  256 time steps) as a pipeline region entered at buffer contents `V`: what is shared by the three control cases of
  its body. The body zeroes its accumulator (a scratch of 32 × 512 × 2 numbers) at the first time block (k = 0),
  adds one block's selection product into it at every point, and stores the output block only at the last time
  block (k = 7); so a point is in case A (k = 0), B (0 < k < 7) or C (k = 7), the output window is idle in A and B,
  and the accumulator is carried from point to point.
-/
import proofs.«146262_j33595234189952_2_alg».proof.Proof.Gen.KernelIdeal.Launch
import proofs.«146262_j33595234189952_2_alg».proof.Proof.Gen.KernelIdeal.Skeleton
import proofs.«146262_j33595234189952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the five input windows holds its block at every point, whether the pipeline fetched it there or not
    (when it did not, the block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end AtEntry

/-! ## The two branch conditions, in closed form over the grid -/

/-- The accumulator is zeroed where the time-block coordinate is 0. -/
abbrev condZ (i : grid0.Coords) : Prop := (Scalar.cmpi .ne (Scalar.extui (Scalar.cmpi .eq (BitVec.ofNat 32 (i 2).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- The output block is stored where the time-block coordinate is 7. -/
abbrev condS (i : grid0.Coords) : Prop := k0_cond2 i = 1#1
theorem hcondS : ∀ t : Fin cfg0.N, condS (grid0.coords t) ↔ t.val % 8 = 7 :=
  (by decide +kernel : ∀ t : Fin grid0.N, condS (grid0.coords t) ↔ t.val % 8 = 7)

/-! ## Where the output window is idle -/

theorem idle5_A : ∀ t : Fin cfg0.N, condZ (grid0.coords t) → ¬condS (grid0.coords t) → cfg0.idle 5 (grid0.coords t) = true := by decide +kernel
theorem noFlush5_A : ∀ t : Fin cfg0.N, condZ (grid0.coords t) → ¬condS (grid0.coords t) → (cfg0.win 5).flush t = false := by decide +kernel
theorem idle5_B : ∀ t : Fin cfg0.N, ¬condZ (grid0.coords t) → ¬condS (grid0.coords t) → cfg0.idle 5 (grid0.coords t) = true := by decide +kernel
theorem noFlush5_B : ∀ t : Fin cfg0.N, ¬condZ (grid0.coords t) → ¬condS (grid0.coords t) → (cfg0.win 5).flush t = false := by decide +kernel
theorem live5_C : ∀ t : Fin cfg0.N, ¬condZ (grid0.coords t) → condS (grid0.coords t) → cfg0.idle 5 (grid0.coords t) = false := by decide +kernel

/-! ## The memrefs the body is called with -/

/-- One staging buffer of the output window, through which its contents are stated. -/
abbrev VO5 : View sig .tc .vmem S1x32x512x42 .f32 := (Memref.whole cc0_stg5_0 : Memref sig .tc .vmem S1x32x512x42 .f32).view
abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x32 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512x42 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S32x512x2 .f32 := Memref.whole cc0_scratch0
abbrev accV : View sig .tc .vmem S32x512x2 .f32 := (accM).view

/-- The other scoped buffers that are no staging buffer of this region (the second pallas_call's), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's plain invariant with the accumulator as a memref owned at some contents. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

end Cert.KernelIdeal.Hand

end
-- ==== Proof.KI.PackRunA.lean ====
/-
  The packing kernel's body in CASE A (the first time block: the accumulator is zeroed, then one block's product is added; the output window is not touched and is handed back as found): the pieces its stores leave in the output window's buffer and in the
  accumulator, with the proof that the body runs from the inputs' buffers at their contents to the continuation
  holding them unchanged and those pieces written.
-/
import proofs.«146262_j33595234189952_2_alg».proof.Proof.KI.PackBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) :
    Σ' (L5 : List (View.Piece (Elt F) S1x32x512x42 .f32)), { LS : List (View.Piece (Elt F) S32x512x2 .f32) //
      ∀ (xi5 : Vec F S1x32x512x42 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨[], ?_, fun xi5 E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.KI.PackRunB.lean ====
/-
  The packing kernel's body in CASE B (an inner time block: one block's product is added to the accumulator the point before left; the output window is not touched and is handed back as found): the pieces its stores leave in the output window's buffer and in the
  accumulator, with the proof that the body runs from the inputs' buffers at their contents to the continuation
  holding them unchanged and those pieces written.
-/
import proofs.«146262_j33595234189952_2_alg».proof.Proof.KI.PackBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    Σ' (L5 : List (View.Piece (Elt F) S1x32x512x42 .f32)), { LS : List (View.Piece (Elt F) S32x512x2 .f32) //
      ∀ (xi5 : Vec F S1x32x512x42 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨[], ?_, fun xi5 E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.KI.PackRunC.lean ====
/-
  The packing kernel's body in CASE C (the last time block: one block's product is added to the accumulator the point before left, and the output block is stored): the pieces its stores leave in the output window's buffer and in the
  accumulator, with the proof that the body runs from the inputs' buffers at their contents to the continuation
  holding them unchanged and those pieces written.
-/
import proofs.«146262_j33595234189952_2_alg».proof.Proof.KI.PackBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    Σ' (L5 : List (View.Piece (Elt F) S1x32x512x42 .f32)), { LS : List (View.Piece (Elt F) S32x512x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc0__pack_kernel i arg3 harg3 arg4 harg4 arg5 harg5 arg6 harg6 arg7 harg7 arg8 harg8 arg9 harg9) K } := by
  refine ⟨?_, ?_, fun E K => ?run⟩
  case run =>
    simp only [cc0__pack_kernel_eq_skeleton]; unfold cc0__pack_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.KI.PackFrame.lean ====
/-
  The packing kernel as a pipeline region entered at buffer contents `V`: what its output window's buffer and its
  accumulator hold after each grid point (by recursion on the point: the accumulator is zeroed and restarted at every
  first time block, and carried over otherwise), the region's invariant (the accumulator at what the point before
  left), the pipeline's proof data, and the body's obligation at every point — a case split on the time-block
  coordinate, each case the body's run in that case.
-/
import proofs.«146262_j33595234189952_2_alg».proof.Proof.KI.PackRunA
import proofs.«146262_j33595234189952_2_alg».proof.Proof.KI.PackRunB
import proofs.«146262_j33595234189952_2_alg».proof.Proof.KI.PackRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: what the output window's buffer reads as after the body (no store: a placeholder nothing consults, the window being idle and not written back there). -/
def outA_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) : Vec F S1x32x512x42 .f32 :=
  VO5.read (Elt F) (VO5.writes (Elt F) VO5.junk (kernelRunA c i arg3 harg3 arg4 harg4 arg5 harg5 arg6 harg6 arg7 harg7 arg8 harg8 arg9 harg9 hc0 hc1 x0 x1 x2 x3 x4).1)

/-- Case A's stores into the accumulator cover it. -/
theorem scoverA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) (y : S32x512x2.Idx) :
    ∃ pc ∈ (kernelRunA c i arg3 harg3 arg4 harg4 arg5 harg5 arg6 harg6 arg7 harg7 arg8 harg8 arg9 harg9 hc0 hc1 x0 x1 x2 x3 x4).2.1, y ∈ pc.1.set :=
  View.cover_of_tiledL (kernelRunA c i arg3 harg3 arg4 harg4 arg5 harg5 arg6 harg6 arg7 harg7 arg8 harg8 arg9 harg9 hc0 hc1 x0 x1 x2 x3 x4).2.1 S32x512x2.size (by sl_kernel_rfl) y

/-- What case A leaves in the accumulator: its stored pieces read back. -/
def soutA (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) : Vec F S32x512x2 .f32 :=
  accV.read (Elt F) (accV.writes (Elt F) accV.junk (kernelRunA c i arg3 harg3 arg4 harg4 arg5 harg5 arg6 harg6 arg7 harg7 arg8 harg8 arg9 harg9 hc0 hc1 x0 x1 x2 x3 x4).2.1)

/-- Case B: what the output window's buffer reads as after the body (no store: a placeholder nothing consults, the window being idle and not written back there). -/
def outB_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S1x32x512x42 .f32 :=
  VO5.read (Elt F) (VO5.writes (Elt F) VO5.junk (kernelRunB c i arg3 harg3 arg4 harg4 arg5 harg5 arg6 harg6 arg7 harg7 arg8 harg8 arg9 harg9 hc0 hc1 x0 x1 x2 x3 x4 xs).1)

/-- Case B's stores into the accumulator cover it. -/
theorem scoverB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S32x512x2.Idx) :
    ∃ pc ∈ (kernelRunB c i arg3 harg3 arg4 harg4 arg5 harg5 arg6 harg6 arg7 harg7 arg8 harg8 arg9 harg9 hc0 hc1 x0 x1 x2 x3 x4 xs).2.1, y ∈ pc.1.set :=
  View.cover_of_tiledL (kernelRunB c i arg3 harg3 arg4 harg4 arg5 harg5 arg6 harg6 arg7 harg7 arg8 harg8 arg9 harg9 hc0 hc1 x0 x1 x2 x3 x4 xs).2.1 S32x512x2.size (by sl_kernel_rfl) y

/-- What case B leaves in the accumulator: its stored pieces read back. -/
def soutB (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S32x512x2 .f32 :=
  accV.read (Elt F) (accV.writes (Elt F) accV.junk (kernelRunB c i arg3 harg3 arg4 harg4 arg5 harg5 arg6 harg6 arg7 harg7 arg8 harg8 arg9 harg9 hc0 hc1 x0 x1 x2 x3 x4 xs).2.1)

/-- Case C's store into the output window's buffer covers the block. -/
theorem coverC_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S1x32x512x42.Idx) :
    ∃ pc ∈ (kernelRunC c i arg3 harg3 arg4 harg4 arg5 harg5 arg6 harg6 arg7 harg7 arg8 harg8 arg9 harg9 hc0 hc1 x0 x1 x2 x3 x4 xs).1, y ∈ pc.1.set :=
  View.cover_of_tiledL (kernelRunC c i arg3 harg3 arg4 harg4 arg5 harg5 arg6 harg6 arg7 harg7 arg8 harg8 arg9 harg9 hc0 hc1 x0 x1 x2 x3 x4 xs).1 S1x32x512x42.size (by sl_kernel_rfl) y

/-- Case C: what the output window's buffer reads as after the body (its stored pieces over anything). -/
def outC_5 (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S1x32x512x42 .f32 :=
  VO5.read (Elt F) (VO5.writes (Elt F) VO5.junk (kernelRunC c i arg3 harg3 arg4 harg4 arg5 harg5 arg6 harg6 arg7 harg7 arg8 harg8 arg9 harg9 hc0 hc1 x0 x1 x2 x3 x4 xs).1)

/-- Case C's stores into the accumulator cover it. -/
theorem scoverC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) (y : S32x512x2.Idx) :
    ∃ pc ∈ (kernelRunC c i arg3 harg3 arg4 harg4 arg5 harg5 arg6 harg6 arg7 harg7 arg8 harg8 arg9 harg9 hc0 hc1 x0 x1 x2 x3 x4 xs).2.1, y ∈ pc.1.set :=
  View.cover_of_tiledL (kernelRunC c i arg3 harg3 arg4 harg4 arg5 harg5 arg6 harg6 arg7 harg7 arg8 harg8 arg9 harg9 hc0 hc1 x0 x1 x2 x3 x4 xs).2.1 S32x512x2.size (by sl_kernel_rfl) y

/-- What case C leaves in the accumulator: its stored pieces read back. -/
def soutC (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) : Vec F S32x512x2 .f32 :=
  accV.read (Elt F) (accV.writes (Elt F) accV.junk (kernelRunC c i arg3 harg3 arg4 harg4 arg5 harg5 arg6 harg6 arg7 harg7 arg8 harg8 arg9 harg9 hc0 hc1 x0 x1 x2 x3 x4 xs).2.1)

section AtEntry
variable (V : (c : Dev nD) → (b : Ref sig .tc) → Buf (Elt F) ((c : Thread nD τ).loc b))

/-! ## What the output window's buffer and the accumulator hold after each point -/

/-- After the body at position `n`: (the output window's buffer, the accumulator). The case is read off `n % 8`;
    cases B and C start from the accumulator the point before left. -/
def outsAt0 (c : Dev nD) : (n : ℕ) → n < cfg0.N → Vec F S1x32x512x42 .f32 × Vec F S32x512x2 .f32
  | 0, hn => (outA_5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZ ⟨0, hn⟩).mpr (Nat.zero_mod _)) (fun h => (fun h => by (try dsimp only at h); omega) ((hcondS ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) accM (Memref.isWhole_whole _) ((hcondZ ⟨0, hn⟩).mpr (Nat.zero_mod _)) (fun h => (fun h => by (try dsimp only at h); omega) ((hcondS ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : (n + 1) % 8 = 7 then
        False.elim (by omega)
      else
        (outA_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZ ⟨n + 1, hn⟩).mpr h0) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) ((hcondZ ⟨n + 1, hn⟩).mpr h0) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (outC_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) ((hcondS ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) ((hcondS ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (outB_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) accM (Memref.isWhole_whole _) (fun h => h0 ((hcondZ ⟨n + 1, hn⟩).mp h)) (fun h => h1 ((hcondS ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (outA_5 c (grid0.coords t) (ms0 t) (hs0 t) (ms1 t) (hs1 t) (ms2 t) (hs2 t) (ms3 t) (hs3 t) (ms4 t) (hs4 t) (ms5 t) (hs5 t) accM (Memref.isWhole_whole _) ((hcondZ t).mpr h0) (fun h => h1 ((hcondS t).mp h)) (iblk0 V c 0 t) (iblk0 V c 1 t) (iblk0 V c 2 t) (iblk0 V c 3 t) (iblk0 V c 4 t), soutA c (grid0.coords t) (ms0 t) (hs0 t) (ms1 t) (hs1 t) (ms2 t) (hs2 t) (ms3 t) (hs3 t) (ms4 t) (hs4 t) (ms5 t) (hs5 t) accM (Memref.isWhole_whole _) ((hcondZ t).mpr h0) (fun h => h1 ((hcondS t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (outB_5 c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) (fun h => h1 ((hcondS t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, soutB c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) (fun h => h1 ((hcondS t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outC_5 c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) ((hcondS t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, soutC c (grid0.coords t) (ms0 t) (hs0 t) (ms1 t) (hs1 t) (ms2 t) (hs2 t) (ms3 t) (hs3 t) (ms4 t) (hs4 t) (ms5 t) (hs5 t) accM (Memref.isWhole_whole _) (fun h => h0 ((hcondZ t).mp h)) ((hcondS t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried between points -/

/-- Before position `n`: at the first point the plain invariant (every scoped buffer at anything); afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped (F := F) c) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves_in0 (c : Dev nD) (t : Fin cfg0.N) : (dat0 V c).leavesExact 0 t = owns (c : Thread nD τ) (ms0 t) fullShare (iblk0 V c 0 t) := by
  rw [show (dat0 V c).leavesExact 0 t = owns (c : Thread nD τ) (ms0 t) fullShare ((dat0 V c).after 0 t) from rfl, after0_0]
theorem leaves_in1 (c : Dev nD) (t : Fin cfg0.N) : (dat0 V c).leavesExact 1 t = owns (c : Thread nD τ) (ms1 t) fullShare (iblk0 V c 1 t) := by
  rw [show (dat0 V c).leavesExact 1 t = owns (c : Thread nD τ) (ms1 t) fullShare ((dat0 V c).after 1 t) from rfl, after0_1]
theorem leaves_in2 (c : Dev nD) (t : Fin cfg0.N) : (dat0 V c).leavesExact 2 t = owns (c : Thread nD τ) (ms2 t) fullShare (iblk0 V c 2 t) := by
  rw [show (dat0 V c).leavesExact 2 t = owns (c : Thread nD τ) (ms2 t) fullShare ((dat0 V c).after 2 t) from rfl, after0_2]
theorem leaves_in3 (c : Dev nD) (t : Fin cfg0.N) : (dat0 V c).leavesExact 3 t = owns (c : Thread nD τ) (ms3 t) fullShare (iblk0 V c 3 t) := by
  rw [show (dat0 V c).leavesExact 3 t = owns (c : Thread nD τ) (ms3 t) fullShare ((dat0 V c).after 3 t) from rfl, after0_3]
theorem leaves_in4 (c : Dev nD) (t : Fin cfg0.N) : (dat0 V c).leavesExact 4 t = owns (c : Thread nD τ) (ms4 t) fullShare (iblk0 V c 4 t) := by
  rw [show (dat0 V c).leavesExact 4 t = owns (c : Thread nD τ) (ms4 t) fullShare ((dat0 V c).after 4 t) from rfl, after0_4]

set_option maxHeartbeats 4800000 in
/-- The body at any point: the inputs' buffers hold their blocks; the point's time-block coordinate says which case it
    is in; the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [leaves_in0, leaves_in1, leaves_in2, leaves_in3, leaves_in4]
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  by_cases h0 : t.val % 8 = 0
  · by_cases h1 : t.val % 8 = 7
    · exfalso; omega
    · rw [Dat.leavesExact_idle (dat0 V c) 5 t (idle5_A t ((hcondZ t).mpr h0) (fun h => h1 ((hcondS t).mp h))) (noFlush5_A t ((hcondZ t).mpr h0) (fun h => h1 ((hcondS t).mp h)))]
      rw [outsAt0_A V c t h0 h1]
      unfold soutA; (try dsimp only)
      by_cases hz : t.val = 0
      · rw [PhiS_castSucc V c t, PhiS_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunA c (grid0.coords t) _ _ _ _ _ _ _ _ _ _ _ _ _ _ ((hcondZ t).mpr h0) (fun h => h1 ((hcondS t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverA c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunA c (grid0.coords t) _ _ _ _ _ _ _ _ _ _ _ _ _ _ ((hcondZ t).mpr h0) (fun h => h1 ((hcondS t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverA c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat0 V c).leavesExact 5 t = owns (c : Thread nD τ) (ms5 t) fullShare ((dat0 V c).after 5 t) from by
        unfold Dat.leavesExact; rw [live5_C t (fun h => h0 ((hcondZ t).mp h)) ((hcondS t).mpr h1)], after0_5]
      rw [outsAt0_C V c t h0 h1]
      unfold outC_5 soutC; (try dsimp only)
      by_cases hz : t.val = 0
      · exfalso; omega
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunC c (grid0.coords t) _ _ _ _ _ _ _ _ _ _ _ _ _ _ (fun h => h0 ((hcondZ t).mp h)) ((hcondS t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [HS Hrest Hg]
        · isplitl [HS Hrest]
          · isplitl [HS]
            · unfold owns; iexists _; isplitr
              swap; · iexact HS
              ipureintro; exact View.read_writes_of_cover _ _ _ _ _ (scoverC c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC_5 c _ _ _ _ _ _ _ _ _ _ _ _ _ _ _ _ _ _ _ _ _ _ _)
    · rw [Dat.leavesExact_idle (dat0 V c) 5 t (idle5_B t (fun h => h0 ((hcondZ t).mp h)) (fun h => h1 ((hcondS t).mp h))) (noFlush5_B t (fun h => h0 ((hcondZ t).mp h)) (fun h => h1 ((hcondS t).mp h)))]
      rw [outsAt0_B V c t h0 h1]
      unfold soutB; (try dsimp only)
      by_cases hz : t.val = 0
      · exfalso; omega
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply ((kernelRunB c (grid0.coords t) _ _ _ _ _ _ _ _ _ _ _ _ _ _ (fun h => h0 ((hcondZ t).mp h)) (fun h => h1 ((hcondS t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hrest Hg]
        · isplitl [HS Hrest]
          · isplitl [HS]
            · unfold owns; iexists _; isplitr
              swap; · iexact HS
              ipureintro; exact View.read_writes_of_cover _ _ _ _ _ (scoverB c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hrest⟩, Hg⟩
  isplitl [HS Hrest]
  · isplitl [HS]
    · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 1024 := N_0; omega)

end AtEntry

end Cert.KernelIdeal.Hand

end
-- ==== Proof.KI.DemoFrame.lean ====
/- The second pallas_call's half of the frame of the kernel program: custom_call 1, the demo kernel (pipeline 1, a
   grid of 8 points). Window 0 is the operand's block [1,1,32], fetched at every point; window 1 is the result's
   block [1,32,2048,42], written back at every point. At a parameter `V` — the TensorCore's buffer contents when
   the region is entered — : each window's block at a point, what the body leaves in the output window's buffer,
   the body's triple, the proof data of the pipeline and its body obligation. -/
import proofs.«146262_j33595234189952_2_alg».proof.Proof.Gen.KernelIdeal.Launch
import proofs.«146262_j33595234189952_2_alg».proof.Proof.Gen.KernelIdeal.Skeleton
import proofs.«146262_j33595234189952_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x32x2048x42 := Rect.unit (s := S1x32x2048x42) ![0, 0, 0, 0] S1x32x2048x42.size inb_S1x32x2048x42_S1x32x2048x42_0_0_0_0

/-! ## What the body leaves in the output window's buffer -/

/-- Window 1's staging buffer after the body, from the input window's block: its one store, of the whole block. -/
def out1_1 (i : grid1.Coords) (x0 : Vec F S1x1x32 .f32) : Vec F S1x32x2048x42 .f32 :=
  View.canon [⟨r1_0, k1_pay1 i (View.ld x0 (Rect.unit (s := S1x1x32) ![0, 0, 0] S1x1x32.size inb_S1x1x32_S1x1x32_0_0_0))⟩]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The body loads its whole input block and stores its whole output block: what it leaves is the payload of the input block. -/
theorem out1_1_eq (i : grid1.Coords) (x0 : Vec F S1x1x32 .f32) : out1_1 i x0 = k1_pay1 i x0 := by
  unfold out1_1
  rw [View.canon_unit_zero (S := S1x32x2048x42) zeros4]
  rw [View.ld_unit_zero (S := S1x1x32) zeros3]

/-- The one store is of the whole buffer, so it covers it. -/
theorem cover1_1 (p0 : Vec F S1x32x2048x42 .f32) (y : S1x32x2048x42.Idx) :
    ∃ pc ∈ ([⟨r1_0, p0⟩] : List (View.Piece (Elt F) S1x32x2048x42 .f32)), y ∈ pc.1.set :=
  View.cover_of_tiled [⟨r1_0, p0⟩] S1x32x2048x42.size (by rfl) y

/-! ## The body's triple -/

set_option maxHeartbeats 1000000 in
/-- The kernel body on whole staging memrefs, the input's at read contents `x0` and the output's at anything, runs to
    the continuation holding the input's as it was and the output's at `out1_1` of the input's. The first argument, the
    whole result array in HBM, is touched by no operation of the body. -/
theorem sound_kernel1 (c : Dev nD) (E : Set ℕ) (i : grid1.Coords) (arg1 : Memref sig .tc .hbm S40x32x2048x42 .f32) (harg1 : arg1.IsWhole)
    (arg2 : Memref sig .tc .vmem S1x1x32 .f32) (harg2 : arg2.IsWhole) (arg3 : Memref sig .tc .vmem S1x32x2048x42 .f32) (harg3 : arg3.IsWhole)
    (x0 : Vec F S1x1x32 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 i x0)) -∗ K ⟨⟩))
      ⊢ wp frame (wpE (defs₀ (F := F)) Variants.none c none) E (cc1__demo_kernel i arg1 harg1 arg2 harg2 arg3 harg3) K := by
  simp only [cc1__demo_kernel_eq_skeleton]; unfold cc1__demo_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` the input's buffer at its block and the output's at `out1_1` of the input block; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (grid1.coords t) (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The whole program as a run of six segments — three stretches of host operations, the packing kernel's region, one
  more stretch, the demo kernel's region — from the launch memory to the return: the buffer contents at every segment
  boundary as a fold from the launch memory (a stretch's operations applied; a region's arrays at what its write-backs
  leave), each region entered from and left at "every unscoped buffer at the boundary's contents, the generator
  register at some state, nothing owed", and the run's conclusion: every weakly fair execution terminates with every
  unscoped buffer at the last boundary's contents — in particular the result array, and each argument array as launched.
-/
import proofs.«146262_j33595234189952_2_alg».proof.Proof.KI.PackFrame
import proofs.«146262_j33595234189952_2_alg».proof.Proof.KI.DemoFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Wt2 : Dev nD → Valuation τ sig (Elt F) := fun c => StableHlo.after hostOps0_1 (Wt1 m ρ c)
abbrev Wt3 : Dev nD → Valuation τ sig (Elt F) := fun c => StableHlo.after hostOps0_2 (Wt2 m ρ c)
/-- The packing region's entry contents, read at the TensorCore's references. -/
abbrev Vt3 : (c : Dev nD) → (b : Ref sig .tc) → Buf (Elt F) ((c : Thread nD τ).loc b) := fun c b => Wt3 m ρ c b
/-- At the packing region's exit: its arrays at what the pipeline leaves, every other buffer as entered. -/
def Wt4 (c : Dev nD) : Valuation τ sig (Elt F) :=
  Pipeline.withArrays spec0 c (Wt3 m ρ c) fun w => (dat0 (Vt3 m ρ) c).arrAt w cfg0.N
theorem Wt4_arr (c : Dev nD) (w : Fin cfg0.W) :
    Wt4 m ρ c (Proc.devRef .tc (Pipeline.arrRef spec0 w)) = (dat0 (Vt3 m ρ) c).arrAt w cfg0.N := by
  unfold Wt4; exact Pipeline.withArrays_arr spec0 launch0.win.arr_inj c _ _ w
theorem Wt4_of_ne (c : Dev nD) (b : Ref sig .tc) (hb : ∀ w, Pipeline.arrRef spec0 w ≠ b) :
    Wt4 m ρ c (Proc.devRef .tc b) = Wt3 m ρ c (Proc.devRef .tc b) := by
  unfold Wt4; exact Pipeline.withArrays_of_ne spec0 c _ _ b hb
abbrev Vt4 : (c : Dev nD) → (b : Ref sig .tc) → Buf (Elt F) ((c : Thread nD τ).loc b) := fun c b => Wt4 m ρ c b
theorem hF0 (c : Dev nD) (w : Fin cfg0.W) : (dat0 (Vt3 m ρ) c).arrAt w cfg0.N = Vt4 m ρ c (Pipeline.arrRef spec0 w) :=
  (Wt4_arr m ρ c w).symm
theorem hrest0 (c : Dev nD) : ∀ b, b ∉ Finset.univ.image (Pipeline.arrRef spec0) → Vt4 m ρ c b = Vt3 m ρ c b :=
  fun b hb => Wt4_of_ne m ρ c b fun w e => hb (Finset.mem_image.mpr ⟨w, Finset.mem_univ _, e⟩)

abbrev Wt5 : Dev nD → Valuation τ sig (Elt F) := fun c => StableHlo.after hostOps1 (Wt4 m ρ c)
/-- The demo region's entry contents. -/
abbrev Vt5 : (c : Dev nD) → (b : Ref sig .tc) → Buf (Elt F) ((c : Thread nD τ).loc b) := fun c b => Wt5 m ρ c b
def Wt6 (c : Dev nD) : Valuation τ sig (Elt F) :=
  Pipeline.withArrays spec1 c (Wt5 m ρ c) fun w => (dat1 (Vt5 m ρ) c).arrAt w cfg1.N
theorem Wt6_arr (c : Dev nD) (w : Fin cfg1.W) :
    Wt6 m ρ c (Proc.devRef .tc (Pipeline.arrRef spec1 w)) = (dat1 (Vt5 m ρ) c).arrAt w cfg1.N := by
  unfold Wt6; exact Pipeline.withArrays_arr spec1 launch1.win.arr_inj c _ _ w
theorem Wt6_of_ne (c : Dev nD) (b : Ref sig .tc) (hb : ∀ w, Pipeline.arrRef spec1 w ≠ b) :
    Wt6 m ρ c (Proc.devRef .tc b) = Wt5 m ρ c (Proc.devRef .tc b) := by
  unfold Wt6; exact Pipeline.withArrays_of_ne spec1 c _ _ b hb
abbrev Vt6 : (c : Dev nD) → (b : Ref sig .tc) → Buf (Elt F) ((c : Thread nD τ).loc b) := fun c b => Wt6 m ρ c b
theorem hF1 (c : Dev nD) (w : Fin cfg1.W) : (dat1 (Vt5 m ρ) c).arrAt w cfg1.N = Vt6 m ρ c (Pipeline.arrRef spec1 w) :=
  (Wt6_arr m ρ c w).symm
theorem hrest1 (c : Dev nD) : ∀ b, b ∉ Finset.univ.image (Pipeline.arrRef spec1) → Vt6 m ρ c b = Vt5 m ρ c b :=
  fun b hb => Wt6_of_ne m ρ c b fun w e => hb (Finset.mem_image.mpr ⟨w, Finset.mem_univ _, e⟩)

/-! ### The arguments end as launched: no host operation writes one and no region changes one -/

theorem Wt6_main_arg0 (c : Dev nD) : Wt6 m ρ c (Proc.devRef .tc main_arg0) = m ((c : Thread nD τ).loc main_arg0) :=
  calc Wt6 m ρ c (Proc.devRef .tc main_arg0)
    _ = Wt5 m ρ c (Proc.devRef .tc main_arg0) := Wt6_of_ne m ρ c main_arg0 (by decide)
    _ = Wt4 m ρ c (Proc.devRef .tc main_arg0) := StableHlo.after_of_forall_not_mem (b := Proc.devRef .tc main_arg0) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg0) := Wt4_of_ne m ρ c main_arg0 (by decide)
    _ = Wt2 m ρ c (Proc.devRef .tc main_arg0) := StableHlo.after_of_forall_not_mem (b := Proc.devRef .tc main_arg0) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg0) := StableHlo.after_of_forall_not_mem (b := Proc.devRef .tc main_arg0) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg0) := StableHlo.after_of_forall_not_mem (b := Proc.devRef .tc main_arg0) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wt6_main_arg1 (c : Dev nD) : Wt6 m ρ c (Proc.devRef .tc main_arg1) = m ((c : Thread nD τ).loc main_arg1) :=
  calc Wt6 m ρ c (Proc.devRef .tc main_arg1)
    _ = Wt5 m ρ c (Proc.devRef .tc main_arg1) := Wt6_of_ne m ρ c main_arg1 (by decide)
    _ = Wt4 m ρ c (Proc.devRef .tc main_arg1) := StableHlo.after_of_forall_not_mem (b := Proc.devRef .tc main_arg1) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg1) := (Wt4_arr m ρ c 0).trans (((dat0 (Vt3 m ρ) c).arrAt_in 0 rfl _).trans (A_eq0 (Vt3 m ρ) c 0))
    _ = Wt2 m ρ c (Proc.devRef .tc main_arg1) := StableHlo.after_of_forall_not_mem (b := Proc.devRef .tc main_arg1) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg1) := StableHlo.after_of_forall_not_mem (b := Proc.devRef .tc main_arg1) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg1) := StableHlo.after_of_forall_not_mem (b := Proc.devRef .tc main_arg1) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wt6_main_arg2 (c : Dev nD) : Wt6 m ρ c (Proc.devRef .tc main_arg2) = m ((c : Thread nD τ).loc main_arg2) :=
  calc Wt6 m ρ c (Proc.devRef .tc main_arg2)
    _ = Wt5 m ρ c (Proc.devRef .tc main_arg2) := Wt6_of_ne m ρ c main_arg2 (by decide)
    _ = Wt4 m ρ c (Proc.devRef .tc main_arg2) := StableHlo.after_of_forall_not_mem (b := Proc.devRef .tc main_arg2) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg2) := Wt4_of_ne m ρ c main_arg2 (by decide)
    _ = Wt2 m ρ c (Proc.devRef .tc main_arg2) := StableHlo.after_of_forall_not_mem (b := Proc.devRef .tc main_arg2) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg2) := StableHlo.after_of_forall_not_mem (b := Proc.devRef .tc main_arg2) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg2) := StableHlo.after_of_forall_not_mem (b := Proc.devRef .tc main_arg2) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wt6_main_arg3 (c : Dev nD) : Wt6 m ρ c (Proc.devRef .tc main_arg3) = m ((c : Thread nD τ).loc main_arg3) :=
  calc Wt6 m ρ c (Proc.devRef .tc main_arg3)
    _ = Wt5 m ρ c (Proc.devRef .tc main_arg3) := Wt6_of_ne m ρ c main_arg3 (by decide)
    _ = Wt4 m ρ c (Proc.devRef .tc main_arg3) := StableHlo.after_of_forall_not_mem (b := Proc.devRef .tc main_arg3) _ _ (List.forall_iff_forall_mem.mp (by
          simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt3 m ρ c (Proc.devRef .tc main_arg3) := Wt4_of_ne m ρ c main_arg3 (by decide)
    _ = Wt2 m ρ c (Proc.devRef .tc main_arg3) := StableHlo.after_of_forall_not_mem (b := Proc.devRef .tc main_arg3) _ _ (List.forall_iff_forall_mem.mp (by
          simp only [hostOps0_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt1 m ρ c (Proc.devRef .tc main_arg3) := StableHlo.after_of_forall_not_mem (b := Proc.devRef .tc main_arg3) _ _ (List.forall_iff_forall_mem.mp (by
          simp only [hostOps0_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wt0 m ρ c (Proc.devRef .tc main_arg3) := StableHlo.after_of_forall_not_mem (b := Proc.devRef .tc main_arg3) _ _ (List.forall_iff_forall_mem.mp (by
          simp only [hostOps0, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what the demo region's write-backs leave in it. -/
theorem Wt6_result (c : Dev nD) : Wt6 m ρ c (Proc.devRef .tc main_v15) = (dat1 (Vt5 m ρ) c).arrAt 1 cfg1.N :=
  Wt6_arr m ρ c 1

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vt3 m ρ) c
  | ⟨1, _⟩ => fun c => dat1 (Vt5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wt6 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt3 m ρ) c).loose
  hwaits := Pipeline.hwaits_of_owed_zero _ _ _ _ L lv 0 fun _ _ => rfl
  pre c := iprop(StableHlo.held (c : Thread nD τ) (Pipeline.ucRefs τ sig) (Wt3 m ρ c) ∗ R c)
  post c := iprop(StableHlo.held (c : Thread nD τ) (Pipeline.ucRefs τ sig) (Wt4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (Vt3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt3 m ρ c) (Vt4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt5 m ρ) c).loose
  hwaits := Pipeline.hwaits_of_owed_zero _ _ _ _ L lv 1 fun _ _ => rfl
  pre c := iprop(StableHlo.held (c : Thread nD τ) (Pipeline.ucRefs τ sig) (Wt5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt5 m ρ c) (Vt6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (Wt0 m ρ)),
    .host (hseg hostOps0_1 hostOps0_1_sub hostOps0_1_fresh (Wt1 m ρ)),
    .host (hseg hostOps0_2 hostOps0_2_sub hostOps0_2_fresh (Wt2 m ρ)),
    .region (reg0 m ρ),
    .host (hseg hostOps1 hostOps1_sub hostOps1_fresh (Wt4 m ρ)),
    .region (reg1 m ρ) ]
theorem main_run (c : Dev nD) : main (F := F) c = Pipeline.Seg.run (segs m ρ) := by
  rw [main_chain c, Pipeline.Seg.run_eq_chain]; rfl

set_option backward.isDefEq.respectTransparency.types false in
/-- Every weakly fair execution from memory `m` with zero counters terminates, nothing faulting, with the result array
    at what the demo region's write-backs leave and every argument array as launched. -/
theorem run_val : θ_run defs (onTc (τ := τ) (main (F := F))) ⟨m, fun _ => 0, ρ⟩ (fun r => ∀ c : Dev nD,
      r.2.mem ((c.tc : Thread nD τ).loc main_v15) = (dat1 (Vt5 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt6 m ρ c) s')
      isplitl [Hh] <;> iassumption)
    (hQ := fun s h c =>
      ⟨(h c _ (mem_uc main_v15 (by decide))).trans (Wt6_result m ρ c),
       (h c _ (mem_uc main_arg0 (by decide))).trans (Wt6_main_arg0 m ρ c),
       (h c _ (mem_uc main_arg1 (by decide))).trans (Wt6_main_arg1 m ρ c),
       (h c _ (mem_uc main_arg2 (by decide))).trans (Wt6_main_arg2 m ρ c),
       (h c _ (mem_uc main_arg3 (by decide))).trans (Wt6_main_arg3 m ρ c)⟩)

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_val m ρ)

end Cert.KernelIdeal.Hand

end
-- ==== Proof.KI.HostGlue.lean ====
/-
  What the host operations before each region leave in the buffers the regions' windows stage, as plain functions of the
  argument arrays: the mask as floats, the running count of observations less one (the packed position), the per-row
  counts, each moved to channel-major layout for the packing kernel; the demo values moved to channel-major layout for
  the demo kernel; and the demo kernel's result buffer starting as a copy of the packing kernel's.
-/
import proofs.«146262_j33595234189952_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host stages as functions of the arguments -/

/-- The mask as floats (0 or 1). -/
def gMaskf (a3 : IVec S32x2048x32 1) : FVec F S32x2048x32 .f32 := uitofp .f32 a3
/-- The mask as integers. -/
def gMaski (a3 : IVec S32x2048x32 1) : IVec S32x2048x32 32 := extui 32 a3 natLt_1_32
/-- The running count of observations along the time axis. -/
def gCum (a3 : IVec S32x2048x32 1) : IVec S32x2048x32 32 :=
  Host.reduceWindow IntOp.addi ![1, 2048, 1] ![1, 1, 1] ![0, 2047, 0] ![0, 0, 0] (gMaski a3) (broadcastInDim S_ ![] bcast_S_S_ (constantI S_ 32 0#32)) reduceWindows_S32x2048x32_S32x2048x32_w1s1p0_0_w2048s1p2047_0_w1s1p0_0 h_S_
/-- The packed position: the running count less one. -/
def gPos (a3 : IVec S32x2048x32 1) : IVec S32x2048x32 32 :=
  subi (gCum a3) (broadcastInDim S32x2048x32 ![] bcast_S_S32x2048x32 (constantI S_ 32 1#32))
/-- The number of observations of each (batch row, channel). -/
def gCount (a3 : IVec S32x2048x32 1) : IVec S32x32 32 :=
  Host.reduce IntOp.addi (gMaski a3) (constantI S_ 32 0#32) reducesTo_S32x2048x32_S32x32_d1 h_S_
/-- The four channel-major operands of the packing kernel. -/
def gV7 (a3 : IVec S32x2048x32 1) : FVec F S32x32x2048 .f32 := transpose S32x32x2048 [2, 0, 1] (gMaskf (F := F) a3) transposes_S32x2048x32_S32x32x2048_2_0_1
def gV8 (a3 : IVec S32x2048x32 1) : IVec S32x32x2048 32 := transpose S32x32x2048 [2, 0, 1] (gPos a3) transposes_S32x2048x32_S32x32x2048_2_0_1
def gV9 (a2 : FVec F S32x2048x32 .f32) : FVec F S32x32x2048 .f32 := transpose S32x32x2048 [2, 0, 1] a2 transposes_S32x2048x32_S32x32x2048_2_0_1
def gV11 (a3 : IVec S32x2048x32 1) : IVec S32x1x32 32 :=
  broadcastInDim S32x1x32 ![0, 2] bcast_S32x32_S32x1x32_0_2 (transpose S32x32 [1, 0] (gCount a3) transposes_S32x32_S32x32_1_0)
/-- The demo kernel's operand: the demo values, channel-major, with a unit middle axis. -/
def gV14 (a0 : FVec F S32x8 .f32) : FVec F S8x1x32 .f32 :=
  broadcastInDim S8x1x32 ![0, 2] bcast_S8x32_S8x1x32_0_2 (transpose S8x32 [1, 0] a0 transposes_S32x8_S8x32_1_0)

variable (m : (ℓ : Loc nD τ sig) → Buf (Elt F) ℓ) (ρ : Dev nD → PrngReg) (c : Dev nD)

/-! ## What the packing region finds -/

theorem Vt3_arg1 : Vt3 m ρ c main_arg1 = m ((c : Thread nD τ).loc main_arg1) := by
  show StableHlo.after hostOps0_2 (StableHlo.after hostOps0_1 (StableHlo.after hostOps0 (Wt0 m ρ c))) (Proc.devRef .tc main_arg1) = _
  after_results
  try simp only [StableHlo.TRef.toBuf, StableHlo.TRef.ofBuf, cast_eq]
  all_goals rfl

theorem Vt3_v9 : Vt3 m ρ c main_v9 = gV9 (F := F) (m ((c : Thread nD τ).loc main_arg2)) := by
  unfold gV9
  show StableHlo.after hostOps0_2 (StableHlo.after hostOps0_1 (StableHlo.after hostOps0 (Wt0 m ρ c))) (Proc.devRef .tc main_v9) = _
  after_results
  try simp only [StableHlo.TRef.toBuf, StableHlo.TRef.ofBuf, cast_eq]
  all_goals rfl

theorem Vt3_v7 : Vt3 m ρ c main_v7 = gV7 (F := F) (m ((c : Thread nD τ).loc main_arg3)) := by
  unfold gV7 gMaskf
  show StableHlo.after hostOps0_2 (StableHlo.after hostOps0_1 (StableHlo.after hostOps0 (Wt0 m ρ c))) (Proc.devRef .tc main_v7) = _
  after_results
  try simp only [StableHlo.TRef.toBuf, StableHlo.TRef.ofBuf, cast_eq]
  all_goals rfl

theorem Vt3_v8 : Vt3 m ρ c main_v8 = gV8 (m ((c : Thread nD τ).loc main_arg3)) := by
  unfold gV8 gPos gCum gMaski
  show StableHlo.after hostOps0_2 (StableHlo.after hostOps0_1 (StableHlo.after hostOps0 (Wt0 m ρ c))) (Proc.devRef .tc main_v8) = _
  after_results
  try simp only [StableHlo.TRef.toBuf, StableHlo.TRef.ofBuf, cast_eq]
  all_goals rfl

theorem Vt3_v11 : Vt3 m ρ c main_v11 = gV11 (m ((c : Thread nD τ).loc main_arg3)) := by
  unfold gV11 gCount gMaski
  show StableHlo.after hostOps0_2 (StableHlo.after hostOps0_1 (StableHlo.after hostOps0 (Wt0 m ρ c))) (Proc.devRef .tc main_v11) = _
  after_results
  try simp only [StableHlo.TRef.toBuf, StableHlo.TRef.ofBuf, cast_eq]
  all_goals rfl

/-! ## What the demo region finds -/

/-- Its result buffer starts as a copy of what the packing region left in its own. -/
theorem Vt5_v15 : Vt5 m ρ c main_v15 = (dat0 (Vt3 m ρ) c).arrAt 5 cfg0.N := by
  show StableHlo.after hostOps1 (Wt4 m ρ c) (Proc.devRef .tc main_v15) = _
  after_results
  exact Wt4_arr m ρ c 5

theorem Vt5_v14 : Vt5 m ρ c main_v14 = gV14 (F := F) (m ((c : Thread nD τ).loc main_arg0)) := by
  unfold gV14
  show StableHlo.after hostOps1 (Wt4 m ρ c) (Proc.devRef .tc main_v14) = _
  after_results
  rw [show Wt4 m ρ c (Proc.devRef .tc main_arg0) = m ((c : Thread nD τ).loc main_arg0) from
    (Wt4_of_ne m ρ c main_arg0 (by decide)).trans (by
      show StableHlo.after hostOps0_2 (StableHlo.after hostOps0_1 (StableHlo.after hostOps0 (Wt0 m ρ c))) (Proc.devRef .tc main_arg0) = _
      after_results
      all_goals rfl)]
  all_goals rfl

end Cert.KernelIdeal.Hand

end
-- ==== Proof.Spec.lean ====
/-
  The specification of the packed observation array, as a function of the four inputs, by coordinates.

  For a batch row b, a time step t and a channel ch < 32, the measurement mask says whether channel ch was
  observed at step t. The observed steps of a channel are packed to the front in time order: the step whose
  rank among the observed steps (counted from one) is p + 1 lands in slot p. Each slot carries the time, a
  one-hot code of the channel (40 wide), and the observed value. Channels 32 … 39 carry one static feature
  each, in slot 0 only.
-/
import Idealize.ShloMosaic.PureOps.Ideal
import Idealize.ShloMosaic.Lib.ValueIdx
import Idealize.ShloMosaic.Lib.IdealHost

namespace Cert.Spec

open Idealize.ShloMosaic
open Idealize.ShloMosaic.ValueIdx (ix2 ix3 ix4)
open scoped BigOperators

abbrev S32x8 : Shape := ⟨2, ![32, 8]⟩
abbrev S32x2048 : Shape := ⟨2, ![32, 2048]⟩
abbrev S32x2048x32 : Shape := ⟨3, ![32, 2048, 32]⟩
abbrev S40x32x2048x42 : Shape := ⟨4, ![40, 32, 2048, 42]⟩

/-- Channel `ch` of batch row `b` is observed at step `t`. -/
def M (meas : IVec S32x2048x32 1) (b : Fin 32) (t : Fin 2048) (ch : Fin 32) : Prop :=
  meas (ix3 b t ch) = 1#1

instance (meas : IVec S32x2048x32 1) (b : Fin 32) (t : Fin 2048) (ch : Fin 32) : Decidable (M meas b t ch) :=
  inferInstanceAs (Decidable (meas (ix3 b t ch) = 1#1))

/-- The number of observed steps of the channel up to and including `t`. -/
def rank (meas : IVec S32x2048x32 1) (b : Fin 32) (t : Fin 2048) (ch : Fin 32) : ℕ :=
  (Finset.univ.filter fun s : Fin 2048 => s ≤ t ∧ M meas b s ch).card

/-- The number of observed steps of the channel. -/
def total (meas : IVec S32x2048x32 1) (b : Fin 32) (ch : Fin 32) : ℕ :=
  (Finset.univ.filter fun s : Fin 2048 => M meas b s ch).card

/-- Step `t` is the observed step that lands in slot `p`. -/
def hit (meas : IVec S32x2048x32 1) (b : Fin 32) (t : Fin 2048) (ch : Fin 32) (p : Fin 2048) : Prop :=
  M meas b t ch ∧ rank meas b t ch = p.val + 1

instance (meas : IVec S32x2048x32 1) (b : Fin 32) (t : Fin 2048) (ch : Fin 32) (p : Fin 2048) :
    Decidable (hit meas b t ch p) :=
  inferInstanceAs (Decidable (M meas b t ch ∧ rank meas b t ch = p.val + 1))

/-- The specified element at channel `ch`, batch row `b`, slot `p`, feature `f`. -/
noncomputable def Gc (demo : FVec Ideal S32x8 .f32) (times : FVec Ideal S32x2048 .f32)
    (values : FVec Ideal S32x2048x32 .f32) (meas : IVec S32x2048x32 1)
    (ch : Fin 40) (b : Fin 32) (p : Fin 2048) (f : Fin 42) : EReal :=
  if h : ch.val < 32 then
    if f.val = 0 then ∑ t : Fin 2048, if hit meas b t ⟨ch.val, h⟩ p then times (ix2 b t) else 0
    else if f.val = 41 then ∑ t : Fin 2048, if hit meas b t ⟨ch.val, h⟩ p then values (ix3 b t ⟨ch.val, h⟩) else 0
    else if p.val < total meas b ⟨ch.val, h⟩ ∧ f.val - 1 = ch.val then 1 else 0
  else
    if p.val = 0 then
      if f.val = 0 then 0
      else if f.val = 41 then demo (ix2 b (⟨ch.val - 32, by have := ch.isLt; omega⟩ : Fin 8))
      else if f.val - 1 = 31 + (ch.val - 32) then 1 else 0
    else 0

/-- The specified result array. -/
noncomputable def G (demo : FVec Ideal S32x8 .f32) (times : FVec Ideal S32x2048 .f32)
    (values : FVec Ideal S32x2048x32 .f32) (meas : IVec S32x2048x32 1) : FVec Ideal S40x32x2048x42 .f32 :=
  fun j => Gc demo times values meas (j 0) (j 1) (j 2) (j 3)

variable (demo : FVec Ideal S32x8 .f32) (times : FVec Ideal S32x2048 .f32)
  (values : FVec Ideal S32x2048x32 .f32) (meas : IVec S32x2048x32 1)

theorem G_apply (j : S40x32x2048x42.Idx) :
    G demo times values meas j = Gc demo times values meas (j 0) (j 1) (j 2) (j 3) := rfl

theorem G_apply_ix4 (ch : Fin 40) (b : Fin 32) (p : Fin 2048) (f : Fin 42) :
    G demo times values meas (ix4 ch b p f) = Gc demo times values meas ch b p f := rfl

/-- Feature 0 of an observation channel: the time of the step that lands in the slot (zero if none does). -/
theorem G_apply_time (ch : Fin 40) (h : ch.val < 32) (b : Fin 32) (p : Fin 2048) (f : Fin 42) (hf : f.val = 0) :
    G demo times values meas (ix4 ch b p f)
      = ∑ t : Fin 2048, if hit meas b t ⟨ch.val, h⟩ p then times (ix2 b t) else 0 := by
  rw [G_apply_ix4]; unfold Gc; rw [dif_pos h, if_pos hf]

/-- Feature 41 of an observation channel: the value of the step that lands in the slot (zero if none does). -/
theorem G_apply_value (ch : Fin 40) (h : ch.val < 32) (b : Fin 32) (p : Fin 2048) (f : Fin 42) (hf : f.val = 41) :
    G demo times values meas (ix4 ch b p f)
      = ∑ t : Fin 2048, if hit meas b t ⟨ch.val, h⟩ p then values (ix3 b t ⟨ch.val, h⟩) else 0 := by
  rw [G_apply_ix4]; unfold Gc; rw [dif_pos h, if_neg (by omega), if_pos hf]

/-- Features 1 … 40 of an observation channel: the channel's one-hot code in the occupied slots. -/
theorem G_apply_onehot (ch : Fin 40) (h : ch.val < 32) (b : Fin 32) (p : Fin 2048) (f : Fin 42)
    (hf1 : 1 ≤ f.val) (hf2 : f.val ≤ 40) :
    G demo times values meas (ix4 ch b p f)
      = if p.val < total meas b ⟨ch.val, h⟩ ∧ f.val - 1 = ch.val then 1 else 0 := by
  rw [G_apply_ix4]; unfold Gc; rw [dif_pos h, if_neg (by omega), if_neg (by omega)]

/-- A static-feature channel: slot 0 holds time zero, the channel's one-hot code and the feature; the rest is zero. -/
theorem G_apply_demo (ch : Fin 40) (h : 32 ≤ ch.val) (b : Fin 32) (p : Fin 2048) (f : Fin 42) :
    G demo times values meas (ix4 ch b p f)
      = if p.val = 0 then
          (if f.val = 0 then 0
           else if f.val = 41 then demo (ix2 b (⟨ch.val - 32, by have := ch.isLt; omega⟩ : Fin 8))
           else if f.val - 1 = 31 + (ch.val - 32) then 1 else 0)
        else 0 := by
  rw [G_apply_ix4]; unfold Gc; rw [dif_neg (by omega)]

end Cert.Spec
-- ==== Proof.KI.HostRead.lean ====
/-
  The host stages before the two regions, read at an index: the channel-major operands of the packing kernel (the mask
  as floats, the packed position, the values, the per-row counts) and the demo kernel's operand (the demo values,
  channel-major), each entry named by the coordinates of the argument array it comes from.
-/
import proofs.«146262_j33595234189952_2_alg».proof.Proof.KI.HostGlue
import proofs.«146262_j33595234189952_2_alg».proof.Proof.Spec
import Idealize.ShloMosaic.Lib.Pipeline.Value
import Idealize.ShloMosaic.Lib.ValueIdx
import Idealize.ShloMosaic.Lib.IdealHost

noncomputable section

namespace Cert.KernelIdeal.Hand

open Cert.KernelIdeal Cert.KernelIdeal.Gen Idealize.ShloMosaic Idealize.ShloMosaic.ValueIdx

/-! ## The demo kernel's operand -/

/-- The demo values in channel-major layout with a unit middle axis: entry (dd, 0, b) is the demo value (b, dd). -/
theorem gV14_apply (a0 : FVec Ideal S32x8 .f32) (dd : Fin 8) (b : Fin 32) :
    gV14 (F := Ideal) a0 (ix3 dd (0 : Fin 1) b) = a0 (ix2 b dd) := by
  unfold gV14
  refine (broadcastInDim_apply _ _ _ (ix3 dd (0 : Fin 1) b) (ix2 dd b) (fun a => ?_)).trans ?_
  · match a with
    | ⟨0, _⟩ => rfl
    | ⟨1, _⟩ => rfl
  refine transpose_apply _ _ _ (ix2 dd b) (ix2 b dd) (fun a => ?_)
  match a with
  | ⟨0, _⟩ => rfl
  | ⟨1, _⟩ => rfl

/-! ## The packing kernel's operands -/

/-- The values in channel-major layout: entry (ch, b, t) is the value (b, t, ch). -/
theorem gV9_apply (a2 : FVec Ideal S32x2048x32 .f32) (ch : Fin 32) (b : Fin 32) (t : Fin 2048) :
    gV9 (F := Ideal) a2 (ix3 ch b t) = a2 (ix3 b t ch) := by
  unfold gV9
  refine transpose_apply _ _ _ (ix3 ch b t) (ix3 b t ch) (fun a => ?_)
  match a with
  | ⟨0, _⟩ => rfl
  | ⟨1, _⟩ => rfl
  | ⟨2, _⟩ => rfl

/-- A one-bit word as an ideal float is 1 when the bit is set and 0 otherwise. -/
theorem uitofp_bit (x : BitVec 1) : FloatOps.uitofp (F := Ideal) .f32 x = if x = 1#1 then (1 : EReal) else 0 := by
  rcases BitVec.eq_zero_or_eq_one x with h | h
  · subst h
    rw [if_neg (by decide)]
    show (((0#1).toNat : ℝ) : EReal) = 0
    rw [show (0#1).toNat = 0 by decide]; norm_num
  · subst h
    rw [if_pos rfl]
    show (((1#1).toNat : ℝ) : EReal) = 1
    rw [show (1#1).toNat = 1 by decide]; norm_num

/-- The mask as floats in channel-major layout: entry (ch, b, t) is 1 when channel ch of row b is observed at step t. -/
theorem gV7_apply (a3 : IVec S32x2048x32 1) (ch : Fin 32) (b : Fin 32) (t : Fin 2048) :
    gV7 (F := Ideal) a3 (ix3 ch b t) = if Cert.Spec.M a3 b t ch then (1 : EReal) else 0 := by
  unfold gV7
  refine (transpose_apply _ _ _ (ix3 ch b t) (ix3 b t ch) (fun a => ?_)).trans ?_
  · match a with
    | ⟨0, _⟩ => rfl
    | ⟨1, _⟩ => rfl
    | ⟨2, _⟩ => rfl
  show FloatOps.uitofp (F := Ideal) .f32 (a3 (ix3 b t ch)) = _
  rw [uitofp_bit]
  rfl

/-- The packed position in channel-major layout: entry (ch, b, t) is the rank of step t among the observed steps of
    channel ch of row b, less one, as a word. -/
theorem gV8_apply_of (a3 : IVec S32x2048x32 1)
    (hcum : ∀ (b : Fin 32) (t : Fin 2048) (ch : Fin 32), gCum a3 (ix3 b t ch) = BitVec.ofNat 32 (Cert.Spec.rank a3 b t ch))
    (ch : Fin 32) (b : Fin 32) (t : Fin 2048) :
    gV8 a3 (ix3 ch b t) = BitVec.ofNat 32 (Cert.Spec.rank a3 b t ch) - 1#32 := by
  unfold gV8
  refine (transpose_apply _ _ _ (ix3 ch b t) (ix3 b t ch) (fun a => ?_)).trans ?_
  · match a with
    | ⟨0, _⟩ => rfl
    | ⟨1, _⟩ => rfl
    | ⟨2, _⟩ => rfl
  show IntOp.subi (gCum a3 (ix3 b t ch)) (broadcastInDim S32x2048x32 ![] bcast_S_S32x2048x32 (constantI S_ 32 1#32) (ix3 b t ch)) = _
  rw [hcum, broadcastInDim_scalar_apply]
  rfl

/-- The counts in channel-major layout with a unit middle axis: entry (ch, 0, b) is the number of observed steps of
    channel ch of row b, as a word. -/
theorem gV11_apply_of (a3 : IVec S32x2048x32 1)
    (hcnt : ∀ (b : Fin 32) (ch : Fin 32), gCount a3 (ix2 b ch) = BitVec.ofNat 32 (Cert.Spec.total a3 b ch))
    (ch : Fin 32) (b : Fin 32) :
    gV11 a3 (ix3 ch (0 : Fin 1) b) = BitVec.ofNat 32 (Cert.Spec.total a3 b ch) := by
  unfold gV11
  refine (broadcastInDim_apply _ _ _ (ix3 ch (0 : Fin 1) b) (ix2 ch b) (fun a => ?_)).trans ?_
  · match a with
    | ⟨0, _⟩ => rfl
    | ⟨1, _⟩ => rfl
  refine (transpose_apply _ _ _ (ix2 ch b) (ix2 b ch) (fun a => ?_)).trans (hcnt b ch)
  match a with
  | ⟨0, _⟩ => rfl
  | ⟨1, _⟩ => rfl

end Cert.KernelIdeal.Hand

end
-- ==== Proof.KI.DemoValue.lean ====
/- The value of the second pallas_call. First the value its body stores, read at an index: at (0, b, p, f) it is the
   indicator of slot p = 0 times the demo row of batch row b — 0 in the time column, the one-hot of channel 31 + dd in
   the 40 channel columns, the demo value in the last column. Then from blocks to the array: point t writes channel
   32 + t of the result, so after the region the result holds the specification's static-feature channels 32 … 39 and,
   on channels below 32, what it held when the region was entered. -/
import proofs.«146262_j33595234189952_2_alg».proof.Proof.KI.DemoFrame
import proofs.«146262_j33595234189952_2_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-! ## Words -/

/-- Two naturals below 2³² are equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h (by
      have := congrArg BitVec.toNat e
      rw [BitVec.toNat_ofNat, BitVec.toNat_ofNat, Nat.mod_eq_of_lt ha, Nat.mod_eq_of_lt hb] at this
      exact this)
    rw [show (BitVec.ofNat 32 a == BitVec.ofNat 32 b) = false from beq_eq_false_iff_ne.mpr hne]; rfl

/-- The channel the demo kernel's point dd writes one-hot: 32 + dd - 1 as a word is 31 + dd. -/
theorem demo_channel_word (dd : Fin 8) :
    Scalar.subi (Scalar.addi 32#32 (BitVec.ofNat 32 dd.val)) 1#32 = BitVec.ofNat 32 (31 + dd.val) := by
  revert dd; decide

/-- The integer 1 as an ideal float. -/
theorem sitofp_bit_one : FloatOps.sitofp (F := Ideal) .f32 ((1#1).setWidth 32) = 1 := by
  show (((((1#1).setWidth 32).toInt : ℝ)) : EReal) = 1
  rw [show ((1#1).setWidth 32).toInt = 1 by decide]; norm_num

/-- The integer 0 as an ideal float. -/
theorem sitofp_bit_zero : FloatOps.sitofp (F := Ideal) .f32 ((0#1).setWidth 32) = 0 := by
  show (((((0#1).setWidth 32).toInt : ℝ)) : EReal) = 0
  rw [show ((0#1).setWidth 32).toInt = 0 by decide]; norm_num

/-! ## The factors of the stored value -/

/-- The slot indicator: 1 at slot 0, 0 elsewhere. -/
theorem slot0_apply (h : S1x2048.Iotas .tc 32 [1]) (p : Fin 2048) :
    (sitofp .f32 (extui 32 (cmpi .eq (iota .tc S1x2048 32 [1] h) (broadcast S1x2048 0#32)) natLt_1_32) : FVec Ideal S1x2048 .f32)
        (ix2 (0 : Fin 1) p)
      = if p.val = 0 then 1 else 0 := by
  rw [sitofp_apply, extui_apply]
  show FloatOps.sitofp .f32 ((IntOp.cmpi .eq (iota .tc S1x2048 32 [1] h (ix2 (0 : Fin 1) p)) 0#32).setWidth 32) = _
  rw [iota_single_apply]
  show FloatOps.sitofp .f32 ((IntOp.cmpi .eq (BitVec.ofNat 32 p.val) (BitVec.ofNat 32 0)).setWidth 32) = _
  rw [cmpi_eq_ofNat _ _ (by have := p.isLt; omega) (by omega)]
  by_cases hp : p.val = 0
  · rw [if_pos hp, if_pos hp]; exact sitofp_bit_one
  · rw [if_neg hp, if_neg hp]; exact sitofp_bit_zero

/-- The one-hot row of the 40 channel columns: 1 at column 31 + dd. -/
theorem onehot_apply (h : S1x40.Iotas .tc 32 [1]) (dd : Fin 8) (d : Fin 40) :
    (select (cmpi .eq (iota .tc S1x40 32 [1] h)
        (broadcast S1x40 (Scalar.subi (Scalar.addi 32#32 (BitVec.ofNat 32 dd.val)) 1#32)))
      (broadcast S1x40 (Scalar.ofBits (F := Ideal) .f32 0x3F800000#32)) (broadcast S1x40 (Scalar.ofBits (F := Ideal) .f32 0x00000000#32))
        : FVec Ideal S1x40 .f32) (ix2 (0 : Fin 1) d)
      = if d.val = 31 + dd.val then 1 else 0 := by
  rw [select_apply, broadcast_apply, broadcast_apply]
  show Scalar.select (IntOp.cmpi .eq (iota .tc S1x40 32 [1] h (ix2 (0 : Fin 1) d)) (Scalar.subi (Scalar.addi 32#32 (BitVec.ofNat 32 dd.val)) 1#32))
    (Ideal.ofBits .f32 0x3F800000#32) (Ideal.ofBits .f32 0x00000000#32) = _
  rw [iota_single_apply, demo_channel_word, Ideal.ofBits_one_f32, Ideal.ofBits_zero_f32]
  show Scalar.select (IntOp.cmpi .eq (BitVec.ofNat 32 d.val) (BitVec.ofNat 32 (31 + dd.val))) (1 : EReal) 0 = _
  rw [cmpi_eq_ofNat _ _ (by have := d.isLt; omega) (by have := dd.isLt; omega)]
  by_cases hd : d.val = 31 + dd.val
  · rw [if_pos hd, if_pos hd]; exact select_one _ _
  · rw [if_neg hd, if_neg hd]; exact select_zero _ _

/-! ## The demo row: the concatenation of the time column, the channel columns and the value column -/

section Row
variable (hc : Shape.Concatenates [S32x1, S32x40, S32x1] S32x42 1)
  (z : FVec Ideal S32x1 .f32) (oh : FVec Ideal S32x40 .f32) (last : FVec Ideal S32x1 .f32) (b : Fin 32) (f : Fin 42)

/-- Column 0 is the first piece's. -/
theorem row_first (hf : f.val = 0) :
    concatenate S32x42 1 [⟨S32x1, z⟩, ⟨S32x40, oh⟩, ⟨S32x1, last⟩] hc (ix2 b f) = z (ix2 b (0 : Fin 1)) :=
  concatenate_apply_piece (α := Ideal .f32) 1 [⟨S32x1, z⟩, ⟨S32x40, oh⟩, ⟨S32x1, last⟩] hc (ix2 b f) 0 (by show 0 < 3; omega) S32x1 z rfl rfl 0 (by rfl) (ix2 b (0 : Fin 1))
    (fun a => match a with
      | ⟨0, _⟩ => fun _ => rfl
      | ⟨1, _⟩ => fun h => absurd rfl h)
    (by show 0 + 0 = f.val; omega)

/-- Columns 1 to 40 are the second piece's, one to the left. -/
theorem row_mid (d : Fin 40) (hf : f.val = d.val + 1) :
    concatenate S32x42 1 [⟨S32x1, z⟩, ⟨S32x40, oh⟩, ⟨S32x1, last⟩] hc (ix2 b f) = oh (ix2 b d) :=
  concatenate_apply_piece (α := Ideal .f32) 1 [⟨S32x1, z⟩, ⟨S32x40, oh⟩, ⟨S32x1, last⟩] hc (ix2 b f) 1 (by show 1 < 3; omega) S32x40 oh rfl rfl 1 (by rfl) (ix2 b d)
    (fun a => match a with
      | ⟨0, _⟩ => fun _ => rfl
      | ⟨1, _⟩ => fun h => absurd rfl h)
    (by show 1 + d.val = f.val; omega)

/-- Column 41 is the third piece's. -/
theorem row_last (hf : f.val = 41) :
    concatenate S32x42 1 [⟨S32x1, z⟩, ⟨S32x40, oh⟩, ⟨S32x1, last⟩] hc (ix2 b f) = last (ix2 b (0 : Fin 1)) :=
  concatenate_apply_piece (α := Ideal .f32) 1 [⟨S32x1, z⟩, ⟨S32x40, oh⟩, ⟨S32x1, last⟩] hc (ix2 b f) 2 (by show 2 < 3; omega) S32x1 last rfl rfl 41 (by rfl) (ix2 b (0 : Fin 1))
    (fun a => match a with
      | ⟨0, _⟩ => fun _ => rfl
      | ⟨1, _⟩ => fun h => absurd rfl h)
    (by show 41 + 0 = f.val; omega)

end Row

/-- A product whose first factor is an indicator. -/
theorem indicator_mul (A B : EReal) (c : Prop) [Decidable c] (R : EReal) (hA : A = if c then 1 else 0) (hB : B = R) :
    A * B = if c then R else 0 := by
  subst hA hB; split
  · exact one_mul _
  · exact zero_mul _

/-! ## The stored value at an index -/

/-- What the demo kernel's body stores at point `i`, read at (0, b, p, f): nothing but in slot 0, where it is the demo row of
    batch row `b` — 0 in the time column, the one-hot of channel 31 + i in the channel columns, the demo value in the last. -/
theorem k1_pay1_apply (i : grid1.Coords) (v0 : Vec Ideal S1x1x32 .f32) (b : Fin 32) (p : Fin 2048) (f : Fin 42) :
    k1_pay1 i v0 (ix4 (0 : Fin 1) b p f)
      = if p.val = 0 then
          (if f.val = 0 then 0 else if f.val = 41 then v0 (ix3 (0 : Fin 1) (0 : Fin 1) b)
            else if f.val - 1 = 31 + (i 0).val then 1 else 0)
        else 0 := by
  have hi : (i 0).val < 8 := (i 0).isLt
  have hf := f.isLt
  unfold k1_pay1
  dsimp only []
  -- the outer shape cast: [1,32,2048,42] at (0,b,p,f) reads [32,2048,42] at (b,p,f)
  refine (shapeCast_apply _ _ (ix4 (0 : Fin 1) b p f) (ix3 b p f) ?_).trans ?_
  · rw [Shape.rowMajor_val_three, Shape.rowMajor_val_four]
    show (b.val * 2048 + p.val) * 42 + f.val = (((0 * 32 + b.val) * 2048 + p.val) * 42 + f.val)
    omega
  rw [mulf_apply]
  refine indicator_mul _ _ _ _ ?_ ?_
  · -- the slot indicator, broadcast along rows and columns
    refine (broadcastTo_apply _ _ (ix3 b p f) (ix3 (0 : Fin 1) p (0 : Fin 1)) (fun a => ?_)).trans ?_
    · match a with
      | ⟨0, _⟩ => rfl
      | ⟨1, _⟩ => rfl
      | ⟨2, _⟩ => rfl
    refine (shapeCast_apply _ _ (ix3 (0 : Fin 1) p (0 : Fin 1)) (ix2 (0 : Fin 1) p) ?_).trans ?_
    · rw [Shape.rowMajor_val_two, Shape.rowMajor_val_three]
      show 0 * 2048 + p.val = (0 * 2048 + p.val) * 1 + 0
      omega
    exact slot0_apply _ p
  · -- the demo row, broadcast along slots
    refine (broadcastTo_apply _ _ (ix3 b p f) (ix3 b (0 : Fin 1) f) (fun a => ?_)).trans ?_
    · match a with
      | ⟨0, _⟩ => rfl
      | ⟨1, _⟩ => rfl
      | ⟨2, _⟩ => rfl
    refine (shapeCast_apply _ _ (ix3 b (0 : Fin 1) f) (ix2 b f) ?_).trans ?_
    · rw [Shape.rowMajor_val_two, Shape.rowMajor_val_three]
      show b.val * 42 + f.val = (b.val * 1 + 0) * 42 + f.val
      omega
    by_cases hf0 : f.val = 0
    · rw [if_pos hf0]
      refine (row_first _ _ _ _ b f hf0).trans ?_
      rw [broadcast_apply]
      exact Ideal.ofBits_zero_f32
    rw [if_neg hf0]
    by_cases hf41 : f.val = 41
    · rw [if_pos hf41]
      refine (row_last _ _ _ _ b f hf41).trans ?_
      refine (shapeCast_apply _ _ (ix2 b (0 : Fin 1)) (ix1 b) ?_).trans ?_
      · rw [Shape.rowMajor_val_one, Shape.rowMajor_val_two]
        show b.val = b.val * 1 + 0
        omega
      refine shapeCast_apply _ _ (ix1 b) (ix3 (0 : Fin 1) (0 : Fin 1) b) ?_
      rw [Shape.rowMajor_val_one, Shape.rowMajor_val_three]
      show (0 * 1 + 0) * 32 + b.val = b.val
      omega
    rw [if_neg hf41]
    refine (row_mid _ _ _ _ b f ⟨f.val - 1, by omega⟩ (by show f.val = f.val - 1 + 1; omega)).trans ?_
    refine (broadcastTo_apply _ _ (ix2 b (⟨f.val - 1, by omega⟩ : Fin 40)) (ix2 (0 : Fin 1) (⟨f.val - 1, by omega⟩ : Fin 40)) (fun a => ?_)).trans ?_
    · match a with
      | ⟨0, _⟩ => rfl
      | ⟨1, _⟩ => rfl
    rw [shapeCast_self]
    exact onehot_apply _ ⟨(i 0).val, hi⟩ ⟨f.val - 1, by omega⟩

/-! ## From blocks to the array -/

section Array
variable (V : (c : Dev nD) → (b : Ref sig .tc) → Buf (Elt Ideal) ((c : Thread nD τ).loc b))

/-- The static-feature channels by coordinates, from the features laid out [feature, 1, batch row]: slot 0 holds time
    zero, the one-hot of channel 31 + (ch - 32) and the feature; every other slot is zero. -/
def demoC (X : S8x1x32.Idx → EReal) (ch : ℕ) (b : Fin 32) (p f : ℕ) : EReal :=
  if p = 0 then
    (if f = 0 then 0
     else if f = 41 then X (ix3 (⟨(ch - 32) % 8, Nat.mod_lt _ (by omega)⟩ : Fin 8) (0 : Fin 1) b)
     else if f - 1 = 31 + (ch - 32) then 1 else 0)
  else 0

/-- The same as one function of the array index. -/
def demoArr (X : S8x1x32.Idx → EReal) : S40x32x2048x42.Idx → EReal :=
  fun j => demoC X (j 0).val (j 1) (j 2).val (j 3).val

/-- The index maps over the grid: point t fetches feature t and writes channel 32 + t. -/
theorem idx_facts1 : ∀ t : Fin cfg1.N, win1_0.index t (0 : Fin 3) = t.val ∧ win1_0.index t (1 : Fin 3) = 0
    ∧ win1_0.index t (2 : Fin 3) = 0
    ∧ win1_1.index t (0 : Fin 4) = 32 + t.val ∧ win1_1.index t (1 : Fin 4) = 0
    ∧ win1_1.index t (2 : Fin 4) = 0 ∧ win1_1.index t (3 : Fin 4) = 0
    ∧ ((grid1.coords t) 0).val = t.val ∧ t.val < 8 :=
  (by decide +kernel : ∀ t : Fin grid1.N, _)

/-- What point t writes back is block t of the static-feature channels. -/
theorem flushed1_eq (c : Dev nD) (t : Fin cfg1.N) :
    (dat1 V c).flushed 1 t = ((cfg1.win 1).blk t).view.read (Elt Ideal) (demoArr (V c main_v14)) := by
  show (cfg1.win 1).cut (grid1.coords t) ((dat1 V c).after 1 t) = _
  rw [after1_1, out1_1_eq]
  obtain ⟨e0, e1, e2, o0, o1, o2, o3, eg, ht⟩ := idx_facts1 t
  funext (j : S1x32x2048x42.Idx)
  obtain ⟨a0, b, p, f, rfl⟩ : ∃ a0 b p f, j = ix4 a0 b p f := ⟨j 0, j 1, j 2, j 3, eq_ix4 j⟩
  obtain rfl : a0 = 0 := Subsingleton.elim _ _
  show k1_pay1 (grid1.coords t) (iblk1 V c 0 t) (ix4 (0 : Fin 1) b p f)
    = demoArr (V c main_v14) (((cfg1.win 1).blk t).view.emb (ix4 (0 : Fin 1) b p f))
  rw [k1_pay1_apply]
  have hb := b.isLt; have hp := p.isLt; have hf := f.isLt
  have j0 : ((((cfg1.win 1).blk t).view.emb (ix4 (0 : Fin 1) b p f)) 0).val = 32 + t.val := by
    show win1_1.index t (0 : Fin 4) * 1 + 1 * 0 = _; omega
  have j1 : (((cfg1.win 1).blk t).view.emb (ix4 (0 : Fin 1) b p f)) 1 = b := by
    apply Fin.ext; show win1_1.index t (1 : Fin 4) * 32 + 1 * b.val = _; omega
  have j2 : ((((cfg1.win 1).blk t).view.emb (ix4 (0 : Fin 1) b p f)) 2).val = p.val := by
    show win1_1.index t (2 : Fin 4) * 2048 + 1 * p.val = _; omega
  have j3 : ((((cfg1.win 1).blk t).view.emb (ix4 (0 : Fin 1) b p f)) 3).val = f.val := by
    show win1_1.index t (3 : Fin 4) * 42 + 1 * f.val = _; omega
  unfold demoArr
  rw [j0, j1, j2, j3]
  unfold demoC
  have hx : iblk1 V c 0 t (ix3 (0 : Fin 1) (0 : Fin 1) b)
      = V c main_v14 (ix3 (⟨(32 + t.val - 32) % 8, Nat.mod_lt _ (by omega)⟩ : Fin 8) (0 : Fin 1) b) := by
    show V c main_v14 (((cfg1.win 0).blk t).view.emb (ix3 (0 : Fin 1) (0 : Fin 1) b)) = _
    refine congrArg (V c main_v14) (funext fun a => Fin.ext ?_)
    match a with
    | ⟨0, _⟩ => show win1_0.index t (0 : Fin 3) * 1 + 1 * 0 = (32 + t.val - 32) % 8; omega
    | ⟨1, _⟩ => show win1_0.index t (1 : Fin 3) * 1 + 1 * 0 = 0; omega
    | ⟨2, _⟩ => show win1_0.index t (2 : Fin 3) * 32 + 1 * b.val = b.val; omega
  have e31 : 31 + (32 + t.val - 32) = 31 + t.val := by omega
  rw [hx, eg, e31]

/-- An index of the result is in point t's block iff each coordinate is in the block's range on its axis. -/
theorem mem_blk1 (t : Fin cfg1.N) (i : S40x32x2048x42.Idx) :
    i ∈ ((cfg1.win 1).blk t).view.set ↔ ∀ a : Fin 4, win1_1.index t a * S1x32x2048x42.size a ≤ (i a).val
      ∧ (i a).val < win1_1.index t a * S1x32x2048x42.size a + S1x32x2048x42.size a := by
  show i ∈ ((View.whole main_v15).slice (win1_1.rect t)).set ↔ _
  rw [View.set_slice_whole, Rect.mem_set_unit]
  exact Iff.rfl

/-- The covered indices: those of channels 32 and above. -/
theorem covered_iff1 (i : S40x32x2048x42.Idx) :
    (∃ t : Fin cfg1.N, (cfg1.win 1).flush t = true ∧ i ∈ ((cfg1.win 1).blk t).view.set) ↔ 32 ≤ (i 0).val := by
  have hi0 : (i 0).val < 40 := (i 0).isLt
  have hi1 : (i 1).val < 32 := (i 1).isLt
  have hi2 : (i 2).val < 2048 := (i 2).isLt
  have hi3 : (i 3).val < 42 := (i 3).isLt
  constructor
  · rintro ⟨t, -, hi⟩
    rw [mem_blk1] at hi
    obtain ⟨e0, e1, e2, o0, o1, o2, o3, eg, ht⟩ := idx_facts1 t
    have b0 : win1_1.index t (0 : Fin 4) * 1 ≤ (i 0).val ∧ (i 0).val < win1_1.index t (0 : Fin 4) * 1 + 1 := hi 0
    omega
  · intro h
    have hN : (i 0).val - 32 < cfg1.N := by show (i 0).val - 32 < grid1.N; rw [N_1]; omega
    obtain ⟨e0, e1, e2, o0, o1, o2, o3, eg, ht⟩ := idx_facts1 ⟨(i 0).val - 32, hN⟩
    refine ⟨⟨(i 0).val - 32, hN⟩, flush1_1 _, ?_⟩
    rw [mem_blk1]
    intro a
    have o0' : win1_1.index ⟨(i 0).val - 32, hN⟩ (0 : Fin 4) = 32 + ((i 0).val - 32) := o0
    match a with
    | ⟨0, _⟩ => show win1_1.index ⟨(i 0).val - 32, hN⟩ (0 : Fin 4) * 1 ≤ (i 0).val ∧ (i 0).val < win1_1.index ⟨(i 0).val - 32, hN⟩ (0 : Fin 4) * 1 + 1; omega
    | ⟨1, _⟩ => show win1_1.index ⟨(i 0).val - 32, hN⟩ (1 : Fin 4) * 32 ≤ (i 1).val ∧ (i 1).val < win1_1.index ⟨(i 0).val - 32, hN⟩ (1 : Fin 4) * 32 + 32; omega
    | ⟨2, _⟩ => show win1_1.index ⟨(i 0).val - 32, hN⟩ (2 : Fin 4) * 2048 ≤ (i 2).val ∧ (i 2).val < win1_1.index ⟨(i 0).val - 32, hN⟩ (2 : Fin 4) * 2048 + 2048; omega
    | ⟨3, _⟩ => show win1_1.index ⟨(i 0).val - 32, hN⟩ (3 : Fin 4) * 42 ≤ (i 3).val ∧ (i 3).val < win1_1.index ⟨(i 0).val - 32, hN⟩ (3 : Fin 4) * 42 + 42; omega

/-- The result after the region: the static-feature channels on channels 32 and above, the entry contents below. -/
theorem final1 (c : Dev nD) (i : S40x32x2048x42.Idx) :
    (dat1 V c).arrAt 1 cfg1.N i = if 32 ≤ (i 0).val then demoArr (V c main_v14) i else V c main_v15 i := by
  rw [(dat1 V c).arrAt_eq_piecewise 1 (demoArr (V c main_v14)) (fun t _ => flushed1_eq V c t) i, A_eq1]
  exact if_congr (covered_iff1 i) rfl rfl

/-- The features are never written back: window 0's array ends as entered. -/
theorem kept1_0 (c : Dev nD) : (dat1 V c).arrAt 0 cfg1.N = V c main_v14 :=
  ((dat1 V c).arrAt_in 0 rfl _).trans (A_eq1 V c 0)

end Array

/-! ## The specification's static-feature channels -/

/-- When the features array is the transposed static features, the static-feature channels are the specification's. -/
theorem demoArr_eq_G (demo : FVec Ideal Cert.Spec.S32x8 .f32) (times : FVec Ideal Cert.Spec.S32x2048 .f32)
    (values : FVec Ideal Cert.Spec.S32x2048x32 .f32) (meas : IVec Cert.Spec.S32x2048x32 1)
    (X : S8x1x32.Idx → EReal) (hX : ∀ (dd : Fin 8) (b : Fin 32), X (ix3 dd (0 : Fin 1) b) = demo (ix2 b dd))
    (j : S40x32x2048x42.Idx) (h : 32 ≤ (j 0).val) :
    demoArr X j = Cert.Spec.G demo times values meas j := by
  obtain ⟨ch, b, p, f, rfl⟩ : ∃ (ch : Fin 40) (b : Fin 32) (p : Fin 2048) (f : Fin 42), j = ix4 ch b p f :=
    ⟨j 0, j 1, j 2, j 3, eq_ix4 j⟩
  have hch : 32 ≤ ch.val := h
  have hlt := ch.isLt
  rw [Cert.Spec.G_apply_demo demo times values meas ch hch b p f]
  show demoC X ch.val b p.val f.val = _
  unfold demoC
  rw [hX]
  have e : (⟨(ch.val - 32) % 8, Nat.mod_lt _ (by omega)⟩ : Fin 8) = ⟨ch.val - 32, by omega⟩ :=
    Fin.ext (Nat.mod_eq_of_lt (by omega))
  rw [e]

end Cert.KernelIdeal.Hand

end
-- ==== Proof.KI.PackPieces.lean ====
/-
  What the packing kernel's stores leave, case by case, as the body's named arithmetic of what its loads read: in every
  case the accumulator ends at the accumulation step's value (from zero in the first time block, from what the point before
  left otherwise), and in the last time block the output block is the final arrangement of that accumulator.
-/
import proofs.«146262_j33595234189952_2_alg».proof.Proof.KI.PackFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- An inner time block: the accumulator ends at the accumulation step of the blocks and the accumulator found. -/
theorem soutB_eq (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : ¬condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    soutB c i arg3 harg3 arg4 harg4 arg5 harg5 arg6 harg6 arg7 harg7 arg8 harg8 arg9 harg9 hc0 hc1 x0 x1 x2 x3 x4 xs = k0_pay3 i x0 x1 x2 x3 xs := by
  unfold soutB
  rw [View.read_writes_eq_canon _ _ _ (scoverB c i arg3 harg3 arg4 harg4 arg5 harg5 arg6 harg6 arg7 harg7 arg8 harg8 arg9 harg9 hc0 hc1 x0 x1 x2 x3 x4 xs)]
  unfold kernelRunB
  dsimp only
  rw [View.canon_unit_zero hz3]
  simp only [View.readAt_eq_ld, Memref.IsWhole.read_unread, View.ld_unit_zero (S := S32x256) hz2, View.ld_unit_zero (S := S1x32x256) hz3, View.ld_unit_zero (S := S32x512x2) hz3, View.ld_unit_zero (S := S1x1x32) hz3]

/-- The last time block: the same for the accumulator, -/
theorem soutC_eq (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    soutC c i arg3 harg3 arg4 harg4 arg5 harg5 arg6 harg6 arg7 harg7 arg8 harg8 arg9 harg9 hc0 hc1 x0 x1 x2 x3 x4 xs = k0_pay3 i x0 x1 x2 x3 xs := by
  unfold soutC
  rw [View.read_writes_eq_canon _ _ _ (scoverC c i arg3 harg3 arg4 harg4 arg5 harg5 arg6 harg6 arg7 harg7 arg8 harg8 arg9 harg9 hc0 hc1 x0 x1 x2 x3 x4 xs)]
  unfold kernelRunC
  dsimp only
  sl_unfold_words
  rw [View.canon_unit_zero (S := S32x512x2) hz3]
  simp only [View.readAt_eq_ld, Memref.IsWhole.read_unread, View.ld_unit_zero (S := S32x256) hz2, View.ld_unit_zero (S := S1x32x256) hz3, View.ld_unit_zero (S := S32x512x2) hz3, View.ld_unit_zero (S := S1x1x32) hz3]

/-- and the output block is the final arrangement of the counts' block and that accumulator. -/
theorem outC_5_eq (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : ¬condZ i) (hc1 : condS i)
    (x0 : Vec F S32x256 .f32) (x1 : Vec F S1x32x256 .f32) (x2 : Vec F S1x32x256 .f32) (x3 : Vec F S1x32x256 .i32) (x4 : Vec F S1x1x32 .i32) (xs : Vec F S32x512x2 .f32) :
    outC_5 c i arg3 harg3 arg4 harg4 arg5 harg5 arg6 harg6 arg7 harg7 arg8 harg8 arg9 harg9 hc0 hc1 x0 x1 x2 x3 x4 xs
      = k0_pay1 (BitVec.ofNat 32 (i 0).val) (Scalar.muli (BitVec.ofNat 32 (i 1).val) 512#32) x4 (k0_pay3 i x0 x1 x2 x3 xs) := by
  unfold outC_5
  rw [View.read_writes_eq_canon _ _ _ (coverC_5 c i arg3 harg3 arg4 harg4 arg5 harg5 arg6 harg6 arg7 harg7 arg8 harg8 arg9 harg9 hc0 hc1 x0 x1 x2 x3 x4 xs)]
  unfold kernelRunC
  dsimp only
  sl_unfold_words
  rw [View.canon_unit_zero (S := S1x32x512x42) hz4, View.readCov_unit_zero (S := S32x512x2) _ hz3]
  simp only [View.readAt_eq_ld, Memref.IsWhole.read_unread, View.ld_unit_zero (S := S32x256) hz2, View.ld_unit_zero (S := S1x32x256) hz3, View.ld_unit_zero (S := S32x512x2) hz3, View.ld_unit_zero (S := S1x1x32) hz3]

/-- The first time block: the accumulator is zeroed first, so it ends at the accumulation step from zero. -/
theorem soutA_eq (c : Dev nD) (i : grid0.Coords) (arg3 : Memref sig .tc .vmem S32x256 .f32) (harg3 : arg3.IsWhole) (arg4 : Memref sig .tc .vmem S1x32x256 .f32) (harg4 : arg4.IsWhole) (arg5 : Memref sig .tc .vmem S1x32x256 .f32) (harg5 : arg5.IsWhole) (arg6 : Memref sig .tc .vmem S1x32x256 .i32) (harg6 : arg6.IsWhole) (arg7 : Memref sig .tc .vmem S1x1x32 .i32) (harg7 : arg7.IsWhole) (arg8 : Memref sig .tc .vmem S1x32x512x42 .f32) (harg8 : arg8.IsWhole) (arg9 : Memref sig .tc .vmem S32x512x2 .f32) (harg9 : arg9.IsWhole) (hc0 : condZ i) (hc1 : ¬condS i)
    (x0 : Vec F S32x256 .f32) (x1 : Vec F S1x32x256 .f32) (x2 : Vec F S1x32x256 .f32) (x3 : Vec F S1x32x256 .i32) (x4 : Vec F S1x1x32 .i32) :
    soutA c i arg3 harg3 arg4 harg4 arg5 harg5 arg6 harg6 arg7 harg7 arg8 harg8 arg9 harg9 hc0 hc1 x0 x1 x2 x3 x4 = k0_pay3 i x0 x1 x2 x3 (k0_pay2 (F := F)) := by
  unfold soutA
  rw [View.read_writes_eq_canon _ _ _ (scoverA c i arg3 harg3 arg4 harg4 arg5 harg5 arg6 harg6 arg7 harg7 arg8 harg8 arg9 harg9 hc0 hc1 x0 x1 x2 x3 x4)]
  unfold kernelRunA
  dsimp only
  sl_unfold_words
  rw [View.canon_cons_unit_zero (S := S32x512x2) hz3, View.readCov_unit_zero (S := S32x512x2) _ hz3]
  simp only [View.readAt_eq_ld, Memref.IsWhole.read_unread, View.ld_unit_zero (S := S32x256) hz2, View.ld_unit_zero (S := S1x32x256) hz3, View.ld_unit_zero (S := S32x512x2) hz3, View.ld_unit_zero (S := S1x1x32) hz3]

end Cert.KernelIdeal.Hand

end
-- ==== Proof.KI.PackPayload.lean ====
/-
  The arithmetic of the packing kernel's body, read at an index, at the ideal values.

  The body has three pure payloads. The scratch's fill is zero everywhere. The accumulation step adds to the scratch,
  at batch row b, slot p and column n, the sum over the 256 times of the block of a selector (the mask where the slot's
  global number equals the time's position, zero elsewhere) times the time (column 0) or the value (column 1): a batched
  product whose contraction runs over the block's times. The output block lays the two accumulator columns at features
  0 and 41 and, between them, the product of "the slot is below the count" and "the feature is the channel".
  Each is stated over variables of the literal vector types and explicit coordinates.
-/
import proofs.«146262_j33595234189952_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Hand

open Idealize.ShloMosaic Idealize.SL.Sem Idealize.ShloMosaic.ValueIdx
open scoped BigOperators

/-! ## Three pieces laid end to end along the last axis of a rank-3 array, read at an index -/

section Concat3
variable {α : Type} {a b n1 n2 n3 n : Nat}

theorem concat3_axis2_fst
    (x1 : (⟨3, ![a, b, n1]⟩ : Shape).Idx → α) (x2 : (⟨3, ![a, b, n2]⟩ : Shape).Idx → α)
    (x3 : (⟨3, ![a, b, n3]⟩ : Shape).Idx → α)
    (h : Shape.Concatenates [(⟨3, ![a, b, n1]⟩ : Shape), ⟨3, ![a, b, n2]⟩, ⟨3, ![a, b, n3]⟩] ⟨3, ![a, b, n]⟩ 2)
    (i : Fin a) (j : Fin b) (c : Fin n) (c' : Fin n1) (hc : c'.val = c.val) :
    concatenate ⟨3, ![a, b, n]⟩ 2 [⟨_, x1⟩, ⟨_, x2⟩, ⟨_, x3⟩] h (ix3 i j c) = x1 (ix3 i j c') :=
  concatenate_apply_piece (t := ⟨3, ![a, b, n]⟩) 2 [⟨_, x1⟩, ⟨_, x2⟩, ⟨_, x3⟩] h (ix3 i j c) 0 (by simp) _ x1 rfl rfl 0 rfl (ix3 i j c')
    (fun b' hb => by
      match b', hb with
      | ⟨0, _⟩, _ => rfl
      | ⟨1, _⟩, _ => rfl
      | ⟨2, _⟩, hb => exact absurd rfl hb)
    (by show 0 + c'.val = c.val; omega)

theorem concat3_axis2_snd
    (x1 : (⟨3, ![a, b, n1]⟩ : Shape).Idx → α) (x2 : (⟨3, ![a, b, n2]⟩ : Shape).Idx → α)
    (x3 : (⟨3, ![a, b, n3]⟩ : Shape).Idx → α)
    (h : Shape.Concatenates [(⟨3, ![a, b, n1]⟩ : Shape), ⟨3, ![a, b, n2]⟩, ⟨3, ![a, b, n3]⟩] ⟨3, ![a, b, n]⟩ 2)
    (i : Fin a) (j : Fin b) (c : Fin n) (c' : Fin n2) (hc : n1 + c'.val = c.val) :
    concatenate ⟨3, ![a, b, n]⟩ 2 [⟨_, x1⟩, ⟨_, x2⟩, ⟨_, x3⟩] h (ix3 i j c) = x2 (ix3 i j c') :=
  concatenate_apply_piece (t := ⟨3, ![a, b, n]⟩) 2 [⟨_, x1⟩, ⟨_, x2⟩, ⟨_, x3⟩] h (ix3 i j c) 1 (by simp) _ x2 rfl rfl n1 rfl (ix3 i j c')
    (fun b' hb => by
      match b', hb with
      | ⟨0, _⟩, _ => rfl
      | ⟨1, _⟩, _ => rfl
      | ⟨2, _⟩, hb => exact absurd rfl hb)
    (by show n1 + c'.val = c.val; omega)

theorem concat3_axis2_thd
    (x1 : (⟨3, ![a, b, n1]⟩ : Shape).Idx → α) (x2 : (⟨3, ![a, b, n2]⟩ : Shape).Idx → α)
    (x3 : (⟨3, ![a, b, n3]⟩ : Shape).Idx → α)
    (h : Shape.Concatenates [(⟨3, ![a, b, n1]⟩ : Shape), ⟨3, ![a, b, n2]⟩, ⟨3, ![a, b, n3]⟩] ⟨3, ![a, b, n]⟩ 2)
    (i : Fin a) (j : Fin b) (c : Fin n) (c' : Fin n3) (hc : n1 + n2 + c'.val = c.val) :
    concatenate ⟨3, ![a, b, n]⟩ 2 [⟨_, x1⟩, ⟨_, x2⟩, ⟨_, x3⟩] h (ix3 i j c) = x3 (ix3 i j c') :=
  concatenate_apply_piece (t := ⟨3, ![a, b, n]⟩) 2 [⟨_, x1⟩, ⟨_, x2⟩, ⟨_, x3⟩] h (ix3 i j c) 2 (by simp) _ x3 rfl rfl (n1 + n2) (by simp) (ix3 i j c')
    (fun b' hb => by
      match b', hb with
      | ⟨0, _⟩, _ => rfl
      | ⟨1, _⟩, _ => rfl
      | ⟨2, _⟩, hb => exact absurd rfl hb)
    (by show n1 + n2 + c'.val = c.val; omega)

end Concat3

/-! ## The scratch's zero fill -/

/-- The zero fill of the scratch is zero at every index. -/
theorem pay2_apply (j : S32x512x2.Idx) : Gen.k0_pay2 (F := Ideal) j = 0 := by
  unfold Gen.k0_pay2
  refine (congrFun (shapeCast_self _ _) j).trans ?_
  exact Ideal.ofBits_zero_f32

/-! ## Words and bits at an index -/

/-- A one-bit word widened and read as a signed integer, as an extended real: the bit. -/
theorem sitofp_extui_bit (c : BitVec 1) :
    FloatOps.sitofp (F := Ideal) .f32 (c.setWidth 32) = if c = 1#1 then (1 : EReal) else 0 := by
  rcases BitVec.eq_zero_or_eq_one c with h | h <;> subst h
  · show (((BitVec.setWidth 32 0#1).toInt : ℝ) : EReal) = _
    have e : (BitVec.setWidth 32 0#1).toInt = 0 := by decide
    rw [e]; simp
  · show (((BitVec.setWidth 32 1#1).toInt : ℝ) : EReal) = _
    have e : (BitVec.setWidth 32 1#1).toInt = 1 := by decide
    rw [e]; simp

/-- The signed comparison's bit, widened and converted: the indicator of the comparison. -/
theorem sitofp_extui_cmpi_slt (x y : BitVec 32) :
    FloatOps.sitofp (F := Ideal) .f32 ((IntOp.cmpi .slt x y).setWidth 32) = if x.slt y then (1 : EReal) else 0 := by
  rw [sitofp_extui_bit]
  cases h : x.slt y <;> simp [IntOp.cmpi, h]

/-- A select between the words of 1.0 and 0.0 on an equality's bit: the indicator of the equality. -/
theorem select_cmpi_eq_one_zero (x y : BitVec 32) :
    Scalar.select (IntOp.cmpi .eq x y) (FloatOps.ofBits (F := Ideal) .f32 0x3F800000#32)
        (FloatOps.ofBits (F := Ideal) .f32 0x00000000#32) = if x = y then (1 : EReal) else 0 := by
  show (if IntOp.cmpi .eq x y = 1 then Ideal.ofBits .f32 0x3F800000#32 else Ideal.ofBits .f32 0x00000000#32) = _
  rw [Ideal.ofBits_one_f32, Ideal.ofBits_zero_f32]
  by_cases h : x = y
  · subst h; simp [IntOp.cmpi]
  · have hb : (x == y) = false := by simpa using h
    simp [IntOp.cmpi, hb, h]

/-! ## The output block's payload at an index -/

/-- The output block of the packing kernel at batch row `b`, slot `p` of the block and feature `f`: feature 0 is the
    first accumulator column, feature 41 the second, and feature `1 + d` is the product of "slot below the count"
    and "d is the channel". -/
theorem pay1_apply (arg0 v10 : BitVec 32) (v35 : Vec Ideal S1x1x32 .i32) (v56 : Vec Ideal S32x512x2 .f32)
    (b : Fin 32) (p : Fin 512) (f : Fin 42) :
    Gen.k0_pay1 (F := Ideal) arg0 v10 v35 v56 (ix4 0 b p f) =
      if f.val = 0 then v56 (ix3 b p 0)
      else if f.val = 41 then v56 (ix3 b p 1)
      else (if (v10 + BitVec.ofNat 32 p.val).slt (v35 (ix3 0 0 b)) then (1 : EReal) else 0) *
           (if BitVec.ofNat 32 (f.val - 1) = arg0 then (1 : EReal) else 0) := by
  unfold Gen.k0_pay1
  refine (shapeCast_abc_1abc_apply _ _ 0 b p f).trans ?_
  by_cases h0 : f.val = 0
  · rw [if_pos h0]
    refine (concat3_axis2_fst _ _ _ _ b p f (0 : Fin 1) (by show 0 = f.val; omega)).trans ?_
    exact extractStridedSlice_apply _ _ _ _ (ix3 b p (0 : Fin 2)) (fun ax => by
      match ax with
      | ⟨0, _⟩ => exact (Nat.zero_add _).symm
      | ⟨1, _⟩ => exact (Nat.zero_add _).symm
      | ⟨2, _⟩ => rfl)
  · rw [if_neg h0]
    by_cases h41 : f.val = 41
    · rw [if_pos h41]
      refine (concat3_axis2_thd _ _ _ _ b p f (0 : Fin 1) (by show 1 + 40 + 0 = f.val; omega)).trans ?_
      exact extractStridedSlice_apply _ _ _ _ (ix3 b p (1 : Fin 2)) (fun ax => by
        match ax with
        | ⟨0, _⟩ => exact (Nat.zero_add _).symm
        | ⟨1, _⟩ => exact (Nat.zero_add _).symm
        | ⟨2, _⟩ => rfl)
    · rw [if_neg h41]
      have hf := f.isLt
      refine (concat3_axis2_snd _ _ _ _ b p f (⟨f.val - 1, by omega⟩ : Fin 40) (by show 1 + (f.val - 1) = f.val; omega)).trans ?_
      refine (mulf_apply _ _ _).trans ?_
      refine congrArg₂ (· * ·) ?_ ?_
      · -- "slot below the count"
        refine (broadcastTo_apply _ _ _ (ix3 b p (0 : Fin 1)) (fun ax => by
          match ax with
          | ⟨0, _⟩ => rfl
          | ⟨1, _⟩ => rfl
          | ⟨2, _⟩ => rfl)).trans ?_
        refine (shapeCast_apply _ _ _ (ix2 b p) (by
          rw [Shape.rowMajor_val_two, Shape.rowMajor_val_three]
          show b.val * 512 + p.val = (b.val * 512 + p.val) * 1 + 0
          omega)).trans ?_
        refine (sitofp_apply _ _).trans ?_
        refine Eq.trans ?_ (sitofp_extui_cmpi_slt _ _)
        refine congrArg (fun c : BitVec 1 => FloatOps.sitofp (F := Ideal) .f32 (c.setWidth 32)) ?_
        show IntOp.cmpi .slt _ _ = IntOp.cmpi .slt _ _
        refine congrArg₂ (IntOp.cmpi .slt) ?_ ?_
        · refine (broadcastTo_1b_ab_apply _ _ b p).trans ?_
          show IntOp.addi v10 _ = v10 + _
          refine congrArg (v10 + ·) ?_
          exact iota_single_apply _ _ _ _ _ _
        · refine (broadcastTo_apply _ _ _ (ix2 b (0 : Fin 1)) (fun ax => by
            match ax with
            | ⟨0, _⟩ => rfl
            | ⟨1, _⟩ => rfl)).trans ?_
          refine (shapeCast_apply _ _ _ (ix1 b) (by
            rw [Shape.rowMajor_val_one, Shape.rowMajor_val_two]
            show b.val = b.val * 1 + 0
            omega)).trans ?_
          exact shapeCast_apply _ _ _ (ix3 (0 : Fin 1) (0 : Fin 1) b) (by
            rw [Shape.rowMajor_val_three, Shape.rowMajor_val_one]
            show (0 * 1 + 0) * 32 + b.val = b.val
            omega)
      · -- "d is the channel"
        refine (broadcastTo_apply _ _ _ (ix3 (0 : Fin 1) (0 : Fin 1) (⟨f.val - 1, by omega⟩ : Fin 40)) (fun ax => by
          match ax with
          | ⟨0, _⟩ => rfl
          | ⟨1, _⟩ => rfl
          | ⟨2, _⟩ => rfl)).trans ?_
        refine (select_apply _ _ _ _).trans ?_
        refine Eq.trans ?_ (select_cmpi_eq_one_zero _ _)
        refine congrArg (fun c : BitVec 1 => Scalar.select c (FloatOps.ofBits (F := Ideal) .f32 0x3F800000#32)
          (FloatOps.ofBits (F := Ideal) .f32 0x00000000#32)) ?_
        show IntOp.cmpi .eq _ _ = IntOp.cmpi .eq _ _
        refine congrArg (IntOp.cmpi .eq · arg0) ?_
        exact iota_single_apply _ _ _ _ _ _

/-! ## The batched product's operand indices -/

/-- The dimension numbers of the kernel's batched product: batch axis 0, the left operand's axis 2 contracted
    with the right operand's axis 1. -/
abbrev packDot : DotDims S32x512x256 S32x256x2 S32x512x2 := dot_S32x512x256_S32x256x2_S32x512x2_2_1_1_2_0_0

/-- At output index `(b, p, n)` and contraction coordinate `c` the left operand is read at `(b, p, c)`. -/
theorem packDot_lhsIdx (b : Fin 32) (p : Fin 512) (n : Fin 2) (c : Fin 256) :
    packDot.lhsIdx (ix3 b p n) ((contrEquiv1 packDot 256 rfl rfl).symm c) = ix3 b p c := by
  funext a
  apply Fin.ext
  match a with
  | ⟨0, _⟩ => rfl
  | ⟨1, _⟩ => rfl
  | ⟨2, _⟩ => exact (packDot.lhsIdx_val_of_single rfl _ _).trans (contrEquiv1_symm_val packDot 256 rfl rfl c)

/-- … and the right operand at `(b, c, n)`. -/
theorem packDot_rhsIdx (b : Fin 32) (p : Fin 512) (n : Fin 2) (c : Fin 256) :
    packDot.rhsIdx (ix3 b p n) ((contrEquiv1 packDot 256 rfl rfl).symm c) = ix3 b c n := by
  funext a
  apply Fin.ext
  match a with
  | ⟨0, _⟩ => rfl
  | ⟨1, _⟩ => exact (packDot.rhsIdx_val_of_single rfl _ _).trans (contrEquiv1_symm_val packDot 256 rfl rfl c)
  | ⟨2, _⟩ => rfl

/-! ## The accumulation's payload at an index -/

/-- A select between a value and the word of 0.0 on an equality's bit. -/
theorem select_cmpi_eq_zero (x y : BitVec 32) (A : EReal) :
    Scalar.select (IntOp.cmpi .eq x y) A (FloatOps.ofBits (F := Ideal) .f32 0x00000000#32) = if x = y then A else 0 := by
  show (if IntOp.cmpi .eq x y = 1 then A else Ideal.ofBits .f32 0x00000000#32) = _
  rw [Ideal.ofBits_zero_f32]
  by_cases h : x = y
  · subst h; simp [IntOp.cmpi]
  · have hb : (x == y) = false := by simpa using h
    simp [IntOp.cmpi, hb, h]

/-- A `[1, 32, 256]` block viewed `[32, 256]`, then `[32, 1, 256]`, then copied along the middle axis to
    `[32, 512, 256]`, reads at `(b, p, c)` the block at `(0, b, c)`. -/
theorem rowBlock_apply {α : Type} (x : S1x32x256.Idx → α) (h1 : S1x32x256.ShapeCasts S32x256)
    (h2 : S32x256.ShapeCasts S32x1x256) (h3 : S32x1x256.Broadcasts S32x512x256) (b : Fin 32) (p : Fin 512) (c : Fin 256) :
    broadcastTo S32x512x256 (shapeCast S32x1x256 (shapeCast S32x256 x h1) h2) h3 (ix3 b p c) = x (ix3 (0 : Fin 1) b c) := by
  refine (broadcastTo_apply _ _ _ (ix3 b (0 : Fin 1) c) (fun ax => by
    match ax with
    | ⟨0, _⟩ => rfl
    | ⟨1, _⟩ => rfl
    | ⟨2, _⟩ => rfl)).trans ?_
  refine (shapeCast_apply _ _ _ (ix2 b c) (by
    rw [Shape.rowMajor_val_two, Shape.rowMajor_val_three]
    show b.val * 256 + c.val = (b.val * 1 + 0) * 256 + c.val
    omega)).trans ?_
  exact shapeCast_1ab_ab_apply _ _ b c

/-- The accumulation step at batch row `b`, slot `p` of the block and column `n`: the scratch there plus the sum
    over the 256 times of the block of (the mask where the slot's global number is the time's position, else zero)
    times (the time for column 0, the value for column 1). -/
theorem pay3_apply (i : grid0.Coords) (v3 : Vec Ideal S32x256 .f32) (v4 v6 : Vec Ideal S1x32x256 .f32)
    (v8 : Vec Ideal S1x32x256 .i32) (v27 : Vec Ideal S32x512x2 .f32) (b : Fin 32) (p : Fin 512) (n : Fin 2) :
    Gen.k0_pay3 (F := Ideal) i v3 v4 v6 v8 v27 (ix3 b p n) =
      v27 (ix3 b p n) + ∑ c : Fin 256,
        (if Scalar.muli (BitVec.ofNat 32 (i 1).val) 512#32 + BitVec.ofNat 32 p.val = v8 (ix3 0 b c)
          then v6 (ix3 0 b c) else 0) *
        (if n.val = 0 then v3 (ix2 b c) else v4 (ix3 0 b c)) := by
  unfold Gen.k0_pay3
  refine (congrFun (shapeCast_self _ _) _).trans ?_
  refine (addf_apply _ _ _).trans ?_
  refine congrArg (v27 (ix3 b p n) + ·) ?_
  refine (Ideal.matmul_constant_zero_apply packDot _ _ _ _).trans ?_
  refine (Equiv.sum_comp (contrEquiv1 packDot 256 rfl rfl).symm _).symm.trans ?_
  refine Finset.sum_congr rfl fun c _ => ?_
  refine congrArg₂ (· * ·) ?_ ?_
  · -- the selector
    refine (congrArg _ (packDot_lhsIdx b p n c)).trans ?_
    refine (select_apply _ _ _ _).trans ?_
    refine Eq.trans ?_ (select_cmpi_eq_zero _ _ _)
    refine congrArg₂ (fun (w : BitVec 1) (A : EReal) =>
      Scalar.select w A (FloatOps.ofBits (F := Ideal) .f32 0x00000000#32)) ?_ ?_
    · show IntOp.cmpi .eq _ _ = IntOp.cmpi .eq _ _
      refine congrArg₂ (IntOp.cmpi .eq) ?_ ?_
      · refine (broadcastTo_apply _ _ _ (ix3 (0 : Fin 1) p (0 : Fin 1)) (fun ax => by
          match ax with
          | ⟨0, _⟩ => rfl
          | ⟨1, _⟩ => rfl
          | ⟨2, _⟩ => rfl)).trans ?_
        show IntOp.addi (Scalar.muli (BitVec.ofNat 32 (i 1).val) 512#32) _ = Scalar.muli (BitVec.ofNat 32 (i 1).val) 512#32 + _
        refine congrArg (Scalar.muli (BitVec.ofNat 32 (i 1).val) 512#32 + ·) ?_
        exact iota_single_apply _ _ _ _ _ _
      · exact rowBlock_apply v8 _ _ _ b p c
    · refine (broadcastTo_apply _ _ _ (ix3 b (0 : Fin 1) c) (fun ax => by
        match ax with
        | ⟨0, _⟩ => rfl
        | ⟨1, _⟩ => rfl
        | ⟨2, _⟩ => rfl)).trans ?_
      refine (congrFun (shapeCast_self _ _) _).trans ?_
      refine (shapeCast_apply _ _ _ (ix2 b c) (by
        rw [Shape.rowMajor_val_two, Shape.rowMajor_val_three]
        show b.val * 256 + c.val = (b.val * 1 + 0) * 256 + c.val
        omega)).trans ?_
      exact shapeCast_1ab_ab_apply _ _ b c
  · -- the time or the value
    refine (congrArg _ (packDot_rhsIdx b p n c)).trans ?_
    by_cases hn : n.val = 0
    · rw [if_pos hn]
      refine (concatenate_pair_apply_left (t := S32x256x2) (s₁ := S32x256x1) (s₂ := S32x256x1) 2 _ _ _ (ix3 b c n) rfl (ix3 b c (0 : Fin 1)) (fun ax => by
        match ax with
        | ⟨0, _⟩ => rfl
        | ⟨1, _⟩ => rfl
        | ⟨2, _⟩ => exact hn.symm)).trans ?_
      exact shapeCast_apply _ _ _ (ix2 b c) (by
        rw [Shape.rowMajor_val_two, Shape.rowMajor_val_three]
        show b.val * 256 + c.val = (b.val * 256 + c.val) * 1 + 0
        omega)
    · rw [if_neg hn]
      have hn1 : n.val = 1 := by have := n.isLt; omega
      refine (concatenate_pair_apply_right (t := S32x256x2) (s₁ := S32x256x1) (s₂ := S32x256x1) 2 _ _ _ (ix3 b c n) rfl rfl (ix3 b c (0 : Fin 1)) (fun ax hax => by
        match ax, hax with
        | ⟨0, _⟩, _ => rfl
        | ⟨1, _⟩, _ => rfl
        | ⟨2, _⟩, hax => exact absurd rfl hax) (by show 0 + 1 = n.val; omega)).trans ?_
      refine (shapeCast_apply _ _ _ (ix2 b c) (by
        rw [Shape.rowMajor_val_two, Shape.rowMajor_val_three]
        show b.val * 256 + c.val = (b.val * 256 + c.val) * 1 + 0
        omega)).trans ?_
      exact shapeCast_1ab_ab_apply _ _ b c

/-- The slot's global number as one word: the block number times 512 plus the slot, modulo 2³². -/
theorem muli_ofNat_add (k p : Nat) :
    Scalar.muli (BitVec.ofNat 32 k) 512#32 + BitVec.ofNat 32 p = BitVec.ofNat 32 (k * 512 + p) := by
  show BitVec.ofNat 32 k * BitVec.ofNat 32 512 + BitVec.ofNat 32 p = _
  rw [← BitVec.ofNat_mul, ← BitVec.ofNat_add]

/-- The accumulation step with the slot's global number written as one word. -/
theorem pay3_apply_ofNat (i : grid0.Coords) (v3 : Vec Ideal S32x256 .f32) (v4 v6 : Vec Ideal S1x32x256 .f32)
    (v8 : Vec Ideal S1x32x256 .i32) (v27 : Vec Ideal S32x512x2 .f32) (b : Fin 32) (p : Fin 512) (n : Fin 2) :
    Gen.k0_pay3 (F := Ideal) i v3 v4 v6 v8 v27 (ix3 b p n) =
      v27 (ix3 b p n) + ∑ c : Fin 256,
        (if BitVec.ofNat 32 ((i 1).val * 512 + p.val) = v8 (ix3 0 b c) then v6 (ix3 0 b c) else 0) *
        (if n.val = 0 then v3 (ix2 b c) else v4 (ix3 0 b c)) := by
  rw [pay3_apply, muli_ofNat_add]

end Cert.KernelIdeal.Hand

end
-- ==== Proof.Counting.lean ====
/-
  Counting facts about the packing: along the steps of one channel of one batch row, the rank of an observed
  step (its position among the observed steps, counted from one) takes each value 1 … total exactly once.
  Hence for each slot p there is exactly one observed step with rank p + 1 when p < total, and none otherwise.
-/
import Mathlib.Data.Finset.Card
import Mathlib.Order.Interval.Finset.Nat
import Mathlib.Algebra.BigOperators.Group.Finset.Basic
import proofs.«146262_j33595234189952_2_alg».proof.Proof.Spec

namespace Cert.Spec

open Idealize.ShloMosaic
open scoped BigOperators

/-! ### Ranks along a finite line, for any decidable predicate -/

section Generic
variable {n : ℕ} (P : Fin n → Prop) [DecidablePred P]

/-- The number of positions up to and including `t` that satisfy `P`. -/
def rk (t : Fin n) : ℕ := (Finset.univ.filter fun s : Fin n => s ≤ t ∧ P s).card

/-- The number of positions that satisfy `P`. -/
def tot : ℕ := (Finset.univ.filter fun s : Fin n => P s).card

theorem rk_le_tot (t : Fin n) : rk P t ≤ tot P :=
  Finset.card_le_card fun s hs => by
    simp only [Finset.mem_filter, Finset.mem_univ, true_and] at hs ⊢; exact hs.2

theorem tot_le : tot P ≤ n := by
  have := Finset.card_le_univ (Finset.univ.filter fun s : Fin n => P s)
  simpa [tot] using this

theorem one_le_rk {t : Fin n} (h : P t) : 1 ≤ rk P t :=
  Finset.card_pos.2 ⟨t, by simp only [Finset.mem_filter, Finset.mem_univ, true_and]; exact ⟨le_refl t, h⟩⟩

/-- The rank strictly increases at each position that satisfies `P`. -/
theorem rk_lt_rk {t t' : Fin n} (hlt : t < t') (h' : P t') : rk P t < rk P t' := by
  unfold rk
  apply Finset.card_lt_card
  rw [Finset.ssubset_iff_of_subset]
  · refine ⟨t', ?_, ?_⟩
    · simp only [Finset.mem_filter, Finset.mem_univ, true_and]; exact ⟨le_refl t', h'⟩
    · simp only [Finset.mem_filter, Finset.mem_univ, true_and, not_and]; intro hle; exact absurd hle (not_le.2 hlt)
  · intro s hs
    simp only [Finset.mem_filter, Finset.mem_univ, true_and] at hs ⊢
    exact ⟨hs.1.trans hlt.le, hs.2⟩

/-- Two positions that satisfy `P` and have the same rank are the same position. -/
theorem rk_inj {t t' : Fin n} (h : P t) (h' : P t') (e : rk P t = rk P t') : t = t' := by
  rcases lt_trichotomy t t' with hlt | heq | hgt
  · have := rk_lt_rk P hlt h'; omega
  · exact heq
  · have := rk_lt_rk P hgt h; omega

/-- Every value 1 … tot is the rank of a position that satisfies `P`. -/
theorem exists_rk_eq {r : ℕ} (h1 : 1 ≤ r) (h2 : r ≤ tot P) : ∃ t, P t ∧ rk P t = r := by
  have himg : (Finset.univ.filter fun s : Fin n => P s).image (rk P) = Finset.Icc 1 (tot P) := by
    apply Finset.eq_of_subset_of_card_le
    · intro r hr
      obtain ⟨t, ht, rfl⟩ := Finset.mem_image.1 hr
      have hP := (Finset.mem_filter.1 ht).2
      exact Finset.mem_Icc.2 ⟨one_le_rk P hP, rk_le_tot P t⟩
    · rw [Finset.card_image_of_injOn, Nat.card_Icc]
      · show tot P + 1 - 1 ≤ tot P; omega
      · intro t ht t' ht' e
        exact rk_inj P (Finset.mem_filter.1 (Finset.mem_coe.1 ht)).2 (Finset.mem_filter.1 (Finset.mem_coe.1 ht')).2 e
  have hr : r ∈ Finset.Icc 1 (tot P) := Finset.mem_Icc.2 ⟨h1, h2⟩
  rw [← himg] at hr
  obtain ⟨t, ht, e⟩ := Finset.mem_image.1 hr
  exact ⟨t, (Finset.mem_filter.1 ht).2, e⟩

/-- Exactly one position satisfying `P` has rank `p + 1` when `p < tot`, none otherwise. -/
theorem card_filter_rk (p : ℕ) :
    (Finset.univ.filter fun t : Fin n => P t ∧ rk P t = p + 1).card = if p < tot P then 1 else 0 := by
  split_ifs with h
  · obtain ⟨t0, h0, e0⟩ := exists_rk_eq P (r := p + 1) (by omega) (by omega)
    rw [Finset.card_eq_one]
    refine ⟨t0, ?_⟩
    ext t
    simp only [Finset.mem_filter, Finset.mem_univ, true_and, Finset.mem_singleton]
    constructor
    · rintro ⟨ht, e⟩; exact rk_inj P ht h0 (e.trans e0.symm)
    · rintro rfl; exact ⟨h0, e0⟩
  · rw [Finset.card_eq_zero, Finset.filter_eq_empty_iff]
    rintro t _ ⟨_, e⟩
    have := rk_le_tot P t; omega

end Generic

/-! ### The same facts for the measurement mask -/

variable (meas : IVec S32x2048x32 1) (b : Fin 32) (ch : Fin 32)

theorem rank_eq_rk (t : Fin 2048) : rank meas b t ch = rk (fun s => M meas b s ch) t := rfl

theorem total_eq_tot : total meas b ch = tot (fun s => M meas b s ch) := rfl

theorem rank_le_total (t : Fin 2048) : rank meas b t ch ≤ total meas b ch := rk_le_tot _ t

theorem total_le : total meas b ch ≤ 2048 := tot_le _

theorem rank_le (t : Fin 2048) : rank meas b t ch ≤ 2048 := (rank_le_total meas b ch t).trans (total_le meas b ch)

theorem one_le_rank {t : Fin 2048} (h : M meas b t ch) : 1 ≤ rank meas b t ch :=
  one_le_rk (fun s => M meas b s ch) h

/-- The rank strictly increases at each observed step. -/
theorem rank_lt_rank {t t' : Fin 2048} (hlt : t < t') (h' : M meas b t' ch) :
    rank meas b t ch < rank meas b t' ch := rk_lt_rk (fun s => M meas b s ch) hlt h'

/-- A slot is occupied by a step only if it is below the number of observed steps. -/
theorem hit_lt_total {t p : Fin 2048} (h : hit meas b t ch p) : p.val < total meas b ch := by
  have := rank_le_total meas b ch t; have := h.2; omega

/-- At most one step lands in a slot. -/
theorem hit_unique {t t' p : Fin 2048} (h : hit meas b t ch p) (h' : hit meas b t' ch p) : t = t' :=
  rk_inj (fun s => M meas b s ch) h.1 h'.1 (h.2.trans h'.2.symm)

/-- A step lands in at most one slot. -/
theorem hit_slot_unique {t p p' : Fin 2048} (h : hit meas b t ch p) (h' : hit meas b t ch p') : p = p' :=
  Fin.ext (by have := h.2; have := h'.2; omega)

/-- Each slot below the number of observed steps is occupied. -/
theorem exists_hit {p : Fin 2048} (h : p.val < total meas b ch) : ∃ t, hit meas b t ch p :=
  exists_rk_eq (fun s => M meas b s ch) (r := p.val + 1) (by omega) (by rw [← total_eq_tot]; omega)

/-- Exactly one step lands in a slot below the number of observed steps, none in a slot at or above it. -/
theorem card_hit (p : Fin 2048) :
    (Finset.univ.filter fun t : Fin 2048 => hit meas b t ch p).card = if p.val < total meas b ch then 1 else 0 :=
  card_filter_rk (fun s => M meas b s ch) p.val

/-- A sum over the steps of a quantity taken only at the step that lands in slot `p`, when one does, is that
    quantity there. -/
theorem sum_ite_hit_of_hit {α : Type} [AddCommMonoid α] {t0 p : Fin 2048} (h0 : hit meas b t0 ch p)
    (g : Fin 2048 → α) : (∑ t : Fin 2048, if hit meas b t ch p then g t else 0) = g t0 := by
  rw [Finset.sum_eq_single t0]
  · rw [if_pos h0]
  · intro t _ hne
    rw [if_neg]; intro h; exact hne (hit_unique meas b ch h h0)
  · intro h; exact absurd (Finset.mem_univ t0) h

/-- When no step lands in slot `p` the sum is zero. -/
theorem sum_ite_hit_of_not_lt {α : Type} [AddCommMonoid α] {p : Fin 2048} (h : ¬ p.val < total meas b ch)
    (g : Fin 2048 → α) : (∑ t : Fin 2048, if hit meas b t ch p then g t else 0) = 0 := by
  apply Finset.sum_eq_zero
  intro t _
  rw [if_neg]; intro ht; exact h (hit_lt_total meas b ch ht)

/-- The number of steps that land in slot `p`, as an extended real: one below the number of observed steps,
    zero from there on. -/
theorem sum_hit_one (p : Fin 2048) :
    (∑ t : Fin 2048, if hit meas b t ch p then (1 : EReal) else 0) = if p.val < total meas b ch then 1 else 0 := by
  split_ifs with h
  · obtain ⟨t0, h0⟩ := exists_hit meas b ch h
    exact sum_ite_hit_of_hit meas b ch h0 (fun _ => (1 : EReal))
  · exact sum_ite_hit_of_not_lt meas b ch h (fun _ => (1 : EReal))

end Cert.Spec
-- ==== Proof.CumSum.lean ====
/-
  The two integer host stages of the packing, read at an index.

  The running count of observed steps is computed as a sum over a window of 2048 positions of the mask, widened
  to 32-bit words, the array padded with 2047 zeros in front along the step axis; the number of observed steps of
  a channel is the sum of the widened mask over the step axis. Both are sums of at most 2048 zeros and ones, so
  as 32-bit words they are the words of the natural numbers `rank` and `total`. The comparisons made on those
  words (the position `rank - 1` against a slot number; a slot number against the total) are the comparisons
  of the natural numbers, since everything is far below 2^31.
-/
import Mathlib.Data.BitVec
import Idealize.ShloMosaic.Lib.IndicatorCount
import proofs.«146262_j33595234189952_2_alg».proof.Proof.Counting

namespace Cert.Spec

open Idealize.ShloMosaic
open Idealize.ShloMosaic.ValueIdx (ix2 ix3 ix4)
open scoped BigOperators

abbrev S_ : Shape := ⟨0, ![]⟩
abbrev S32x32 : Shape := ⟨2, ![32, 32]⟩
/-- The window of the running count: all 2048 steps, one batch row, one channel. -/
abbrev W3 : Shape := ⟨3, ![1, 2048, 1]⟩

/-- A left fold of a commutative and associative operation over all positions below `n`, in order, is the fold
    over the set of them. -/
theorem foldl_finRange_eq_fold {α : Type} (f : α → α → α) [Std.Commutative f] [Std.Associative f] (n : ℕ) (init : α)
    (g : Fin n → α) :
    (List.finRange n).foldl (fun r k => f r (g k)) init = (Finset.univ : Finset (Fin n)).fold f init g := by
  have hn := List.nodup_finRange n
  have hs : (Finset.univ : Finset (Fin n)) = (List.finRange n).toFinset := by ext i; simp
  rw [hs, Finset.fold, List.toFinset_val, hn.dedup, Multiset.map_coe, Multiset.coe_fold_l, List.foldl_map]

/-! ### The running count -/

/-- The mask bit that window position `k` of the window ending at step `t` reads: step `t + k - 2047` when that
    is not negative, padding otherwise. -/
def winBit (meas : IVec S32x2048x32 1) (b : Fin 32) (t : Fin 2048) (ch : Fin 32) (k : Fin 2048) : BitVec 1 :=
  if h : 2047 ≤ t.val + k.val then meas (ix3 b ⟨t.val + k.val - 2047, by omega⟩ ch) else 0#1

/-- The window positions that read a set bit correspond, by `k ↦ t + k - 2047`, to the observed steps up to `t`. -/
theorem card_winBit (meas : IVec S32x2048x32 1) (b : Fin 32) (t : Fin 2048) (ch : Fin 32) :
    (Finset.univ.filter fun k : Fin 2048 => winBit meas b t ch k = 1#1).card = rank meas b t ch := by
  unfold rank
  refine Finset.card_bij (fun k _ => (⟨t.val + k.val - 2047, by omega⟩ : Fin 2048)) ?_ ?_ ?_
  · intro k hk
    have hk' := (Finset.mem_filter.1 hk).2
    unfold winBit at hk'
    split at hk'
    · next h =>
      simp only [Finset.mem_filter, Finset.mem_univ, true_and]
      refine ⟨?_, hk'⟩
      show t.val + k.val - 2047 ≤ t.val
      omega
    · exact absurd hk' (by decide)
  · intro k hk k' hk' e
    have h1 := (Finset.mem_filter.1 hk).2
    have h2 := (Finset.mem_filter.1 hk').2
    unfold winBit at h1 h2
    split at h1
    · next g1 =>
      split at h2
      · next g2 =>
        have e' : t.val + k.val - 2047 = t.val + k'.val - 2047 := congrArg Fin.val e
        exact Fin.ext (by omega)
      · exact absurd h2 (by decide)
    · exact absurd h1 (by decide)
  · intro s hs
    have hs' := Finset.mem_filter.1 hs
    have hle : s.val ≤ t.val := hs'.2.1
    refine ⟨⟨2047 - t.val + s.val, by omega⟩, ?_, Fin.ext (by show t.val + (2047 - t.val + s.val) - 2047 = s.val; omega)⟩
    simp only [Finset.mem_filter, Finset.mem_univ, true_and]
    unfold winBit
    rw [dif_pos (by show 2047 ≤ t.val + (2047 - t.val + s.val); omega)]
    have : (⟨t.val + (2047 - t.val + s.val) - 2047, by omega⟩ : Fin 2048) = s := Fin.ext (by show t.val + (2047 - t.val + s.val) - 2047 = s.val; omega)
    rw [this]
    exact hs'.2.2

/-- A window position is determined by its coordinate along the step axis. -/
theorem W3_ext {i i' : W3.Idx} (h : i 1 = i' 1) : i = i' := by
  funext a
  match a with
  | ⟨0, _⟩ => exact Subsingleton.elim (α := Fin 1) _ _
  | ⟨1, _⟩ => exact h
  | ⟨2, _⟩ => exact Subsingleton.elim (α := Fin 1) _ _

/-- Counting over the window's positions in row-major order is counting over its step coordinates. -/
theorem card_window (q : Fin 2048 → BitVec 1) :
    (Finset.univ.filter fun n : Fin W3.numel => q (W3.rowMajor.symm n 1) = 1#1).card
      = (Finset.univ.filter fun k : Fin 2048 => q k = 1#1).card := by
  refine Finset.card_bij (fun n _ => (W3.rowMajor.symm n 1 : Fin 2048)) ?_ ?_ ?_
  · intro n hn
    exact Finset.mem_filter.2 ⟨Finset.mem_univ _, (Finset.mem_filter.1 hn).2⟩
  · intro n _ n' _ e
    exact W3.rowMajor.symm.injective (W3_ext e)
  · intro k hk
    simp only [Finset.mem_filter, Finset.mem_univ, true_and] at hk
    refine ⟨W3.rowMajor (ix3 (0 : Fin 1) k (0 : Fin 1)), ?_, ?_⟩
    · simp only [Finset.mem_filter, Finset.mem_univ, true_and, Equiv.symm_apply_apply]
      exact hk
    · simp only [Equiv.symm_apply_apply]

/-- The running count at step `t`: the window sum of the widened mask, from any scalar holding zero, is the word of
    the number of observed steps up to and including `t`. -/
theorem cumsum_apply (meas : IVec S32x2048x32 1) (hlt : 1 < 32) (init : S_.Idx → BitVec 32)
    (hinit : ∀ i, init i = 0#32)
    (hrw : S32x2048x32.ReduceWindows (![1, 2048, 1] : Fin 3 → Nat) ![1, 1, 1] ![0, 2047, 0] ![0, 0, 0] S32x2048x32)
    (hS : 0 < S_.numel) (b : Fin 32) (t : Fin 2048) (ch : Fin 32) :
    Host.reduceWindow IntOp.addi ![1, 2048, 1] ![1, 1, 1] ![0, 2047, 0] ![0, 0, 0] (extui 32 meas hlt) init hrw hS
        (ix3 b t ch) = BitVec.ofNat 32 (rank meas b t ch) := by
  unfold Host.reduceWindow
  dsimp only
  rw [foldl_finRange_eq_fold, hinit, ← card_winBit, ← card_window (winBit meas b t ch),
    ← IndicatorCount.fold_addi_setWidth_eq_card]
  refine Finset.fold_congr ?_
  intro n _
  have h0 : (W3.rowMajor.symm n 0).val = 0 := by
    have h : (W3.rowMajor.symm n 0).val < 1 := (W3.rowMajor.symm n 0).isLt
    omega
  have h2 : (W3.rowMajor.symm n 2).val = 0 := by
    have h : (W3.rowMajor.symm n 2).val < 1 := (W3.rowMajor.symm n 2).isLt
    omega
  have h1 : (W3.rowMajor.symm n 1).val < 2048 := (W3.rowMajor.symm n 1).isLt
  have hb : b.val < 32 := b.isLt
  have hch : ch.val < 32 := ch.isLt
  have ht : t.val < 2048 := t.isLt
  unfold winBit
  by_cases hc : 2047 ≤ t.val + (W3.rowMajor.symm n 1).val
  · rw [dif_pos hc, dif_pos ?_]
    · show (meas _).setWidth 32 = (meas _).setWidth 32
      congr 2
      funext a
      match a with
      | ⟨0, _⟩ =>
        apply Fin.ext
        show b.val * 1 + (W3.rowMajor.symm n 0).val - 0 = b.val
        omega
      | ⟨1, _⟩ =>
        apply Fin.ext
        show t.val * 1 + (W3.rowMajor.symm n 1).val - 2047 = t.val + (W3.rowMajor.symm n 1).val - 2047
        omega
      | ⟨2, _⟩ =>
        apply Fin.ext
        show ch.val * 1 + (W3.rowMajor.symm n 2).val - 0 = ch.val
        omega
    · intro a
      match a with
      | ⟨0, _⟩ =>
        show 0 ≤ b.val * 1 + (W3.rowMajor.symm n 0).val ∧ b.val * 1 + (W3.rowMajor.symm n 0).val - 0 < 32
        omega
      | ⟨1, _⟩ =>
        show 2047 ≤ t.val * 1 + (W3.rowMajor.symm n 1).val ∧ t.val * 1 + (W3.rowMajor.symm n 1).val - 2047 < 2048
        omega
      | ⟨2, _⟩ =>
        show 0 ≤ ch.val * 1 + (W3.rowMajor.symm n 2).val ∧ ch.val * 1 + (W3.rowMajor.symm n 2).val - 0 < 32
        omega
  · rw [dif_neg hc, dif_neg ?_]
    · exact (by decide : (0#32 : BitVec 32) = BitVec.setWidth 32 0#1)
    · intro hin
      have h := (hin 1).1
      have h' : 2047 ≤ t.val * 1 + (W3.rowMajor.symm n 1).val := h
      omega

/-- The running count as the kernel's and the reference's host code print its zero: a constant scalar broadcast to
    a scalar. -/
theorem cumsum_apply_printed (meas : IVec S32x2048x32 1) (hlt : 1 < 32)
    (hbc : S_.BroadcastsInDim S_ (![] : Fin 0 → Fin S_.rank))
    (hrw : S32x2048x32.ReduceWindows (![1, 2048, 1] : Fin 3 → Nat) ![1, 1, 1] ![0, 2047, 0] ![0, 0, 0] S32x2048x32)
    (hS : 0 < S_.numel) (b : Fin 32) (t : Fin 2048) (ch : Fin 32) :
    Host.reduceWindow IntOp.addi ![1, 2048, 1] ![1, 1, 1] ![0, 2047, 0] ![0, 0, 0] (extui 32 meas hlt)
        (broadcastInDim S_ ![] hbc (constantI S_ 32 0#32)) hrw hS (ix3 b t ch)
      = BitVec.ofNat 32 (rank meas b t ch) :=
  cumsum_apply meas hlt _ (fun _ => rfl) hrw hS b t ch

/-! ### The number of observed steps -/

/-- The source index over `(b, ch)` with step `k` inserted. -/
theorem lift_ix2 (h : S32x2048x32.Reduces [1] S32x32) (b : Fin 32) (ch : Fin 32) (k : Fin 2048) :
    h.lift (ix2 b ch) k = ix3 b k ch := by
  funext a
  match a with
  | ⟨0, _⟩ => exact Fin.ext rfl
  | ⟨1, _⟩ => exact Fin.ext rfl
  | ⟨2, _⟩ => exact Fin.ext rfl

/-- The sum of the widened mask over the step axis, from any scalar holding zero, is the word of the number of
    observed steps. -/
theorem count_apply (meas : IVec S32x2048x32 1) (hlt : 1 < 32) (init : S_.Idx → BitVec 32)
    (hinit : ∀ i, init i = 0#32) (hred : S32x2048x32.ReducesTo [1] S32x32) (hS : 0 < S_.numel)
    (b : Fin 32) (ch : Fin 32) :
    Host.reduce IntOp.addi (extui 32 meas hlt) init hred hS (ix2 b ch) = BitVec.ofNat 32 (total meas b ch) := by
  have h : S32x2048x32.Reduces [1] S32x32 := by decide
  rw [Host.reduce_eq_fold_single IntOp.addi _ _ hred h hS, hinit]
  have e : ((extui 32 meas hlt) ∘ h.lift (ix2 b ch)) = fun k : Fin 2048 => (meas (ix3 b k ch)).setWidth 32 := by
    funext k
    exact congrArg (fun i => (meas i).setWidth 32) (lift_ix2 h b ch k)
  rw [e]
  exact IndicatorCount.fold_addi_setWidth_eq_card (fun k : Fin 2048 => meas (ix3 b k ch)) Finset.univ

/-- The count as the kernel's host code prints its zero: a constant scalar. -/
theorem count_apply_printed (meas : IVec S32x2048x32 1) (hlt : 1 < 32) (hred : S32x2048x32.ReducesTo [1] S32x32)
    (hS : 0 < S_.numel) (b : Fin 32) (ch : Fin 32) :
    Host.reduce IntOp.addi (extui 32 meas hlt) (constantI S_ 32 0#32) hred hS (ix2 b ch)
      = BitVec.ofNat 32 (total meas b ch) :=
  count_apply meas hlt _ (fun _ => rfl) hred hS b ch

/-! ### Comparisons of the words -/

/-- One less than the word of `r` is the word of `p` exactly when `r = p + 1` (for `r = 0` the difference is the
    all-ones word, which is no slot number). -/
theorem ofNat_sub_one_eq_iff {r p : ℕ} (hr : r ≤ 2048) (hp : p < 2048) :
    BitVec.ofNat 32 r - 1#32 = BitVec.ofNat 32 p ↔ r = p + 1 := by
  constructor
  · intro h
    have h' := congrArg BitVec.toNat h
    simp only [BitVec.toNat_sub, BitVec.toNat_ofNat, BitVec.toNat_ofNat] at h'
    omega
  · rintro rfl
    apply BitVec.eq_of_toNat_eq
    simp only [BitVec.toNat_sub, BitVec.toNat_ofNat]
    omega

/-- The signed comparison of the words of two naturals below 2^31 is the comparison of the naturals. -/
theorem slt_ofNat_iff {a c : ℕ} (ha : a < 2 ^ 31) (hc : c < 2 ^ 31) :
    (BitVec.ofNat 32 a).slt (BitVec.ofNat 32 c) = true ↔ a < c := by
  rw [BitVec.slt, decide_eq_true_eq]
  have e1 : (BitVec.ofNat 32 a).toInt = (a : ℤ) := by
    rw [BitVec.toInt_eq_toNat_cond]; simp only [BitVec.toNat_ofNat]; split <;> omega
  have e2 : (BitVec.ofNat 32 c).toInt = (c : ℤ) := by
    rw [BitVec.toInt_eq_toNat_cond]; simp only [BitVec.toNat_ofNat]; split <;> omega
  rw [e1, e2]; omega

/-- The one-bit word of an equality test. -/
theorem ofBool_beq {w : ℕ} (x y : BitVec w) : BitVec.ofBool (x == y) = if x = y then 1#1 else 0#1 := by
  by_cases h : x = y
  · subst h; rw [if_pos rfl, beq_self_eq_true]; rfl
  · rw [if_neg h, beq_eq_false_iff_ne.2 h]; rfl

/-- The equality test of a slot number against the position `rank - 1`, as the one-bit word the programs compute. -/
theorem cmpi_eq_pos {r p : ℕ} (hr : r ≤ 2048) (hp : p < 2048) :
    IntOp.cmpi .eq (BitVec.ofNat 32 p) (IntOp.subi (BitVec.ofNat 32 r) 1#32) = if r = p + 1 then 1#1 else 0#1 := by
  show BitVec.ofBool (BitVec.ofNat 32 p == BitVec.ofNat 32 r - 1#32) = _
  rw [ofBool_beq]
  exact if_congr (eq_comm.trans (ofNat_sub_one_eq_iff hr hp)) rfl rfl

/-- The same test with the position on the left. -/
theorem cmpi_eq_pos' {r p : ℕ} (hr : r ≤ 2048) (hp : p < 2048) :
    IntOp.cmpi .eq (IntOp.subi (BitVec.ofNat 32 r) 1#32) (BitVec.ofNat 32 p) = if r = p + 1 then 1#1 else 0#1 := by
  show BitVec.ofBool (BitVec.ofNat 32 r - 1#32 == BitVec.ofNat 32 p) = _
  rw [ofBool_beq]
  exact if_congr (ofNat_sub_one_eq_iff hr hp) rfl rfl

/-- The signed test of a slot number against a count, as the one-bit word the programs compute. -/
theorem cmpi_slt_ofNat {a c : ℕ} (ha : a < 2 ^ 31) (hc : c < 2 ^ 31) :
    IntOp.cmpi .slt (BitVec.ofNat 32 a) (BitVec.ofNat 32 c) = if a < c then 1#1 else 0#1 := by
  show BitVec.ofBool ((BitVec.ofNat 32 a).slt (BitVec.ofNat 32 c)) = _
  by_cases h : a < c
  · rw [if_pos h, (slt_ofNat_iff ha hc).2 h]; rfl
  · rw [if_neg h]
    have : (BitVec.ofNat 32 a).slt (BitVec.ofNat 32 c) = false := by
      rw [← Bool.not_eq_true]; exact fun e => h ((slt_ofNat_iff ha hc).1 e)
    rw [this]; rfl

variable (meas : IVec S32x2048x32 1) (b : Fin 32) (ch : Fin 32)

/-- Under the mask, the position word equals the slot word exactly when the step lands in the slot. -/
theorem pos_eq_and_M_iff_hit (t p : Fin 2048) :
    (BitVec.ofNat 32 (rank meas b t ch) - 1#32 = BitVec.ofNat 32 p.val ∧ M meas b t ch) ↔ hit meas b t ch p := by
  rw [ofNat_sub_one_eq_iff (rank_le meas b ch t) p.isLt]
  exact ⟨fun h => ⟨h.2, h.1⟩, fun h => ⟨h.2, h.1⟩⟩

/-- The equality test of slot `p` against the position of step `t`. -/
theorem cmpi_eq_rank (t p : Fin 2048) :
    IntOp.cmpi .eq (BitVec.ofNat 32 p.val) (IntOp.subi (BitVec.ofNat 32 (rank meas b t ch)) 1#32)
      = if rank meas b t ch = p.val + 1 then 1#1 else 0#1 :=
  cmpi_eq_pos (rank_le meas b ch t) p.isLt

/-- The signed test of slot `p` against the number of observed steps. -/
theorem slt_total_iff (p : Fin 2048) :
    (BitVec.ofNat 32 p.val).slt (BitVec.ofNat 32 (total meas b ch)) = true ↔ p.val < total meas b ch :=
  slt_ofNat_iff (by have := p.isLt; omega) (by have := total_le meas b ch; omega)

theorem cmpi_slt_total (p : Fin 2048) :
    IntOp.cmpi .slt (BitVec.ofNat 32 p.val) (BitVec.ofNat 32 (total meas b ch))
      = if p.val < total meas b ch then 1#1 else 0#1 :=
  cmpi_slt_ofNat (by have := p.isLt; omega) (by have := total_le meas b ch; omega)

end Cert.Spec
-- ==== Proof.KI.PackValue.lean ====
/-
  The value of the packing kernel: what a grid point that writes back writes is its block of the packed result.

  A point of the grid is (channel, block of 512 slots, block of 256 times); the eight points of a group share channel and
  slot block and run through the time blocks in order. The accumulator (32 batch rows × 512 slots × 2 columns) is zeroed
  at the first time block and at each point gains, at (b, p, n), the sum over the block's times of the selector — the mask
  where the slot's number equals the time's position among the observed times, less one — times the time (n = 0) or the
  value (n = 1). By induction along the group, after time block k it holds the sum over the first 256 (k + 1) times; after
  the last, over all 2048. Where the position array is "rank less one" and the mask is "observed", the selector is the
  indicator of "observed with rank slot + 1", so the two accumulator columns are the packed time and the packed value; the
  output block lays them at features 0 and 41 and between them the channel's one-hot row on the slots below the count.
-/
import proofs.«146262_j33595234189952_2_alg».proof.Proof.KI.PackPieces
import proofs.«146262_j33595234189952_2_alg».proof.Proof.KI.PackPayload
import proofs.«146262_j33595234189952_2_alg».proof.Proof.Spec
import proofs.«146262_j33595234189952_2_alg».proof.Proof.Counting
import proofs.«146262_j33595234189952_2_alg».proof.Proof.CumSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The grid's coordinates and the windows' block indices, decided over the 1024 points -/

/-- Point `t` of the grid is (channel, block of slots, block of times) = (t / 32, t / 8 mod 4, t mod 8); the time
    windows' blocks follow the time block, the channel windows' the channel, the output's the channel and the slot block. -/
theorem idx_facts : ∀ t : Fin cfg0.N,
    (grid0.coords t 0).val = t.val / 32 ∧ (grid0.coords t 1).val = t.val / 8 % 4 ∧ (grid0.coords t 2).val = t.val % 8
    ∧ win0_0.index t (0 : Fin 2) = 0 ∧ win0_0.index t (1 : Fin 2) = t.val % 8
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = 0 ∧ win0_3.index t (2 : Fin 3) = t.val % 8
    ∧ win0_4.index t (0 : Fin 3) = t.val / 32 ∧ win0_4.index t (1 : Fin 3) = 0 ∧ win0_4.index t (2 : Fin 3) = 0
    ∧ win0_5.index t (0 : Fin 4) = t.val / 32 ∧ win0_5.index t (1 : Fin 4) = 0 ∧ win0_5.index t (2 : Fin 4) = t.val / 8 % 4
    ∧ win0_5.index t (3 : Fin 4) = 0 :=
  (by decide +kernel : ∀ t : Fin grid0.N, _)

section AtEntry
variable (V : (c : Dev nD) → (b : Ref sig .tc) → Buf (Elt Ideal) ((c : Thread nD τ).loc b))

/-! ## The arrays as the region finds them, and the windows' blocks, at their literal types -/

abbrev Vtimes (c : Dev nD) : S32x2048.Idx → EReal := V c main_arg1
abbrev Vvals (c : Dev nD) : S32x32x2048.Idx → EReal := V c main_v9
abbrev Vmask (c : Dev nD) : S32x32x2048.Idx → EReal := V c main_v7
abbrev Vpos (c : Dev nD) : S32x32x2048.Idx → BitVec 32 := V c main_v8
abbrev Vcnt (c : Dev nD) : S32x1x32.Idx → BitVec 32 := V c main_v11
abbrev blk0 (c : Dev nD) (t : Fin cfg0.N) : Vec Ideal S32x256 .f32 := iblk0 V c 0 t
abbrev blk1 (c : Dev nD) (t : Fin cfg0.N) : Vec Ideal S1x32x256 .f32 := iblk0 V c 1 t
abbrev blk2 (c : Dev nD) (t : Fin cfg0.N) : Vec Ideal S1x32x256 .f32 := iblk0 V c 2 t
abbrev blk3 (c : Dev nD) (t : Fin cfg0.N) : Vec Ideal S1x32x256 .i32 := iblk0 V c 3 t
abbrev blk4 (c : Dev nD) (t : Fin cfg0.N) : Vec Ideal S1x1x32 .i32 := iblk0 V c 4 t

/-! ## The input blocks read at an index -/

/-- The times' block at point `t` is columns `256 (t mod 8) …` of the times. -/
theorem iblk0_0_apply (c : Dev nD) (t : Fin cfg0.N) (b : Fin 32) (j : Fin 256) (s : Fin 2048)
    (hs : s.val = 256 * (t.val % 8) + j.val) :
    blk0 V c t (ix2 b j) = Vtimes V c (ix2 b s) := by
  obtain ⟨-, -, -, e0, e1, -⟩ := idx_facts t
  unfold blk0 iblk0
  rw [View.read_apply]
  show V c main_arg1 _ = V c main_arg1 _
  refine congrArg (V c main_arg1) ?_
  funext a
  apply Fin.ext
  match a with
  | ⟨0, _⟩ => show win0_0.index t (0 : Fin 2) * 32 + 1 * b.val = b.val; rw [e0]; omega
  | ⟨1, _⟩ => show win0_0.index t (1 : Fin 2) * 256 + 1 * j.val = s.val; rw [e1, hs]; omega

/-- The values' block at point `t` is channel `t / 32`, times `256 (t mod 8) …` of the transposed values. -/
theorem iblk0_1_apply (c : Dev nD) (t : Fin cfg0.N) (u : Fin 1) (b : Fin 32) (j : Fin 256) (ch : Fin 32) (s : Fin 2048)
    (hch : ch.val = t.val / 32) (hs : s.val = 256 * (t.val % 8) + j.val) :
    blk1 V c t (ix3 u b j) = Vvals V c (ix3 ch b s) := by
  obtain ⟨-, -, -, -, -, e0, e1, e2, -⟩ := idx_facts t
  have hu : u.val = 0 := by omega
  unfold blk1 iblk0
  rw [View.read_apply]
  show V c main_v9 _ = V c main_v9 _
  refine congrArg (V c main_v9) ?_
  funext a
  apply Fin.ext
  match a with
  | ⟨0, _⟩ => show win0_1.index t (0 : Fin 3) * 1 + 1 * u.val = ch.val; rw [e0, hch, hu]; omega
  | ⟨1, _⟩ => show win0_1.index t (1 : Fin 3) * 32 + 1 * b.val = b.val; rw [e1]; omega
  | ⟨2, _⟩ => show win0_1.index t (2 : Fin 3) * 256 + 1 * j.val = s.val; rw [e2, hs]; omega

/-- The mask's block likewise. -/
theorem iblk0_2_apply (c : Dev nD) (t : Fin cfg0.N) (u : Fin 1) (b : Fin 32) (j : Fin 256) (ch : Fin 32) (s : Fin 2048)
    (hch : ch.val = t.val / 32) (hs : s.val = 256 * (t.val % 8) + j.val) :
    blk2 V c t (ix3 u b j) = Vmask V c (ix3 ch b s) := by
  obtain ⟨-, -, -, -, -, -, -, -, e0, e1, e2, -⟩ := idx_facts t
  have hu : u.val = 0 := by omega
  unfold blk2 iblk0
  rw [View.read_apply]
  show V c main_v7 _ = V c main_v7 _
  refine congrArg (V c main_v7) ?_
  funext a
  apply Fin.ext
  match a with
  | ⟨0, _⟩ => show win0_2.index t (0 : Fin 3) * 1 + 1 * u.val = ch.val; rw [e0, hch, hu]; omega
  | ⟨1, _⟩ => show win0_2.index t (1 : Fin 3) * 32 + 1 * b.val = b.val; rw [e1]; omega
  | ⟨2, _⟩ => show win0_2.index t (2 : Fin 3) * 256 + 1 * j.val = s.val; rw [e2, hs]; omega

/-- The positions' block likewise. -/
theorem iblk0_3_apply (c : Dev nD) (t : Fin cfg0.N) (u : Fin 1) (b : Fin 32) (j : Fin 256) (ch : Fin 32) (s : Fin 2048)
    (hch : ch.val = t.val / 32) (hs : s.val = 256 * (t.val % 8) + j.val) :
    blk3 V c t (ix3 u b j) = Vpos V c (ix3 ch b s) := by
  obtain ⟨-, -, -, -, -, -, -, -, -, -, -, e0, e1, e2, -⟩ := idx_facts t
  have hu : u.val = 0 := by omega
  unfold blk3 iblk0
  rw [View.read_apply]
  show V c main_v8 _ = V c main_v8 _
  refine congrArg (V c main_v8) ?_
  funext a
  apply Fin.ext
  match a with
  | ⟨0, _⟩ => show win0_3.index t (0 : Fin 3) * 1 + 1 * u.val = ch.val; rw [e0, hch, hu]; omega
  | ⟨1, _⟩ => show win0_3.index t (1 : Fin 3) * 32 + 1 * b.val = b.val; rw [e1]; omega
  | ⟨2, _⟩ => show win0_3.index t (2 : Fin 3) * 256 + 1 * j.val = s.val; rw [e2, hs]; omega

/-- The counts' block at point `t` is channel `t / 32`'s row of the counts. -/
theorem iblk0_4_apply (c : Dev nD) (t : Fin cfg0.N) (u u' : Fin 1) (b : Fin 32) (ch : Fin 32)
    (hch : ch.val = t.val / 32) :
    blk4 V c t (ix3 u u' b) = Vcnt V c (ix3 ch (0 : Fin 1) b) := by
  obtain ⟨-, -, -, -, -, -, -, -, -, -, -, -, -, -, e0, e1, e2, -⟩ := idx_facts t
  have hu : u.val = 0 := by omega
  have hu' : u'.val = 0 := by omega
  unfold blk4 iblk0
  rw [View.read_apply]
  show V c main_v11 _ = V c main_v11 _
  refine congrArg (V c main_v11) ?_
  funext a
  apply Fin.ext
  match a with
  | ⟨0, _⟩ => show win0_4.index t (0 : Fin 3) * 1 + 1 * u.val = ch.val; rw [e0, hch, hu]; omega
  | ⟨1, _⟩ => show win0_4.index t (1 : Fin 3) * 1 + 1 * u'.val = 0; rw [e1, hu']
  | ⟨2, _⟩ => show win0_4.index t (2 : Fin 3) * 32 + 1 * b.val = b.val; rw [e2]; omega

/-! ## The accumulator after each point -/

/-- One time's contribution to the accumulator of channel `ch` at slot number `P`, batch row `b`, column `n`: the mask
    where the time's position is `P`, times the time (column 0) or the value (column 1); zero past the last time. -/
def term (c : Dev nD) (ch : Fin 32) (P : ℕ) (b : Fin 32) (n : Fin 2) (s : ℕ) : EReal :=
  if h : s < 2048 then
    (if BitVec.ofNat 32 P = Vpos V c (ix3 ch b ⟨s, h⟩) then Vmask V c (ix3 ch b ⟨s, h⟩) else 0) *
    (if n.val = 0 then Vtimes V c (ix2 b ⟨s, h⟩) else Vvals V c (ix3 ch b ⟨s, h⟩))
  else 0

/-- The sum the accumulation step adds at point `t` is the contributions of the 256 times of its block. -/
theorem step_sum (c : Dev nD) (t : Fin cfg0.N) (ch : Fin 32) (hch : ch.val = t.val / 32) (b : Fin 32) (p : Fin 512) (n : Fin 2) :
    (∑ j : Fin 256,
        (if BitVec.ofNat 32 ((grid0.coords t 1).val * 512 + p.val) = blk3 V c t (ix3 0 b j)
          then blk2 V c t (ix3 0 b j) else 0) *
        (if n.val = 0 then blk0 V c t (ix2 b j) else blk1 V c t (ix3 0 b j)))
      = ∑ j ∈ Finset.range 256, term V c ch (t.val / 8 % 4 * 512 + p.val) b n (256 * (t.val % 8) + j) := by
  obtain ⟨-, e1, -⟩ := idx_facts t
  rw [← Fin.sum_univ_eq_sum_range (fun j => term V c ch (t.val / 8 % 4 * 512 + p.val) b n (256 * (t.val % 8) + j)) 256]
  refine Finset.sum_congr rfl fun j _ => ?_
  have hlt : 256 * (t.val % 8) + j.val < 2048 := by have := j.isLt; omega
  unfold term
  rw [dif_pos hlt, e1,
    iblk0_3_apply V c t 0 b j ch ⟨_, hlt⟩ hch rfl, iblk0_2_apply V c t 0 b j ch ⟨_, hlt⟩ hch rfl,
    iblk0_0_apply V c t b j ⟨_, hlt⟩ rfl, iblk0_1_apply V c t 0 b j ch ⟨_, hlt⟩ hch rfl]

end AtEntry

section AtEntryAcc
variable (V : (c : Dev nD) → (b : Ref sig .tc) → Buf (Elt Ideal) ((c : Thread nD τ).loc b))

/-- At a first time block the accumulator holds the block's contributions. -/
theorem acc_first (c : Dev nD) (t : Fin cfg0.N) (h0 : t.val % 8 = 0) (ch : Fin 32) (hch : ch.val = t.val / 32)
    (b : Fin 32) (p : Fin 512) (n : Fin 2) :
    (outsAt0 V c t.val t.isLt).2 (ix3 b p n)
      = ∑ j ∈ Finset.range 256, term V c ch (t.val / 8 % 4 * 512 + p.val) b n (256 * (t.val % 8) + j) := by
  have h1 : ¬t.val % 8 = 7 := by omega
  rw [outsAt0_A V c t h0 h1]
  dsimp only
  rw [soutA_eq, pay3_apply_ofNat, pay2_apply, zero_add]
  exact step_sum V c t ch hch b p n

/-- At a later time block it holds what the point before left plus the block's contributions. -/
theorem acc_next (c : Dev nD) (t : Fin cfg0.N) (h0 : ¬t.val % 8 = 0) (ch : Fin 32) (hch : ch.val = t.val / 32)
    (b : Fin 32) (p : Fin 512) (n : Fin 2) :
    (outsAt0 V c t.val t.isLt).2 (ix3 b p n)
      = (outsAt0 V c (t.val - 1) (Nat.lt_of_le_of_lt (Nat.sub_le _ _) t.isLt)).2 (ix3 b p n)
        + ∑ j ∈ Finset.range 256, term V c ch (t.val / 8 % 4 * 512 + p.val) b n (256 * (t.val % 8) + j) := by
  by_cases h1 : t.val % 8 = 7
  · rw [outsAt0_C V c t h0 h1]
    dsimp only
    rw [soutC_eq, pay3_apply_ofNat]
    exact congrArg (_ + ·) (step_sum V c t ch hch b p n)
  · rw [outsAt0_B V c t h0 h1]
    dsimp only
    rw [soutB_eq, pay3_apply_ofNat]
    exact congrArg (_ + ·) (step_sum V c t ch hch b p n)

/-- So after the point at time block `k` of a group the accumulator holds the contributions of the first `256 (k + 1)` times. -/
theorem acc_eq (c : Dev nD) : ∀ (n : ℕ) (hn : n < cfg0.N) (ch : Fin 32) (hch : ch.val = n / 32) (b : Fin 32) (p : Fin 512) (nn : Fin 2),
    (outsAt0 V c n hn).2 (ix3 b p nn)
      = ∑ s ∈ Finset.range (256 * (n % 8 + 1)), term V c ch (n / 8 % 4 * 512 + p.val) b nn s := by
  intro n
  induction n using Nat.strong_induction_on with
  | _ n ih =>
    intro hn ch hch b p nn
    by_cases h0 : n % 8 = 0
    · have e : (outsAt0 V c n hn).2 (ix3 b p nn)
          = ∑ j ∈ Finset.range 256, term V c ch (n / 8 % 4 * 512 + p.val) b nn (256 * (n % 8) + j) :=
        acc_first V c ⟨n, hn⟩ h0 ch hch b p nn
      rw [e, h0]
      exact Finset.sum_congr rfl fun j _ => by rw [Nat.mul_zero, Nat.zero_add]
    · have e : (outsAt0 V c n hn).2 (ix3 b p nn)
          = (outsAt0 V c (n - 1) (Nat.lt_of_le_of_lt (Nat.sub_le _ _) hn)).2 (ix3 b p nn)
            + ∑ j ∈ Finset.range 256, term V c ch (n / 8 % 4 * 512 + p.val) b nn (256 * (n % 8) + j) :=
        acc_next V c ⟨n, hn⟩ h0 ch hch b p nn
      rw [e, ih (n - 1) (by omega) (Nat.lt_of_le_of_lt (Nat.sub_le _ _) hn) ch (by omega) b p nn,
        show (n - 1) / 8 % 4 = n / 8 % 4 by omega, show (n - 1) % 8 + 1 = n % 8 by omega,
        show 256 * (n % 8 + 1) = 256 * (n % 8) + 256 by omega, Finset.sum_range_add]

end AtEntryAcc

/-! ## Words and selectors -/

theorem ofNat_inj_small {a c : ℕ} (ha : a < 2 ^ 32) (hc : c < 2 ^ 32) :
    BitVec.ofNat 32 a = BitVec.ofNat 32 c ↔ a = c := by
  constructor
  · intro h
    have h' := congrArg BitVec.toNat h
    rw [BitVec.toNat_ofNat, BitVec.toNat_ofNat, Nat.mod_eq_of_lt ha, Nat.mod_eq_of_lt hc] at h'
    exact h'
  · rintro rfl; rfl

/-- The kernel's selector — the mask where the slot's number is the time's position — times a number is that number
    where the time is observed with rank the slot's number plus one, and zero elsewhere. -/
theorem selector_mul (meas : IVec Cert.Spec.S32x2048x32 1) (b ch : Fin 32) (tt P : Fin 2048) (x : EReal) :
    (if BitVec.ofNat 32 P.val = BitVec.ofNat 32 (Cert.Spec.rank meas b tt ch) - 1#32
        then (if Cert.Spec.M meas b tt ch then (1 : EReal) else 0) else 0) * x
      = if Cert.Spec.hit meas b tt ch P then x else 0 := by
  have key := Cert.Spec.pos_eq_and_M_iff_hit meas b ch tt P
  by_cases hh : Cert.Spec.hit meas b tt ch P
  · obtain ⟨e, hM⟩ := key.mpr hh
    rw [if_pos e.symm, if_pos hM, one_mul, if_pos hh]
  · rw [if_neg hh]
    by_cases e : BitVec.ofNat 32 P.val = BitVec.ofNat 32 (Cert.Spec.rank meas b tt ch) - 1#32
    · by_cases hM : Cert.Spec.M meas b tt ch
      · exact absurd (key.mp ⟨e.symm, hM⟩) hh
      · rw [if_pos e, if_neg hM, zero_mul]
    · rw [if_neg e, zero_mul]

section AtEntryFinal
variable (V : (c : Dev nD) → (b : Ref sig .tc) → Buf (Elt Ideal) ((c : Thread nD τ).loc b))

/-- What the last time block of a group stores: the output arrangement of the accumulator it leaves. -/
theorem out_last (c : Dev nD) (t : Fin cfg0.N) (h0 : ¬t.val % 8 = 0) (h7 : t.val % 8 = 7) :
    (outsAt0 V c t.val t.isLt).1
      = k0_pay1 (BitVec.ofNat 32 (grid0.coords t 0).val) (Scalar.muli (BitVec.ofNat 32 (grid0.coords t 1).val) 512#32)
          (iblk0 V c 4 t) (outsAt0 V c t.val t.isLt).2 := by
  rw [outsAt0_C V c t h0 h7]
  dsimp only
  rw [outC_5_eq, soutC_eq]

/-- After the last time block the accumulator holds the contributions of all 2048 times. -/
theorem acc_last (c : Dev nD) (t : Fin cfg0.N) (h7 : t.val % 8 = 7) (ch : Fin 32) (hch : ch.val = t.val / 32)
    (b : Fin 32) (p : Fin 512) (n : Fin 2) :
    (outsAt0 V c t.val t.isLt).2 (ix3 b p n)
      = ∑ tt : Fin 2048, term V c ch (t.val / 8 % 4 * 512 + p.val) b n tt.val := by
  rw [acc_eq V c t.val t.isLt ch hch b p n, h7]
  exact (Fin.sum_univ_eq_sum_range (fun s => term V c ch (t.val / 8 % 4 * 512 + p.val) b n s) 2048).symm

/-- **What a point that writes back writes**: its block of the packed result. -/
theorem flushed0_eq_typed (c : Dev nD) (demo : FVec Ideal Cert.Spec.S32x8 .f32) (times : FVec Ideal Cert.Spec.S32x2048 .f32)
    (values : FVec Ideal Cert.Spec.S32x2048x32 .f32) (meas : IVec Cert.Spec.S32x2048x32 1)
    (h1 : ∀ (b : Fin 32) (t : Fin 2048), Vtimes V c (ix2 b t) = times (ix2 b t))
    (h9 : ∀ (ch b : Fin 32) (t : Fin 2048), Vvals V c (ix3 ch b t) = values (ix3 b t ch))
    (h7 : ∀ (ch b : Fin 32) (t : Fin 2048), Vmask V c (ix3 ch b t) = if Cert.Spec.M meas b t ch then (1 : EReal) else 0)
    (h8 : ∀ (ch b : Fin 32) (t : Fin 2048), Vpos V c (ix3 ch b t) = BitVec.ofNat 32 (Cert.Spec.rank meas b t ch) - 1#32)
    (h11 : ∀ (ch b : Fin 32), Vcnt V c (ix3 ch (0 : Fin 1) b) = BitVec.ofNat 32 (Cert.Spec.total meas b ch))
    (t : Fin cfg0.N) (hf : (cfg0.win 5).flush t = true) :
    (dat0 V c).flushed 5 t = ((cfg0.win 5).blk t).view.read (Elt Ideal) (Cert.Spec.G demo times values meas) := by
  have h7m : t.val % 8 = 7 := (flush0_5 t).mp hf
  have h0 : ¬t.val % 8 = 0 := by omega
  have hN : t.val < 1024 := lt_of_lt_of_eq t.isLt (show cfg0.N = 1024 from N_0)
  obtain ⟨g0, g1, -, -, -, -, -, -, -, -, -, -, -, -, -, -, -, o0, o1, o2, o3⟩ := idx_facts t
  obtain ⟨ch, hch⟩ : ∃ ch : Fin 32, ch.val = t.val / 32 := ⟨⟨t.val / 32, by omega⟩, rfl⟩
  show (cfg0.win 5).cut (grid0.coords t) ((dat0 V c).after 5 t) = _
  rw [after0_5, out_last V c t h0 h7m]
  refine funext fun (y : S1x32x512x42.Idx) => ?_
  obtain ⟨u, b, p, f, rfl⟩ : ∃ (u : Fin 1) (b : Fin 32) (p : Fin 512) (f : Fin 42), y = ix4 u b p f :=
    ⟨y 0, y 1, y 2, y 3, eq_ix4 y⟩
  have hu : u = 0 := Fin.ext (by omega)
  subst hu
  have hp := p.isLt
  have hfl := f.isLt
  obtain ⟨P, hP⟩ : ∃ P : Fin 2048, P.val = t.val / 8 % 4 * 512 + p.val := ⟨⟨t.val / 8 % 4 * 512 + p.val, by omega⟩, rfl⟩
  have hch32 := ch.isLt
  have hemb : ((cfg0.win 5).blk t).view.emb (ix4 (0 : Fin 1) b p f)
      = ix4 (⟨ch.val, by omega⟩ : Fin 40) b P f := by
    funext a
    apply Fin.ext
    match a with
    | ⟨0, _⟩ => show win0_5.index t (0 : Fin 4) * 1 + 1 * 0 = ch.val; rw [o0, hch]; omega
    | ⟨1, _⟩ => show win0_5.index t (1 : Fin 4) * 32 + 1 * b.val = b.val; rw [o1]; omega
    | ⟨2, _⟩ => show win0_5.index t (2 : Fin 4) * 512 + 1 * p.val = P.val; rw [o2, hP]; omega
    | ⟨3, _⟩ => show win0_5.index t (3 : Fin 4) * 42 + 1 * f.val = f.val; rw [o3]; omega
  show k0_pay1 (F := Ideal) (BitVec.ofNat 32 (grid0.coords t 0).val)
      (Scalar.muli (BitVec.ofNat 32 (grid0.coords t 1).val) 512#32) (iblk0 V c 4 t) (outsAt0 V c t.val t.isLt).2
      (ix4 (0 : Fin 1) b p f)
    = Cert.Spec.G demo times values meas (((cfg0.win 5).blk t).view.emb (ix4 (0 : Fin 1) b p f))
  rw [hemb, pay1_apply]
  by_cases hf0 : f.val = 0
  · -- the packed time
    rw [if_pos hf0, acc_last V c t h7m ch hch b p 0, ← hP,
      Cert.Spec.G_apply_time demo times values meas ⟨ch.val, by omega⟩ ch.isLt b P f hf0]
    refine Finset.sum_congr rfl fun tt _ => ?_
    unfold term
    rw [dif_pos tt.isLt]
    show (if BitVec.ofNat 32 P.val = Vpos V c (ix3 ch b tt) then Vmask V c (ix3 ch b tt) else 0)
        * (if (0 : Fin 2).val = 0 then Vtimes V c (ix2 b tt) else Vvals V c (ix3 ch b tt)) = _
    rw [h8, h7, if_pos (show (0 : Fin 2).val = 0 from rfl), h1]
    exact selector_mul meas b ch tt P (times (ix2 b tt))
  · rw [if_neg hf0]
    by_cases hf41 : f.val = 41
    · -- the packed value
      rw [if_pos hf41, acc_last V c t h7m ch hch b p 1, ← hP,
        Cert.Spec.G_apply_value demo times values meas ⟨ch.val, by omega⟩ ch.isLt b P f hf41]
      refine Finset.sum_congr rfl fun tt _ => ?_
      unfold term
      rw [dif_pos tt.isLt]
      show (if BitVec.ofNat 32 P.val = Vpos V c (ix3 ch b tt) then Vmask V c (ix3 ch b tt) else 0)
          * (if (1 : Fin 2).val = 0 then Vtimes V c (ix2 b tt) else Vvals V c (ix3 ch b tt)) = _
      rw [h8, h7, if_neg (show ¬(1 : Fin 2).val = 0 by decide), h9]
      exact selector_mul meas b ch tt P (values (ix3 b tt ch))
    · -- the channel's one-hot row, on the slots below the count
      have e4 : blk4 V c t (ix3 (0 : Fin 1) (0 : Fin 1) b) = Vcnt V c (ix3 ch (0 : Fin 1) b) :=
        iblk0_4_apply V c t 0 0 b ch hch
      rw [if_neg hf41, muli_ofNat_add, g1, g0, ← hP, ← hch]
      show (if (BitVec.ofNat 32 P.val).slt (blk4 V c t (ix3 (0 : Fin 1) (0 : Fin 1) b)) then (1 : EReal) else 0)
          * (if BitVec.ofNat 32 (f.val - 1) = BitVec.ofNat 32 ch.val then (1 : EReal) else 0) = _
      rw [e4, h11, Cert.Spec.G_apply_onehot demo times values meas ⟨ch.val, by omega⟩ ch.isLt b P f (by omega) (by omega)]
      have hs := Cert.Spec.slt_total_iff meas b ch P
      have he := ofNat_inj_small (a := f.val - 1) (c := ch.val)
        (lt_of_lt_of_le (show f.val - 1 < 42 by omega) (by norm_num)) (lt_of_lt_of_le hch32 (by norm_num))
      by_cases hA : P.val < Cert.Spec.total meas b ch
      · by_cases hB : f.val - 1 = ch.val
        · rw [if_pos (hs.mpr hA), if_pos (he.mpr hB), one_mul]
          exact (if_pos ⟨hA, hB⟩).symm
        · rw [if_neg (fun h => hB (he.mp h)), mul_zero]
          exact (if_neg (fun h => hB h.2)).symm
      · rw [if_neg (fun h => hA (hs.mp h)), zero_mul]
        exact (if_neg (fun h => hA h.1)).symm

/-- The same with the hypotheses stated on the region's entry contents themselves. -/
theorem flushed0_eq (c : Dev nD) (demo : FVec Ideal Cert.Spec.S32x8 .f32) (times : FVec Ideal Cert.Spec.S32x2048 .f32)
    (values : FVec Ideal Cert.Spec.S32x2048x32 .f32) (meas : IVec Cert.Spec.S32x2048x32 1)
    (h1 : ∀ (b : Fin 32) (t : Fin 2048), V c main_arg1 (ix2 b t) = times (ix2 b t))
    (h9 : ∀ (ch : Fin 32) (b : Fin 32) (t : Fin 2048), V c main_v9 (ix3 ch b t) = values (ix3 b t ch))
    (h7 : ∀ (ch : Fin 32) (b : Fin 32) (t : Fin 2048), V c main_v7 (ix3 ch b t) = if Cert.Spec.M meas b t ch then (1 : EReal) else 0)
    (h8 : ∀ (ch : Fin 32) (b : Fin 32) (t : Fin 2048), V c main_v8 (ix3 ch b t) = BitVec.ofNat 32 (Cert.Spec.rank meas b t ch) - 1#32)
    (h11 : ∀ (ch : Fin 32) (b : Fin 32), V c main_v11 (ix3 ch (0 : Fin 1) b) = BitVec.ofNat 32 (Cert.Spec.total meas b ch))
    (t : Fin cfg0.N) (hf : (cfg0.win 5).flush t = true) :
    (dat0 V c).flushed 5 t = ((cfg0.win 5).blk t).view.read (Elt Ideal) (Cert.Spec.G demo times values meas) :=
  flushed0_eq_typed V c demo times values meas h1 h9 h7 h8 h11 t hf

end AtEntryFinal

end Cert.KernelIdeal.Hand

end
-- ==== Proof.KI.PackCover.lean ====
/-
  The packing region's windows over the grid 32 × 4 × 8 (channel, block of 512 slots, block of 256 time steps): where
  each window's block sits at a grid point, as arithmetic of the point's number; membership in a block of the result;
  and the cover — every index of the result on a channel below 32 is in the block some writing point writes back.
-/
import proofs.«146262_j33595234189952_2_alg».proof.Proof.KI.PackFrame
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem

/-! ## The index maps over the grid -/

/-- Point t is (channel t / 32, slot block (t / 8) % 4, time block t % 8). -/
theorem coords0_facts : ∀ t : Fin cfg0.N, ((grid0.coords t) 0).val = t.val / 32 ∧ ((grid0.coords t) 1).val = (t.val / 8) % 4
    ∧ ((grid0.coords t) 2).val = t.val % 8 ∧ t.val < 1024 :=
  (by decide +kernel : ∀ t : Fin grid0.N, _)

/-- The times' block: all 32 rows, time block t % 8. -/
theorem idx0_0 : ∀ t : Fin cfg0.N, win0_0.index t (0 : Fin 2) = 0 ∧ win0_0.index t (1 : Fin 2) = t.val % 8 :=
  (by decide +kernel : ∀ t : Fin grid0.N, _)

/-- The values' block: channel t / 32, all rows, time block t % 8. -/
theorem idx0_1 : ∀ t : Fin cfg0.N, win0_1.index t (0 : Fin 3) = t.val / 32 ∧ win0_1.index t (1 : Fin 3) = 0
    ∧ win0_1.index t (2 : Fin 3) = t.val % 8 :=
  (by decide +kernel : ∀ t : Fin grid0.N, _)

/-- The mask's block: the same. -/
theorem idx0_2 : ∀ t : Fin cfg0.N, win0_2.index t (0 : Fin 3) = t.val / 32 ∧ win0_2.index t (1 : Fin 3) = 0
    ∧ win0_2.index t (2 : Fin 3) = t.val % 8 :=
  (by decide +kernel : ∀ t : Fin grid0.N, _)

/-- The positions' block: the same. -/
theorem idx0_3 : ∀ t : Fin cfg0.N, win0_3.index t (0 : Fin 3) = t.val / 32 ∧ win0_3.index t (1 : Fin 3) = 0
    ∧ win0_3.index t (2 : Fin 3) = t.val % 8 :=
  (by decide +kernel : ∀ t : Fin grid0.N, _)

/-- The counts' block: channel t / 32. -/
theorem idx0_4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- The result's block: channel t / 32, all rows, slot block (t / 8) % 4, all columns. -/
theorem idx0_5 : ∀ t : Fin cfg0.N, win0_5.index t (0 : Fin 4) = t.val / 32 ∧ win0_5.index t (1 : Fin 4) = 0
    ∧ win0_5.index t (2 : Fin 4) = (t.val / 8) % 4 ∧ win0_5.index t (3 : Fin 4) = 0 :=
  (by decide +kernel : ∀ t : Fin grid0.N, _)

/-- All of them at a point. -/
theorem idx_facts0 (t : Fin cfg0.N) :
    win0_0.index t (0 : Fin 2) = 0 ∧ win0_0.index t (1 : Fin 2) = t.val % 8
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = 0 ∧ win0_3.index t (2 : Fin 3) = t.val % 8
    ∧ win0_4.index t (0 : Fin 3) = t.val / 32 ∧ win0_4.index t (1 : Fin 3) = 0 ∧ win0_4.index t (2 : Fin 3) = 0
    ∧ win0_5.index t (0 : Fin 4) = t.val / 32 ∧ win0_5.index t (1 : Fin 4) = 0
    ∧ win0_5.index t (2 : Fin 4) = (t.val / 8) % 4 ∧ win0_5.index t (3 : Fin 4) = 0
    ∧ ((grid0.coords t) 0).val = t.val / 32 ∧ ((grid0.coords t) 1).val = (t.val / 8) % 4
    ∧ ((grid0.coords t) 2).val = t.val % 8 ∧ t.val < 1024 := by
  obtain ⟨a0, a1⟩ := idx0_0 t
  obtain ⟨b0, b1, b2⟩ := idx0_1 t
  obtain ⟨c0, c1, c2⟩ := idx0_2 t
  obtain ⟨d0, d1, d2⟩ := idx0_3 t
  obtain ⟨e0, e1, e2⟩ := idx0_4 t
  obtain ⟨f0, f1, f2, f3⟩ := idx0_5 t
  obtain ⟨g0, g1, g2, g3⟩ := coords0_facts t
  exact ⟨a0, a1, b0, b1, b2, c0, c1, c2, d0, d1, d2, e0, e1, e2, f0, f1, f2, f3, g0, g1, g2, g3⟩

/-! ## The result's blocks -/

/-- An index of the result is in point t's block iff each coordinate is in the block's range on its axis. -/
theorem mem_blk0 (t : Fin cfg0.N) (i : S40x32x2048x42.Idx) :
    i ∈ ((cfg0.win 5).blk t).view.set ↔ ∀ a : Fin 4, win0_5.index t a * S1x32x512x42.size a ≤ (i a).val
      ∧ (i a).val < win0_5.index t a * S1x32x512x42.size a + S1x32x512x42.size a := by
  show i ∈ ((View.whole main_v12).slice (win0_5.rect t)).set ↔ _
  rw [View.set_slice_whole, Rect.mem_set_unit]
  exact Iff.rfl

/-- Every index on a channel below 32 is in the block a writing point writes back: the last time block of its channel
    and slot block. -/
theorem covered0_of_lt (i : S40x32x2048x42.Idx) (h : (i 0).val < 32) :
    ∃ t : Fin cfg0.N, (cfg0.win 5).flush t = true ∧ i ∈ ((cfg0.win 5).blk t).view.set := by
  have hi1 : (i 1).val < 32 := (i 1).isLt
  have hi2 : (i 2).val < 2048 := (i 2).isLt
  have hi3 : (i 3).val < 42 := (i 3).isLt
  have hN : (i 0).val * 32 + (i 2).val / 512 * 8 + 7 < cfg0.N := by
    show (i 0).val * 32 + (i 2).val / 512 * 8 + 7 < grid0.N; rw [N_0]; omega
  obtain ⟨f0, f1, f2, f3⟩ := idx0_5 ⟨(i 0).val * 32 + (i 2).val / 512 * 8 + 7, hN⟩
  have f0' : win0_5.index ⟨(i 0).val * 32 + (i 2).val / 512 * 8 + 7, hN⟩ (0 : Fin 4) = ((i 0).val * 32 + (i 2).val / 512 * 8 + 7) / 32 := f0
  have f2' : win0_5.index ⟨(i 0).val * 32 + (i 2).val / 512 * 8 + 7, hN⟩ (2 : Fin 4) = (((i 0).val * 32 + (i 2).val / 512 * 8 + 7) / 8) % 4 := f2
  refine ⟨⟨(i 0).val * 32 + (i 2).val / 512 * 8 + 7, hN⟩, (flush0_5 _).mpr (by show ((i 0).val * 32 + (i 2).val / 512 * 8 + 7) % 8 = 7; omega), ?_⟩
  rw [mem_blk0]
  intro a
  match a with
  | ⟨0, _⟩ =>
    show win0_5.index ⟨(i 0).val * 32 + (i 2).val / 512 * 8 + 7, hN⟩ (0 : Fin 4) * 1 ≤ (i 0).val
      ∧ (i 0).val < win0_5.index ⟨(i 0).val * 32 + (i 2).val / 512 * 8 + 7, hN⟩ (0 : Fin 4) * 1 + 1
    omega
  | ⟨1, _⟩ =>
    show win0_5.index ⟨(i 0).val * 32 + (i 2).val / 512 * 8 + 7, hN⟩ (1 : Fin 4) * 32 ≤ (i 1).val
      ∧ (i 1).val < win0_5.index ⟨(i 0).val * 32 + (i 2).val / 512 * 8 + 7, hN⟩ (1 : Fin 4) * 32 + 32
    omega
  | ⟨2, _⟩ =>
    show win0_5.index ⟨(i 0).val * 32 + (i 2).val / 512 * 8 + 7, hN⟩ (2 : Fin 4) * 512 ≤ (i 2).val
      ∧ (i 2).val < win0_5.index ⟨(i 0).val * 32 + (i 2).val / 512 * 8 + 7, hN⟩ (2 : Fin 4) * 512 + 512
    omega
  | ⟨3, _⟩ =>
    show win0_5.index ⟨(i 0).val * 32 + (i 2).val / 512 * 8 + 7, hN⟩ (3 : Fin 4) * 42 ≤ (i 3).val
      ∧ (i 3).val < win0_5.index ⟨(i 0).val * 32 + (i 2).val / 512 * 8 + 7, hN⟩ (3 : Fin 4) * 42 + 42
    omega

end Cert.KernelIdeal.Hand

end
-- ==== Proof.KI.KernelValue.lean ====
/-
  The kernel program's result as a function of its arguments: after both regions the result array holds the
  specification. Channels 32 to 39 are the demo kernel's blocks (the demo row at packed position 0, zeros elsewhere);
  channels 0 to 31 are what the demo region found in its aliased result buffer, a copy of the packing kernel's result,
  whose blocks are the packed observations.
-/
import proofs.«146262_j33595234189952_2_alg».proof.Proof.KI.HostGlue
import proofs.«146262_j33595234189952_2_alg».proof.Proof.KI.HostRead
import proofs.«146262_j33595234189952_2_alg».proof.Proof.KI.DemoValue
import proofs.«146262_j33595234189952_2_alg».proof.Proof.KI.PackValue
import proofs.«146262_j33595234189952_2_alg».proof.Proof.KI.PackCover
import proofs.«146262_j33595234189952_2_alg».proof.Proof.CumSum

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx (ix2 ix3 ix4)
open Idealize.ShloMosaic.Pipeline (Dat)

variable (m : (ℓ : Loc nD τ sig) → Buf (Elt Ideal) ℓ) (ρ : Dev nD → PrngReg) (c : Dev nD)

theorem gCum_apply (a3 : IVec S32x2048x32 1) (b : Fin 32) (t : Fin 2048) (ch : Fin 32) :
    gCum a3 (ix3 b t ch) = BitVec.ofNat 32 (Cert.Spec.rank a3 b t ch) := Cert.Spec.cumsum_apply_printed a3 _ _ _ _ b t ch
theorem gCount_apply (a3 : IVec S32x2048x32 1) (b : Fin 32) (ch : Fin 32) :
    gCount a3 (ix2 b ch) = BitVec.ofNat 32 (Cert.Spec.total a3 b ch) := Cert.Spec.count_apply_printed a3 _ _ _ b ch

/-- What the packing region writes back at a flushing point is its block of the specification. -/
theorem flushed0_spec (t : Fin cfg0.N) (hf : (cfg0.win 5).flush t = true) :
    (dat0 (Vt3 m ρ) c).flushed 5 t = ((cfg0.win 5).blk t).view.read (Elt Ideal)
      (Cert.Spec.G (m ((c : Thread nD τ).loc main_arg0)) (m ((c : Thread nD τ).loc main_arg1)) (m ((c : Thread nD τ).loc main_arg2)) (m ((c : Thread nD τ).loc main_arg3))) :=
  flushed0_eq (Vt3 m ρ) c (m ((c : Thread nD τ).loc main_arg0)) (m ((c : Thread nD τ).loc main_arg1)) (m ((c : Thread nD τ).loc main_arg2)) (m ((c : Thread nD τ).loc main_arg3))
    (fun b t => by rw [Vt3_arg1])
    (fun ch b t => by rw [Vt3_v9]; exact gV9_apply _ ch b t)
    (fun ch b t => by rw [Vt3_v7]; exact gV7_apply _ ch b t)
    (fun ch b t => by rw [Vt3_v8]; exact gV8_apply_of _ (fun b t ch => gCum_apply _ b t ch) ch b t)
    (fun ch b => by rw [Vt3_v11]; exact gV11_apply_of _ (fun b ch => gCount_apply _ b ch) ch b)
    t hf

/-- The result array after the whole program is the specification of the argument arrays. -/
theorem kernel_value :
    (dat1 (Vt5 m ρ) c).arrAt 1 cfg1.N
      = Cert.Spec.G (m ((c : Thread nD τ).loc main_arg0)) (m ((c : Thread nD τ).loc main_arg1)) (m ((c : Thread nD τ).loc main_arg2)) (m ((c : Thread nD τ).loc main_arg3)) := by
  funext i
  rw [final1 (Vt5 m ρ) c i]
  split
  · rename_i h
    exact demoArr_eq_G _ _ _ _ (Vt5 m ρ c main_v14) (fun dd b => by rw [Vt5_v14]; exact gV14_apply _ dd b) i h
  · rename_i h
    rw [Vt5_v15]
    rw [(dat0 (Vt3 m ρ) c).arrAt_eq_piecewise 5 _ (fun t hf => flushed0_spec m ρ c t hf) i]
    exact if_pos (covered0_of_lt i (by omega))

end Cert.KernelIdeal.Hand

end
-- ==== Proof.RefOps.lean ====
/- The reference program's @main as the list of its 103 host operations, in order (the three
   module-local functions inlined at their calls). -/
import proofs.«146262_j33595234189952_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 103 operations, in order: its own ninety-seven and, at their call sites, the cumulative
    sum's three (the zero, its broadcast, the windowed sum) and the select's three (the fill value
    converted, broadcast, the select). -/
abbrev ops : List (HloOp τ sig (Elt F)) :=
  [ unary main_arg3 main_v0 (uitofp .f32 : (⟨S32x2048x32, .i1⟩ : BufTy).Contents (Elt F) → (⟨S32x2048x32, .f32⟩ : BufTy).Contents (Elt F)),
    unary main_arg3 main_v1 ((extui 32 · natLt_1_32) : (⟨S32x2048x32, .i1⟩ : BufTy).Contents (Elt F) → (⟨S32x2048x32, .i32⟩ : BufTy).Contents (Elt F)),
    nullary main_call0_call0_c (constantI S_ 32 0#32),
    unary main_call0_call0_c main_call0_call0_v0 (broadcastInDim S_ ![] bcast_S_S_ : (⟨S_, .i32⟩ : BufTy).Contents (Elt F) → (⟨S_, .i32⟩ : BufTy).Contents (Elt F)),
    binary main_v1 main_call0_call0_v0 main_v2 ((fun x v => Host.reduceWindow IntOp.addi ![1, 2048, 1] ![1, 1, 1] ![0, 2047, 0] ![0, 0, 0] x v reduceWindows_S32x2048x32_S32x2048x32_w1s1p0_0_w2048s1p2047_0_w1s1p0_0 h_S_) : (⟨S32x2048x32, .i32⟩ : BufTy).Contents (Elt F) → (⟨S_, .i32⟩ : BufTy).Contents (Elt F) → (⟨S32x2048x32, .i32⟩ : BufTy).Contents (Elt F)),
    nullary main_c (constantI S_ 32 1#32),
    unary main_c main_v3 (broadcastInDim S32x2048x32 ![] bcast_S_S32x2048x32 : (⟨S_, .i32⟩ : BufTy).Contents (Elt F) → (⟨S32x2048x32, .i32⟩ : BufTy).Contents (Elt F)),
    binary main_v2 main_v3 main_v4 (subi : (⟨S32x2048x32, .i32⟩ : BufTy).Contents (Elt F) → (⟨S32x2048x32, .i32⟩ : BufTy).Contents (Elt F) → (⟨S32x2048x32, .i32⟩ : BufTy).Contents (Elt F)),
    nullary main_c_0 (constantI S_ 32 2048#32),
    unary main_c_0 main_call1_v0 (id : (⟨S_, .i32⟩ : BufTy).Contents (Elt F) → (⟨S_, .i32⟩ : BufTy).Contents (Elt F)),
    unary main_call1_v0 main_call1_v1 (broadcastInDim S32x2048x32 ![] bcast_S_S32x2048x32 : (⟨S_, .i32⟩ : BufTy).Contents (Elt F) → (⟨S32x2048x32, .i32⟩ : BufTy).Contents (Elt F)),
    ternary main_arg3 main_v4 main_call1_v1 main_v5 (select : (⟨S32x2048x32, .i1⟩ : BufTy).Contents (Elt F) → (⟨S32x2048x32, .i32⟩ : BufTy).Contents (Elt F) → (⟨S32x2048x32, .i32⟩ : BufTy).Contents (Elt F) → (⟨S32x2048x32, .i32⟩ : BufTy).Contents (Elt F)),
    nullary main_v6 (iotaInDim S40x40 32 0),
    nullary main_v7 (iotaInDim S40x40 32 1),
    nullary main_c_1 (constantI S_ 32 0#32),
    unary main_c_1 main_v8 (broadcastInDim S40x40 ![] bcast_S_S40x40 : (⟨S_, .i32⟩ : BufTy).Contents (Elt F) → (⟨S40x40, .i32⟩ : BufTy).Contents (Elt F)),
    binary main_v6 main_v8 main_v9 (addi : (⟨S40x40, .i32⟩ : BufTy).Contents (Elt F) → (⟨S40x40, .i32⟩ : BufTy).Contents (Elt F) → (⟨S40x40, .i32⟩ : BufTy).Contents (Elt F)),
    binary main_v9 main_v7 main_v10 (cmpi .eq : (⟨S40x40, .i32⟩ : BufTy).Contents (Elt F) → (⟨S40x40, .i32⟩ : BufTy).Contents (Elt F) → (⟨S40x40, .i1⟩ : BufTy).Contents (Elt F)),
    unary main_v10 main_v11 (uitofp .f32 : (⟨S40x40, .i1⟩ : BufTy).Contents (Elt F) → (⟨S40x40, .f32⟩ : BufTy).Contents (Elt F)),
    unary main_v11 main_v12 ((extractStridedSlice S32x40 ![0, 0] · slices_S40x40_S32x40_0_0) : (⟨S40x40, .f32⟩ : BufTy).Contents (Elt F) → (⟨S32x40, .f32⟩ : BufTy).Contents (Elt F)),
    unary main_arg1 main_v13 (broadcastInDim S32x2048x1 ![0, 1] bcast_S32x2048_S32x2048x1_0_1 : (⟨S32x2048, .f32⟩ : BufTy).Contents (Elt F) → (⟨S32x2048x1, .f32⟩ : BufTy).Contents (Elt F)),
    unary main_v13 main_v14 (broadcastInDim S32x2048x32 ![0, 1, 2] bcast_S32x2048x1_S32x2048x32_0_1_2 : (⟨S32x2048x1, .f32⟩ : BufTy).Contents (Elt F) → (⟨S32x2048x32, .f32⟩ : BufTy).Contents (Elt F)),
    binary main_v14 main_v0 main_v15 (mulf : (⟨S32x2048x32, .f32⟩ : BufTy).Contents (Elt F) → (⟨S32x2048x32, .f32⟩ : BufTy).Contents (Elt F) → (⟨S32x2048x32, .f32⟩ : BufTy).Contents (Elt F)),
    unary main_v15 main_v16 (broadcastInDim S32x2048x32x1 ![0, 1, 2] bcast_S32x2048x32_S32x2048x32x1_0_1_2 : (⟨S32x2048x32, .f32⟩ : BufTy).Contents (Elt F) → (⟨S32x2048x32x1, .f32⟩ : BufTy).Contents (Elt F)),
    unary main_v0 main_v17 (broadcastInDim S32x2048x32x1 ![0, 1, 2] bcast_S32x2048x32_S32x2048x32x1_0_1_2 : (⟨S32x2048x32, .f32⟩ : BufTy).Contents (Elt F) → (⟨S32x2048x32x1, .f32⟩ : BufTy).Contents (Elt F)),
    unary main_v12 main_v18 (broadcastInDim S1x1x32x40 ![2, 3] bcast_S32x40_S1x1x32x40_2_3 : (⟨S32x40, .f32⟩ : BufTy).Contents (Elt F) → (⟨S1x1x32x40, .f32⟩ : BufTy).Contents (Elt F)),
    unary main_v17 main_v19 (broadcastInDim S32x2048x32x40 ![0, 1, 2, 3] bcast_S32x2048x32x1_S32x2048x32x40_0_1_2_3 : (⟨S32x2048x32x1, .f32⟩ : BufTy).Contents (Elt F) → (⟨S32x2048x32x40, .f32⟩ : BufTy).Contents (Elt F)),
    unary main_v18 main_v20 (broadcastInDim S32x2048x32x40 ![0, 1, 2, 3] bcast_S1x1x32x40_S32x2048x32x40_0_1_2_3 : (⟨S1x1x32x40, .f32⟩ : BufTy).Contents (Elt F) → (⟨S32x2048x32x40, .f32⟩ : BufTy).Contents (Elt F)),
    binary main_v19 main_v20 main_v21 (mulf : (⟨S32x2048x32x40, .f32⟩ : BufTy).Contents (Elt F) → (⟨S32x2048x32x40, .f32⟩ : BufTy).Contents (Elt F) → (⟨S32x2048x32x40, .f32⟩ : BufTy).Contents (Elt F)),
    binary main_arg2 main_v0 main_v22 (mulf : (⟨S32x2048x32, .f32⟩ : BufTy).Contents (Elt F) → (⟨S32x2048x32, .f32⟩ : BufTy).Contents (Elt F) → (⟨S32x2048x32, .f32⟩ : BufTy).Contents (Elt F)),
    unary main_v22 main_v23 (broadcastInDim S32x2048x32x1 ![0, 1, 2] bcast_S32x2048x32_S32x2048x32x1_0_1_2 : (⟨S32x2048x32, .f32⟩ : BufTy).Contents (Elt F) → (⟨S32x2048x32x1, .f32⟩ : BufTy).Contents (Elt F)),
    nary ![main_v16, main_v21, main_v23] main_v24 (fun u => concatenate S32x2048x32x42 3 [⟨S32x2048x32x1, u 0⟩, ⟨S32x2048x32x40, u 1⟩, ⟨S32x2048x32x1, u 2⟩] concatenates_S32x2048x32x1_S32x2048x32x40_S32x2048x32x1_S32x2048x32x42_d3),
    nullary main_v25 (iotaInDim S32 32 0),
    unary main_v25 main_v26 (broadcastInDim S1x1x32 ![2] bcast_S32_S1x1x32_2 : (⟨S32, .i32⟩ : BufTy).Contents (Elt F) → (⟨S1x1x32, .i32⟩ : BufTy).Contents (Elt F)),
    unary main_v26 main_v27 (broadcastInDim S32x2048x32 ![0, 1, 2] bcast_S1x1x32_S32x2048x32_0_1_2 : (⟨S1x1x32, .i32⟩ : BufTy).Contents (Elt F) → (⟨S32x2048x32, .i32⟩ : BufTy).Contents (Elt F)),
    nullary main_v28 (iotaInDim S32 32 0),
    unary main_v28 main_v29 (broadcastInDim S32x1x1 ![0] bcast_S32_S32x1x1_0 : (⟨S32, .i32⟩ : BufTy).Contents (Elt F) → (⟨S32x1x1, .i32⟩ : BufTy).Contents (Elt F)),
    unary main_v29 main_v30 (broadcastInDim S32x2048x32 ![0, 1, 2] bcast_S32x1x1_S32x2048x32_0_1_2 : (⟨S32x1x1, .i32⟩ : BufTy).Contents (Elt F) → (⟨S32x2048x32, .i32⟩ : BufTy).Contents (Elt F)),
    nullary main_cst (constant S_ .f32 0x00000000#32),
    unary main_cst main_v31 (broadcastInDim S32x32x2049x42 ![] bcast_S_S32x32x2049x42 : (⟨S_, .f32⟩ : BufTy).Contents (Elt F) → (⟨S32x32x2049x42, .f32⟩ : BufTy).Contents (Elt F)),
    nullary main_c_2 (constantI S_ 32 0#32),
    unary main_c_2 main_v32 (broadcastInDim S32x2048x32 ![] bcast_S_S32x2048x32 : (⟨S_, .i32⟩ : BufTy).Contents (Elt F) → (⟨S32x2048x32, .i32⟩ : BufTy).Contents (Elt F)),
    binary main_v27 main_v32 main_v33 (cmpi .slt : (⟨S32x2048x32, .i32⟩ : BufTy).Contents (Elt F) → (⟨S32x2048x32, .i32⟩ : BufTy).Contents (Elt F) → (⟨S32x2048x32, .i1⟩ : BufTy).Contents (Elt F)),
    nullary main_c_3 (constantI S_ 32 32#32),
    unary main_c_3 main_v34 (broadcastInDim S32x2048x32 ![] bcast_S_S32x2048x32 : (⟨S_, .i32⟩ : BufTy).Contents (Elt F) → (⟨S32x2048x32, .i32⟩ : BufTy).Contents (Elt F)),
    binary main_v27 main_v34 main_v35 (addi : (⟨S32x2048x32, .i32⟩ : BufTy).Contents (Elt F) → (⟨S32x2048x32, .i32⟩ : BufTy).Contents (Elt F) → (⟨S32x2048x32, .i32⟩ : BufTy).Contents (Elt F)),
    ternary main_v33 main_v35 main_v27 main_v36 (select : (⟨S32x2048x32, .i1⟩ : BufTy).Contents (Elt F) → (⟨S32x2048x32, .i32⟩ : BufTy).Contents (Elt F) → (⟨S32x2048x32, .i32⟩ : BufTy).Contents (Elt F) → (⟨S32x2048x32, .i32⟩ : BufTy).Contents (Elt F)),
    nullary main_c_4 (constantI S_ 32 0#32),
    unary main_c_4 main_v37 (broadcastInDim S32x2048x32 ![] bcast_S_S32x2048x32 : (⟨S_, .i32⟩ : BufTy).Contents (Elt F) → (⟨S32x2048x32, .i32⟩ : BufTy).Contents (Elt F)),
    binary main_v30 main_v37 main_v38 (cmpi .slt : (⟨S32x2048x32, .i32⟩ : BufTy).Contents (Elt F) → (⟨S32x2048x32, .i32⟩ : BufTy).Contents (Elt F) → (⟨S32x2048x32, .i1⟩ : BufTy).Contents (Elt F)),
    nullary main_c_5 (constantI S_ 32 32#32),
    unary main_c_5 main_v39 (broadcastInDim S32x2048x32 ![] bcast_S_S32x2048x32 : (⟨S_, .i32⟩ : BufTy).Contents (Elt F) → (⟨S32x2048x32, .i32⟩ : BufTy).Contents (Elt F)),
    binary main_v30 main_v39 main_v40 (addi : (⟨S32x2048x32, .i32⟩ : BufTy).Contents (Elt F) → (⟨S32x2048x32, .i32⟩ : BufTy).Contents (Elt F) → (⟨S32x2048x32, .i32⟩ : BufTy).Contents (Elt F)),
    ternary main_v38 main_v40 main_v30 main_v41 (select : (⟨S32x2048x32, .i1⟩ : BufTy).Contents (Elt F) → (⟨S32x2048x32, .i32⟩ : BufTy).Contents (Elt F) → (⟨S32x2048x32, .i32⟩ : BufTy).Contents (Elt F) → (⟨S32x2048x32, .i32⟩ : BufTy).Contents (Elt F)),
    nullary main_c_6 (constantI S_ 32 0#32),
    unary main_c_6 main_v42 (broadcastInDim S32x2048x32 ![] bcast_S_S32x2048x32 : (⟨S_, .i32⟩ : BufTy).Contents (Elt F) → (⟨S32x2048x32, .i32⟩ : BufTy).Contents (Elt F)),
    binary main_v5 main_v42 main_v43 (cmpi .slt : (⟨S32x2048x32, .i32⟩ : BufTy).Contents (Elt F) → (⟨S32x2048x32, .i32⟩ : BufTy).Contents (Elt F) → (⟨S32x2048x32, .i1⟩ : BufTy).Contents (Elt F)),
    nullary main_c_7 (constantI S_ 32 2049#32),
    unary main_c_7 main_v44 (broadcastInDim S32x2048x32 ![] bcast_S_S32x2048x32 : (⟨S_, .i32⟩ : BufTy).Contents (Elt F) → (⟨S32x2048x32, .i32⟩ : BufTy).Contents (Elt F)),
    binary main_v5 main_v44 main_v45 (addi : (⟨S32x2048x32, .i32⟩ : BufTy).Contents (Elt F) → (⟨S32x2048x32, .i32⟩ : BufTy).Contents (Elt F) → (⟨S32x2048x32, .i32⟩ : BufTy).Contents (Elt F)),
    ternary main_v43 main_v45 main_v5 main_v46 (select : (⟨S32x2048x32, .i1⟩ : BufTy).Contents (Elt F) → (⟨S32x2048x32, .i32⟩ : BufTy).Contents (Elt F) → (⟨S32x2048x32, .i32⟩ : BufTy).Contents (Elt F) → (⟨S32x2048x32, .i32⟩ : BufTy).Contents (Elt F)),
    unary main_v36 main_v47 (broadcastInDim S32x2048x32x1 ![0, 1, 2] bcast_S32x2048x32_S32x2048x32x1_0_1_2 : (⟨S32x2048x32, .i32⟩ : BufTy).Contents (Elt F) → (⟨S32x2048x32x1, .i32⟩ : BufTy).Contents (Elt F)),
    unary main_v41 main_v48 (broadcastInDim S32x2048x32x1 ![0, 1, 2] bcast_S32x2048x32_S32x2048x32x1_0_1_2 : (⟨S32x2048x32, .i32⟩ : BufTy).Contents (Elt F) → (⟨S32x2048x32x1, .i32⟩ : BufTy).Contents (Elt F)),
    unary main_v46 main_v49 (broadcastInDim S32x2048x32x1 ![0, 1, 2] bcast_S32x2048x32_S32x2048x32x1_0_1_2 : (⟨S32x2048x32, .i32⟩ : BufTy).Contents (Elt F) → (⟨S32x2048x32x1, .i32⟩ : BufTy).Contents (Elt F)),
    nary ![main_v47, main_v48, main_v49] main_v50 (fun u => concatenate S32x2048x32x3 3 [⟨S32x2048x32x1, u 0⟩, ⟨S32x2048x32x1, u 1⟩, ⟨S32x2048x32x1, u 2⟩] concatenates_S32x2048x32x1_S32x2048x32x1_S32x2048x32x1_S32x2048x32x3_d3),
    ternary main_v31 main_v50 main_v24 main_v51 ((fun x i u => Host.scatterAdd scatter_S32x32x2049x42_S32x2048x32x3_S32x2048x32x42_3_012_012_3 x i u) : (⟨S32x32x2049x42, .f32⟩ : BufTy).Contents (Elt F) → (⟨S32x2048x32x3, .i32⟩ : BufTy).Contents (Elt F) → (⟨S32x2048x32x42, .f32⟩ : BufTy).Contents (Elt F) → (⟨S32x32x2049x42, .f32⟩ : BufTy).Contents (Elt F)),
    unary main_v51 main_v52 ((extractStridedSlice S32x32x2048x42 ![0, 0, 0, 0] · slices_S32x32x2049x42_S32x32x2048x42_0_0_0_0) : (⟨S32x32x2049x42, .f32⟩ : BufTy).Contents (Elt F) → (⟨S32x32x2048x42, .f32⟩ : BufTy).Contents (Elt F)),
    nullary main_v53 (iotaInDim S8 32 0),
    nullary main_c_8 (constantI S_ 32 32#32),
    unary main_c_8 main_v54 (broadcastInDim S8 ![] bcast_S_S8 : (⟨S_, .i32⟩ : BufTy).Contents (Elt F) → (⟨S8, .i32⟩ : BufTy).Contents (Elt F)),
    binary main_v54 main_v53 main_v55 (addi : (⟨S8, .i32⟩ : BufTy).Contents (Elt F) → (⟨S8, .i32⟩ : BufTy).Contents (Elt F) → (⟨S8, .i32⟩ : BufTy).Contents (Elt F)),
    nullary main_c_9 (constantI S_ 32 1#32),
    unary main_c_9 main_v56 (broadcastInDim S8 ![] bcast_S_S8 : (⟨S_, .i32⟩ : BufTy).Contents (Elt F) → (⟨S8, .i32⟩ : BufTy).Contents (Elt F)),
    binary main_v55 main_v56 main_v57 (subi : (⟨S8, .i32⟩ : BufTy).Contents (Elt F) → (⟨S8, .i32⟩ : BufTy).Contents (Elt F) → (⟨S8, .i32⟩ : BufTy).Contents (Elt F)),
    nullary main_v58 (iotaInDim S40x40 32 0),
    nullary main_v59 (iotaInDim S40x40 32 1),
    nullary main_c_10 (constantI S_ 32 0#32),
    unary main_c_10 main_v60 (broadcastInDim S40x40 ![] bcast_S_S40x40 : (⟨S_, .i32⟩ : BufTy).Contents (Elt F) → (⟨S40x40, .i32⟩ : BufTy).Contents (Elt F)),
    binary main_v58 main_v60 main_v61 (addi : (⟨S40x40, .i32⟩ : BufTy).Contents (Elt F) → (⟨S40x40, .i32⟩ : BufTy).Contents (Elt F) → (⟨S40x40, .i32⟩ : BufTy).Contents (Elt F)),
    binary main_v61 main_v59 main_v62 (cmpi .eq : (⟨S40x40, .i32⟩ : BufTy).Contents (Elt F) → (⟨S40x40, .i32⟩ : BufTy).Contents (Elt F) → (⟨S40x40, .i1⟩ : BufTy).Contents (Elt F)),
    unary main_v62 main_v63 (uitofp .f32 : (⟨S40x40, .i1⟩ : BufTy).Contents (Elt F) → (⟨S40x40, .f32⟩ : BufTy).Contents (Elt F)),
    nullary main_c_11 (constantI S_ 32 0#32),
    unary main_c_11 main_v64 (broadcastInDim S8 ![] bcast_S_S8 : (⟨S_, .i32⟩ : BufTy).Contents (Elt F) → (⟨S8, .i32⟩ : BufTy).Contents (Elt F)),
    binary main_v57 main_v64 main_v65 (cmpi .slt : (⟨S8, .i32⟩ : BufTy).Contents (Elt F) → (⟨S8, .i32⟩ : BufTy).Contents (Elt F) → (⟨S8, .i1⟩ : BufTy).Contents (Elt F)),
    nullary main_c_12 (constantI S_ 32 40#32),
    unary main_c_12 main_v66 (broadcastInDim S8 ![] bcast_S_S8 : (⟨S_, .i32⟩ : BufTy).Contents (Elt F) → (⟨S8, .i32⟩ : BufTy).Contents (Elt F)),
    binary main_v57 main_v66 main_v67 (addi : (⟨S8, .i32⟩ : BufTy).Contents (Elt F) → (⟨S8, .i32⟩ : BufTy).Contents (Elt F) → (⟨S8, .i32⟩ : BufTy).Contents (Elt F)),
    ternary main_v65 main_v67 main_v57 main_v68 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v68 main_v69 (broadcastInDim S8x1 ![0] bcast_S8_S8x1_0 : (⟨S8, .i32⟩ : BufTy).Contents (Elt F) → (⟨S8x1, .i32⟩ : BufTy).Contents (Elt F)),
    binary main_v63 main_v69 main_v70 ((fun x i => Host.gather gather_S40x40_S8x1_S8x40_1_0_n_n_0_1_140 x i) : (⟨S40x40, .f32⟩ : BufTy).Contents (Elt F) → (⟨S8x1, .i32⟩ : BufTy).Contents (Elt F) → (⟨S8x40, .f32⟩ : BufTy).Contents (Elt F)),
    nullary main_cst_13 (constant S_ .f32 0x00000000#32),
    unary main_cst_13 main_v71 (broadcastInDim S8x32x1 ![] bcast_S_S8x32x1 : (⟨S_, .f32⟩ : BufTy).Contents (Elt F) → (⟨S8x32x1, .f32⟩ : BufTy).Contents (Elt F)),
    unary main_v70 main_v72 (broadcastInDim S8x1x40 ![0, 2] bcast_S8x40_S8x1x40_0_2 : (⟨S8x40, .f32⟩ : BufTy).Contents (Elt F) → (⟨S8x1x40, .f32⟩ : BufTy).Contents (Elt F)),
    unary main_v72 main_v73 (broadcastInDim S8x32x40 ![0, 1, 2] bcast_S8x1x40_S8x32x40_0_1_2 : (⟨S8x1x40, .f32⟩ : BufTy).Contents (Elt F) → (⟨S8x32x40, .f32⟩ : BufTy).Contents (Elt F)),
    unary main_arg0 main_v74 ((transpose S8x32 [1, 0] · transposes_S32x8_S8x32_1_0) : (⟨S32x8, .f32⟩ : BufTy).Contents (Elt F) → (⟨S8x32, .f32⟩ : BufTy).Contents (Elt F)),
    unary main_v74 main_v75 (broadcastInDim S8x32x1 ![0, 1] bcast_S8x32_S8x32x1_0_1 : (⟨S8x32, .f32⟩ : BufTy).Contents (Elt F) → (⟨S8x32x1, .f32⟩ : BufTy).Contents (Elt F)),
    nary ![main_v71, main_v73, main_v75] main_v76 (fun u => concatenate S8x32x42 2 [⟨S8x32x1, u 0⟩, ⟨S8x32x40, u 1⟩, ⟨S8x32x1, u 2⟩] concatenates_S8x32x1_S8x32x40_S8x32x1_S8x32x42_d2),
    nullary main_cst_14 (constant S_ .f32 0x00000000#32),
    unary main_cst_14 main_v77 (broadcastInDim S8x32x2048x42 ![] bcast_S_S8x32x2048x42 : (⟨S_, .f32⟩ : BufTy).Contents (Elt F) → (⟨S8x32x2048x42, .f32⟩ : BufTy).Contents (Elt F)),
    nullary main_c_15 (constantI S_ 32 0#32),
    unary main_c_15 main_v78 (broadcastInDim S1 ![] bcast_S_S1 : (⟨S_, .i32⟩ : BufTy).Contents (Elt F) → (⟨S1, .i32⟩ : BufTy).Contents (Elt F)),
    ternary main_v77 main_v78 main_v76 main_v79 ((fun x i u => Host.scatter scatter_S8x32x2048x42_S1_S8x32x42_012_2_2_0 (fun _ b => b) x i u) : (⟨S8x32x2048x42, .f32⟩ : BufTy).Contents (Elt F) → (⟨S1, .i32⟩ : BufTy).Contents (Elt F) → (⟨S8x32x42, .f32⟩ : BufTy).Contents (Elt F) → (⟨S8x32x2048x42, .f32⟩ : BufTy).Contents (Elt F)),
    binary main_v52 main_v79 main_v80 ((fun a b => concatenate S40x32x2048x42 0 [⟨S32x32x2048x42, a⟩, ⟨S8x32x2048x42, b⟩] concatenates_S32x32x2048x42_S8x32x2048x42_S40x32x2048x42_d0) : (⟨S32x32x2048x42, .f32⟩ : BufTy).Contents (Elt F) → (⟨S8x32x2048x42, .f32⟩ : BufTy).Contents (Elt F) → (⟨S40x32x2048x42, .f32⟩ : BufTy).Contents (Elt F)) ]

end Cert.ReferenceIdeal.Hand

end
-- ==== Proof.RefStages.lean ====
/- The reference program's composed pure term: one definition per tensor value of @main (the three
   module-local functions inlined at their calls), in the program's order, each a function of the
   argument arrays it depends on; `result` is the last. -/
import proofs.«146262_j33595234189952_2_alg».proof.Proof.Gen.ReferenceIdeal

noncomputable section

namespace Cert.ReferenceIdeal.Hand

open Cert.ReferenceIdeal Cert.ReferenceIdeal.Gen Idealize.ShloMosaic

variable {F : FTy → Type} [FloatOps F]

/-! ## The composed term: one definition per tensor value -/

def r_v0 (a3 : IVec S32x2048x32 1) : FVec F S32x2048x32 .f32 :=
  uitofp .f32 a3
def r_v1 (a3 : IVec S32x2048x32 1) : IVec S32x2048x32 32 :=
  extui 32 a3 natLt_1_32
def r_call0_call0_v0 : IVec S_ 32 :=
  broadcastInDim S_ ![] bcast_S_S_ (constantI S_ 32 0#32 : IVec S_ 32)
def r_v2 (a3 : IVec S32x2048x32 1) : IVec S32x2048x32 32 :=
  Host.reduceWindow IntOp.addi ![1, 2048, 1] ![1, 1, 1] ![0, 2047, 0] ![0, 0, 0] (r_v1 a3) r_call0_call0_v0 reduceWindows_S32x2048x32_S32x2048x32_w1s1p0_0_w2048s1p2047_0_w1s1p0_0 h_S_
def r_v3 : IVec S32x2048x32 32 :=
  broadcastInDim S32x2048x32 ![] bcast_S_S32x2048x32 (constantI S_ 32 1#32 : IVec S_ 32)
/-- pos: the zero-based rank of an observed sample among its channel's observed samples (inclusive count minus one). -/
def r_v4 (a3 : IVec S32x2048x32 1) : IVec S32x2048x32 32 :=
  subi (r_v2 a3) r_v3
def r_call1_v0 : IVec S_ 32 :=
  id (constantI S_ 32 2048#32 : IVec S_ 32)
def r_call1_v1 : IVec S32x2048x32 32 :=
  broadcastInDim S32x2048x32 ![] bcast_S_S32x2048x32 r_call1_v0
/-- posSafe: `pos` where the sample is observed, the dump slot 2048 elsewhere. -/
def r_v5 (a3 : IVec S32x2048x32 1) : IVec S32x2048x32 32 :=
  select a3 (r_v4 a3) r_call1_v1
def r_v6 : IVec S40x40 32 :=
  iotaInDim S40x40 32 0
def r_v7 : IVec S40x40 32 :=
  iotaInDim S40x40 32 1
def r_v8 : IVec S40x40 32 :=
  broadcastInDim S40x40 ![] bcast_S_S40x40 (constantI S_ 32 0#32 : IVec S_ 32)
def r_v9 : IVec S40x40 32 :=
  addi r_v6 r_v8
def r_v10 : IVec S40x40 1 :=
  cmpi .eq r_v9 r_v7
def r_v11 : FVec F S40x40 .f32 :=
  uitofp .f32 r_v10
/-- eye: the first 32 rows of the 40 × 40 identity. -/
def r_v12 : FVec F S32x40 .f32 :=
  extractStridedSlice S32x40 ![0, 0] (r_v11 (F := F)) slices_S40x40_S32x40_0_0
def r_v13 (a1 : FVec F S32x2048 .f32) : FVec F S32x2048x1 .f32 :=
  broadcastInDim S32x2048x1 ![0, 1] bcast_S32x2048_S32x2048x1_0_1 a1
def r_v14 (a1 : FVec F S32x2048 .f32) : FVec F S32x2048x32 .f32 :=
  broadcastInDim S32x2048x32 ![0, 1, 2] bcast_S32x2048x1_S32x2048x32_0_1_2 (r_v13 (F := F) a1)
def r_v15 (a1 : FVec F S32x2048 .f32) (a3 : IVec S32x2048x32 1) : FVec F S32x2048x32 .f32 :=
  mulf (r_v14 (F := F) a1) (r_v0 (F := F) a3)
def r_v16 (a1 : FVec F S32x2048 .f32) (a3 : IVec S32x2048x32 1) : FVec F S32x2048x32x1 .f32 :=
  broadcastInDim S32x2048x32x1 ![0, 1, 2] bcast_S32x2048x32_S32x2048x32x1_0_1_2 (r_v15 (F := F) a1 a3)
def r_v17 (a3 : IVec S32x2048x32 1) : FVec F S32x2048x32x1 .f32 :=
  broadcastInDim S32x2048x32x1 ![0, 1, 2] bcast_S32x2048x32_S32x2048x32x1_0_1_2 (r_v0 (F := F) a3)
def r_v18 : FVec F S1x1x32x40 .f32 :=
  broadcastInDim S1x1x32x40 ![2, 3] bcast_S32x40_S1x1x32x40_2_3 (r_v12 (F := F))
def r_v19 (a3 : IVec S32x2048x32 1) : FVec F S32x2048x32x40 .f32 :=
  broadcastInDim S32x2048x32x40 ![0, 1, 2, 3] bcast_S32x2048x32x1_S32x2048x32x40_0_1_2_3 (r_v17 (F := F) a3)
def r_v20 : FVec F S32x2048x32x40 .f32 :=
  broadcastInDim S32x2048x32x40 ![0, 1, 2, 3] bcast_S1x1x32x40_S32x2048x32x40_0_1_2_3 (r_v18 (F := F))
def r_v21 (a3 : IVec S32x2048x32 1) : FVec F S32x2048x32x40 .f32 :=
  mulf (r_v19 (F := F) a3) (r_v20 (F := F))
def r_v22 (a2 : FVec F S32x2048x32 .f32) (a3 : IVec S32x2048x32 1) : FVec F S32x2048x32 .f32 :=
  mulf a2 (r_v0 (F := F) a3)
def r_v23 (a2 : FVec F S32x2048x32 .f32) (a3 : IVec S32x2048x32 1) : FVec F S32x2048x32x1 .f32 :=
  broadcastInDim S32x2048x32x1 ![0, 1, 2] bcast_S32x2048x32_S32x2048x32x1_0_1_2 (r_v22 (F := F) a2 a3)
/-- feat: per (b, t, ch) the row (time·m, one_hot(ch)·m, value·m) of width 42, m the observation mask. -/
def r_v24 (a1 : FVec F S32x2048 .f32) (a2 : FVec F S32x2048x32 .f32) (a3 : IVec S32x2048x32 1) : FVec F S32x2048x32x42 .f32 :=
  concatenate S32x2048x32x42 3 [⟨S32x2048x32x1, (r_v16 (F := F) a1 a3)⟩, ⟨S32x2048x32x40, (r_v21 (F := F) a3)⟩, ⟨S32x2048x32x1, (r_v23 (F := F) a2 a3)⟩] concatenates_S32x2048x32x1_S32x2048x32x40_S32x2048x32x1_S32x2048x32x42_d3
def r_v25 : IVec S32 32 :=
  iotaInDim S32 32 0
def r_v26 : IVec S1x1x32 32 :=
  broadcastInDim S1x1x32 ![2] bcast_S32_S1x1x32_2 r_v25
def r_v27 : IVec S32x2048x32 32 :=
  broadcastInDim S32x2048x32 ![0, 1, 2] bcast_S1x1x32_S32x2048x32_0_1_2 r_v26
def r_v28 : IVec S32 32 :=
  iotaInDim S32 32 0
def r_v29 : IVec S32x1x1 32 :=
  broadcastInDim S32x1x1 ![0] bcast_S32_S32x1x1_0 r_v28
def r_v30 : IVec S32x2048x32 32 :=
  broadcastInDim S32x2048x32 ![0, 1, 2] bcast_S32x1x1_S32x2048x32_0_1_2 r_v29
def r_v31 : FVec F S32x32x2049x42 .f32 :=
  broadcastInDim S32x32x2049x42 ![] bcast_S_S32x32x2049x42 (constant S_ .f32 0x00000000#32 : FVec F S_ .f32)
def r_v32 : IVec S32x2048x32 32 :=
  broadcastInDim S32x2048x32 ![] bcast_S_S32x2048x32 (constantI S_ 32 0#32 : IVec S_ 32)
def r_v33 : IVec S32x2048x32 1 :=
  cmpi .slt r_v27 r_v32
def r_v34 : IVec S32x2048x32 32 :=
  broadcastInDim S32x2048x32 ![] bcast_S_S32x2048x32 (constantI S_ 32 32#32 : IVec S_ 32)
def r_v35 : IVec S32x2048x32 32 :=
  addi r_v27 r_v34
def r_v36 : IVec S32x2048x32 32 :=
  select r_v33 r_v35 r_v27
def r_v37 : IVec S32x2048x32 32 :=
  broadcastInDim S32x2048x32 ![] bcast_S_S32x2048x32 (constantI S_ 32 0#32 : IVec S_ 32)
def r_v38 : IVec S32x2048x32 1 :=
  cmpi .slt r_v30 r_v37
def r_v39 : IVec S32x2048x32 32 :=
  broadcastInDim S32x2048x32 ![] bcast_S_S32x2048x32 (constantI S_ 32 32#32 : IVec S_ 32)
def r_v40 : IVec S32x2048x32 32 :=
  addi r_v30 r_v39
def r_v41 : IVec S32x2048x32 32 :=
  select r_v38 r_v40 r_v30
def r_v42 : IVec S32x2048x32 32 :=
  broadcastInDim S32x2048x32 ![] bcast_S_S32x2048x32 (constantI S_ 32 0#32 : IVec S_ 32)
def r_v43 (a3 : IVec S32x2048x32 1) : IVec S32x2048x32 1 :=
  cmpi .slt (r_v5 a3) r_v42
def r_v44 : IVec S32x2048x32 32 :=
  broadcastInDim S32x2048x32 ![] bcast_S_S32x2048x32 (constantI S_ 32 2049#32 : IVec S_ 32)
def r_v45 (a3 : IVec S32x2048x32 1) : IVec S32x2048x32 32 :=
  addi (r_v5 a3) r_v44
def r_v46 (a3 : IVec S32x2048x32 1) : IVec S32x2048x32 32 :=
  select (r_v43 a3) (r_v45 a3) (r_v5 a3)
def r_v47 : IVec S32x2048x32x1 32 :=
  broadcastInDim S32x2048x32x1 ![0, 1, 2] bcast_S32x2048x32_S32x2048x32x1_0_1_2 r_v36
def r_v48 : IVec S32x2048x32x1 32 :=
  broadcastInDim S32x2048x32x1 ![0, 1, 2] bcast_S32x2048x32_S32x2048x32x1_0_1_2 r_v41
def r_v49 (a3 : IVec S32x2048x32 1) : IVec S32x2048x32x1 32 :=
  broadcastInDim S32x2048x32x1 ![0, 1, 2] bcast_S32x2048x32_S32x2048x32x1_0_1_2 (r_v46 a3)
/-- idx: per (b, t, ch) the scatter index (ch, b, posSafe). -/
def r_v50 (a3 : IVec S32x2048x32 1) : IVec S32x2048x32x3 32 :=
  concatenate S32x2048x32x3 3 [⟨S32x2048x32x1, r_v47⟩, ⟨S32x2048x32x1, r_v48⟩, ⟨S32x2048x32x1, (r_v49 a3)⟩] concatenates_S32x2048x32x1_S32x2048x32x1_S32x2048x32x1_S32x2048x32x3_d3
/-- scattered: the rows added at their indices into zeros, slot 2048 the dump slot. -/
def r_v51 (a1 : FVec F S32x2048 .f32) (a2 : FVec F S32x2048x32 .f32) (a3 : IVec S32x2048x32 1) : FVec F S32x32x2049x42 .f32 :=
  Host.scatterAdd scatter_S32x32x2049x42_S32x2048x32x3_S32x2048x32x42_3_012_012_3 (r_v31 (F := F)) (r_v50 a3) (r_v24 (F := F) a1 a2 a3)
/-- packed: `scattered` without the dump slot. -/
def r_v52 (a1 : FVec F S32x2048 .f32) (a2 : FVec F S32x2048x32 .f32) (a3 : IVec S32x2048x32 1) : FVec F S32x32x2048x42 .f32 :=
  extractStridedSlice S32x32x2048x42 ![0, 0, 0, 0] (r_v51 (F := F) a1 a2 a3) slices_S32x32x2049x42_S32x32x2048x42_0_0_0_0
def r_v53 : IVec S8 32 :=
  iotaInDim S8 32 0
def r_v54 : IVec S8 32 :=
  broadcastInDim S8 ![] bcast_S_S8 (constantI S_ 32 32#32 : IVec S_ 32)
def r_v55 : IVec S8 32 :=
  addi r_v54 r_v53
def r_v56 : IVec S8 32 :=
  broadcastInDim S8 ![] bcast_S_S8 (constantI S_ 32 1#32 : IVec S_ 32)
def r_v57 : IVec S8 32 :=
  subi r_v55 r_v56
def r_v58 : IVec S40x40 32 :=
  iotaInDim S40x40 32 0
def r_v59 : IVec S40x40 32 :=
  iotaInDim S40x40 32 1
def r_v60 : IVec S40x40 32 :=
  broadcastInDim S40x40 ![] bcast_S_S40x40 (constantI S_ 32 0#32 : IVec S_ 32)
def r_v61 : IVec S40x40 32 :=
  addi r_v58 r_v60
def r_v62 : IVec S40x40 1 :=
  cmpi .eq r_v61 r_v59
def r_v63 : FVec F S40x40 .f32 :=
  uitofp .f32 r_v62
def r_v64 : IVec S8 32 :=
  broadcastInDim S8 ![] bcast_S_S8 (constantI S_ 32 0#32 : IVec S_ 32)
def r_v65 : IVec S8 1 :=
  cmpi .slt r_v57 r_v64
def r_v66 : IVec S8 32 :=
  broadcastInDim S8 ![] bcast_S_S8 (constantI S_ 32 40#32 : IVec S_ 32)
def r_v67 : IVec S8 32 :=
  addi r_v57 r_v66
def r_v68 : IVec S8 32 :=
  select r_v65 r_v67 r_v57
def r_v69 : IVec S8x1 32 :=
  broadcastInDim S8x1 ![0] bcast_S8_S8x1_0 r_v68
/-- the identity's rows 31 + dd, dd < 8. -/
def r_v70 : FVec F S8x40 .f32 :=
  Host.gather gather_S40x40_S8x1_S8x40_1_0_n_n_0_1_140 (r_v63 (F := F)) r_v69
def r_v71 : FVec F S8x32x1 .f32 :=
  broadcastInDim S8x32x1 ![] bcast_S_S8x32x1 (constant S_ .f32 0x00000000#32 : FVec F S_ .f32)
def r_v72 : FVec F S8x1x40 .f32 :=
  broadcastInDim S8x1x40 ![0, 2] bcast_S8x40_S8x1x40_0_2 (r_v70 (F := F))
def r_v73 : FVec F S8x32x40 .f32 :=
  broadcastInDim S8x32x40 ![0, 1, 2] bcast_S8x1x40_S8x32x40_0_1_2 (r_v72 (F := F))
def r_v74 (a0 : FVec F S32x8 .f32) : FVec F S8x32 .f32 :=
  transpose S8x32 [1, 0] a0 transposes_S32x8_S8x32_1_0
def r_v75 (a0 : FVec F S32x8 .f32) : FVec F S8x32x1 .f32 :=
  broadcastInDim S8x32x1 ![0, 1] bcast_S8x32_S8x32x1_0_1 (r_v74 (F := F) a0)
/-- demoRow: per (dd, b) the row (0, one_hot(31 + dd), demo(b, dd)). -/
def r_v76 (a0 : FVec F S32x8 .f32) : FVec F S8x32x42 .f32 :=
  concatenate S8x32x42 2 [⟨S8x32x1, (r_v71 (F := F))⟩, ⟨S8x32x40, (r_v73 (F := F))⟩, ⟨S8x32x1, (r_v75 (F := F) a0)⟩] concatenates_S8x32x1_S8x32x40_S8x32x1_S8x32x42_d2
def r_v77 : FVec F S8x32x2048x42 .f32 :=
  broadcastInDim S8x32x2048x42 ![] bcast_S_S8x32x2048x42 (constant S_ .f32 0x00000000#32 : FVec F S_ .f32)
def r_v78 : IVec S1 32 :=
  broadcastInDim S1 ![] bcast_S_S1 (constantI S_ 32 0#32 : IVec S_ 32)
/-- demoFull: `demoRow` set at position 0 of zeros. -/
def r_v79 (a0 : FVec F S32x8 .f32) : FVec F S8x32x2048x42 .f32 :=
  Host.scatter scatter_S8x32x2048x42_S1_S8x32x42_012_2_2_0 (fun _ b => b) (r_v77 (F := F)) r_v78 (r_v76 (F := F) a0)
/-- The reference's result: the packed channels 0 … 31 followed by the demo channels 32 … 39. -/
def result (a0 : FVec F S32x8 .f32) (a1 : FVec F S32x2048 .f32) (a2 : FVec F S32x2048x32 .f32) (a3 : IVec S32x2048x32 1) : FVec F S40x32x2048x42 .f32 :=
  concatenate S40x32x2048x42 0 [⟨S32x32x2048x42, (r_v52 (F := F) a1 a2 a3)⟩, ⟨S8x32x2048x42, (r_v79 (F := F) a0)⟩] concatenates_S32x32x2048x42_S8x32x2048x42_S40x32x2048x42_d0

end Cert.ReferenceIdeal.Hand

end
-- ==== Proof.RefAfter.lean ====
/- The reference program's host operations read back: after the 103 operations, in order, from any buffer contents,
   the result buffer holds the composed term `result` of the four argument buffers' contents, and the argument buffers
   hold what they held. The list is read in four stretches — up to the feature rows, up to the packed channels, up to
   the demo channels, and the last concatenation — so that no single pass walks all of it. -/
import proofs.«146262_j33595234189952_2_alg».proof.Proof.RefOps
import proofs.«146262_j33595234189952_2_alg».proof.Proof.RefStages

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines read one after the other are their concatenation read as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A concatenation of three operands, the operands as plain arguments. -/
def cat3 {α : Type} (T : Shape) (ax : Fin T.rank) (S1 S2 S3 : Shape) (h : Shape.Concatenates [S1, S2, S3] T ax)
    (x1 : S1.Idx → α) (x2 : S2.Idx → α) (x3 : S3.Idx → α) : T.Idx → α :=
  concatenate T ax [⟨S1, x1⟩, ⟨S2, x2⟩, ⟨S3, x3⟩] h

/-- The three concatenations of three operands, each read at its own result: the concatenation of the operands' contents,
    each at its own reference. -/
theorem v24_result' (hxs hy) (V : Valuation τ sig (Elt F)) :
    (nary (τ := τ) ![main_v16, main_v21, main_v23] main_v24 (fun u => concatenate S32x2048x32x42 3 [⟨S32x2048x32x1, u 0⟩, ⟨S32x2048x32x40, u 1⟩, ⟨S32x2048x32x1, u 2⟩] concatenates_S32x2048x32x1_S32x2048x32x40_S32x2048x32x1_S32x2048x32x42_d3) hxs hy).result V (no_index (Proc.devRef .tc main_v24))
      = cat3 S32x2048x32x42 3 S32x2048x32x1 S32x2048x32x40 S32x2048x32x1 concatenates_S32x2048x32x1_S32x2048x32x40_S32x2048x32x1_S32x2048x32x42_d3
          (V (Proc.devRef .tc main_v16)) (V (Proc.devRef .tc main_v21)) (V (Proc.devRef .tc main_v23)) := by
  rw [nary_result]; rfl

theorem v50_result' (hxs hy) (V : Valuation τ sig (Elt F)) :
    (nary (τ := τ) ![main_v47, main_v48, main_v49] main_v50 (fun u => concatenate S32x2048x32x3 3 [⟨S32x2048x32x1, u 0⟩, ⟨S32x2048x32x1, u 1⟩, ⟨S32x2048x32x1, u 2⟩] concatenates_S32x2048x32x1_S32x2048x32x1_S32x2048x32x1_S32x2048x32x3_d3) hxs hy).result V (no_index (Proc.devRef .tc main_v50))
      = cat3 S32x2048x32x3 3 S32x2048x32x1 S32x2048x32x1 S32x2048x32x1 concatenates_S32x2048x32x1_S32x2048x32x1_S32x2048x32x1_S32x2048x32x3_d3
          (V (Proc.devRef .tc main_v47)) (V (Proc.devRef .tc main_v48)) (V (Proc.devRef .tc main_v49)) := by
  rw [nary_result]; rfl

theorem v76_result' (hxs hy) (V : Valuation τ sig (Elt F)) :
    (nary (τ := τ) ![main_v71, main_v73, main_v75] main_v76 (fun u => concatenate S8x32x42 2 [⟨S8x32x1, u 0⟩, ⟨S8x32x40, u 1⟩, ⟨S8x32x1, u 2⟩] concatenates_S8x32x1_S8x32x40_S8x32x1_S8x32x42_d2) hxs hy).result V (no_index (Proc.devRef .tc main_v76))
      = cat3 S8x32x42 2 S8x32x1 S8x32x40 S8x32x1 concatenates_S8x32x1_S8x32x40_S8x32x1_S8x32x42_d2
          (V (Proc.devRef .tc main_v71)) (V (Proc.devRef .tc main_v73)) (V (Proc.devRef .tc main_v75)) := by
  rw [nary_result]; rfl

/-- The operations in four stretches: the first 32 (up to the feature rows), the next 35 (up to the packed channels),
    the next 35 (up to the demo channels), and the last one (the result's concatenation). -/
abbrev opsA : List (HloOp τ sig (Elt F)) := (ops (F := F)).take 32
abbrev opsB : List (HloOp τ sig (Elt F)) := ((ops (F := F)).drop 32).take 35
abbrev opsC : List (HloOp τ sig (Elt F)) := ((ops (F := F)).drop 67).take 35
abbrev opsD : List (HloOp τ sig (Elt F)) := (ops (F := F)).drop 102

theorem ops_split : (ops (F := F)) = opsA ++ (opsB ++ (opsC ++ opsD)) := rfl

/-! ## The first stretch: the feature rows and the safe positions -/

theorem A_v5 (V : Valuation τ sig (Elt F)) :
    after (opsA (F := F)) V (main_v5 : DevRef τ sig) = r_v5 (V (main_arg3 : DevRef τ sig)) := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']
  rfl

theorem A_v24 (V : Valuation τ sig (Elt F)) :
    after (opsA (F := F)) V (main_v24 : DevRef τ sig)
      = r_v24 (V (main_arg1 : DevRef τ sig)) (V (main_arg2 : DevRef τ sig)) (V (main_arg3 : DevRef τ sig)) := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']
  rfl

theorem A_arg0 (V : Valuation τ sig (Elt F)) :
    after (opsA (F := F)) V (main_arg0 : DevRef τ sig) = V (main_arg0 : DevRef τ sig) := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']

/-! ## The second stretch: the scatter indices, the scatter, the packed channels -/

theorem B_v52 (W : Valuation τ sig (Elt F)) (a1 : FVec F S32x2048 .f32) (a2 : FVec F S32x2048x32 .f32) (a3 : IVec S32x2048x32 1)
    (h24 : W (main_v24 : DevRef τ sig) = r_v24 a1 a2 a3) (h5 : W (main_v5 : DevRef τ sig) = r_v5 a3) :
    after (opsB (F := F)) W (main_v52 : DevRef τ sig) = r_v52 a1 a2 a3 := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']
  rw [h24, h5]
  rfl

theorem B_arg0 (W : Valuation τ sig (Elt F)) :
    after (opsB (F := F)) W (main_arg0 : DevRef τ sig) = W (main_arg0 : DevRef τ sig) := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']

/-! ## The third stretch: the demo channels -/

theorem C_v79 (W : Valuation τ sig (Elt F)) (a0 : FVec F S32x8 .f32) (h0 : W (main_arg0 : DevRef τ sig) = a0) :
    after (opsC (F := F)) W (main_v79 : DevRef τ sig) = r_v79 a0 := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']
  rw [h0]
  rfl

theorem C_v52 (W : Valuation τ sig (Elt F)) :
    after (opsC (F := F)) W (main_v52 : DevRef τ sig) = W (main_v52 : DevRef τ sig) := by
  simp only [opsA, opsB, opsC, opsD, ops, List.take_succ_cons, List.take_zero, List.drop_succ_cons, List.drop_zero]
  simp (disch := decide) only [after_cons, after_nil,
      nullary_result', unary_result', binary_result', ternary_result', v24_result', v50_result', v76_result',
      nullary_result_ne', unary_result_ne', binary_result_ne', ternary_result_ne', nary_result_ne']

/-! ## The last operation: the packed channels followed by the demo channels -/

theorem D_v80 (W : Valuation τ sig (Elt F)) (a0 : FVec F S32x8 .f32) (a1 : FVec F S32x2048 .f32) (a2 : FVec F S32x2048x32 .f32)
    (a3 : IVec S32x2048x32 1)
    (h52 : W (main_v52 : DevRef τ sig) = r_v52 a1 a2 a3) (h79 : W (main_v79 : DevRef τ sig) = r_v79 a0) :
    after (opsD (F := F)) W (main_v80 : DevRef τ sig) = result a0 a1 a2 a3 := by
  simp only [opsA, opsB, opsC, opsD, ops, List.take_succ_cons, List.take_zero, List.drop_succ_cons, List.drop_zero]
  simp only [after_cons, after_nil]
  rw [binary_result, h52, h79]
  rfl

/-! ## The whole line -/

/-- After the reference's operations the result buffer holds the composed term of the argument buffers' contents. -/
theorem out_eq (V : Valuation τ sig (Elt F)) :
    after ops V (main_v80 : DevRef τ sig)
      = result (V (main_arg0 : DevRef τ sig)) (V (main_arg1 : DevRef τ sig)) (V (main_arg2 : DevRef τ sig)) (V (main_arg3 : DevRef τ sig)) := by
  rw [ops_split (F := F), after_append, after_append, after_append]
  refine D_v80 _ _ _ _ _ ?_ ?_
  · exact (C_v52 _).trans (B_v52 _ _ _ _ (A_v24 V) (A_v5 V))
  · exact C_v79 _ _ ((B_arg0 _).trans (A_arg0 V))

/-- The argument buffers are written by no operation. -/
theorem arg0_eq (V : Valuation τ sig (Elt F)) : after ops V (main_arg0 : DevRef τ sig) = V (main_arg0 : DevRef τ sig) := by
  simp (disch := decide) only [after_cons, after_nil,
      nullary_result', unary_result', binary_result', ternary_result', v24_result', v50_result', v76_result',
      nullary_result_ne', unary_result_ne', binary_result_ne', ternary_result_ne', nary_result_ne']
theorem arg1_eq (V : Valuation τ sig (Elt F)) : after ops V (main_arg1 : DevRef τ sig) = V (main_arg1 : DevRef τ sig) := by
  simp (disch := decide) only [after_cons, after_nil,
      nullary_result', unary_result', binary_result', ternary_result', v24_result', v50_result', v76_result',
      nullary_result_ne', unary_result_ne', binary_result_ne', ternary_result_ne', nary_result_ne']
theorem arg2_eq (V : Valuation τ sig (Elt F)) : after ops V (main_arg2 : DevRef τ sig) = V (main_arg2 : DevRef τ sig) := by
  simp (disch := decide) only [after_cons, after_nil,
      nullary_result', unary_result', binary_result', ternary_result', v24_result', v50_result', v76_result',
      nullary_result_ne', unary_result_ne', binary_result_ne', ternary_result_ne', nary_result_ne']
theorem arg3_eq (V : Valuation τ sig (Elt F)) : after ops V (main_arg3 : DevRef τ sig) = V (main_arg3 : DevRef τ sig) := by
  simp (disch := decide) only [after_cons, after_nil,
      nullary_result', unary_result', binary_result', ternary_result', v24_result', v50_result', v76_result',
      nullary_result_ne', unary_result_ne', binary_result_ne', ternary_result_ne', nary_result_ne']

/-- The same under the names the run cites. -/
theorem after_v80 (V0 : Valuation τ sig (Elt F)) :
    after ops V0 (Proc.devRef .tc main_v80)
      = result (V0 (Proc.devRef .tc main_arg0)) (V0 (Proc.devRef .tc main_arg1)) (V0 (Proc.devRef .tc main_arg2)) (V0 (Proc.devRef .tc main_arg3)) :=
  out_eq V0
theorem after_arg0 (V0 : Valuation τ sig (Elt F)) : after ops V0 (Proc.devRef .tc main_arg0) = V0 (Proc.devRef .tc main_arg0) := arg0_eq V0
theorem after_arg1 (V0 : Valuation τ sig (Elt F)) : after ops V0 (Proc.devRef .tc main_arg1) = V0 (Proc.devRef .tc main_arg1) := arg1_eq V0
theorem after_arg2 (V0 : Valuation τ sig (Elt F)) : after ops V0 (Proc.devRef .tc main_arg2) = V0 (Proc.devRef .tc main_arg2) := arg2_eq V0
theorem after_arg3 (V0 : Valuation τ sig (Elt F)) : after ops V0 (Proc.devRef .tc main_arg3) = V0 (Proc.devRef .tc main_arg3) := arg3_eq V0

end Cert.ReferenceIdeal.Hand

end
-- ==== Proof.RefRun.lean ====
/- The reference program's run read back: @main is the straight line of its 103 host operations, so every
   weakly fair execution terminates with each buffer at the operations' fold over the launch contents;
   at the result buffer that fold is the composed term `result` of the four argument arrays, and the
   argument buffers are unchanged. -/
import proofs.«146262_j33595234189952_2_alg».proof.Proof.RefOps
import proofs.«146262_j33595234189952_2_alg».proof.Proof.RefStages
import proofs.«146262_j33595234189952_2_alg».proof.Proof.RefAfter
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.Pipeline in
/-- @main is that straight line: the two windows and the three functions unfolded at their calls, both
    sides are one chain of the same steps (checked by definitional unfolding). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., nullary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., binary_bufs_sub .., unary_bufs_sub .., nary_bufs_sub .., nullary_bufs_sub .., unary_bufs_sub .., unary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub .., unary_bufs_sub .., nullary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., unary_bufs_sub .., unary_bufs_sub .., nary_bufs_sub .., nullary_bufs_sub .., unary_bufs_sub .., nullary_bufs_sub .., unary_bufs_sub .., ternary_bufs_sub .., binary_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v80)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v80).trans (after_v80 (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_seq scopedRefs_eq scopedSems_eq defs main (fun _ => ops) main_eq (fun _ => ops_sub) m ρ
      (fun _ => List.forall_iff_forall_mem.1 ops_fresh))

end Cert.ReferenceIdeal.Hand

end
-- ==== Proof.RefPacked.lean ====
/-
  The packed half of the reference program, read at an index, against the specification.

  For every batch row b, step t and channel ch the scatter-add lands the feature row
  (time · m, one_hot(ch) · m, value · m), m the mask as a float, in slot pos(b, t, ch) of row (ch, b) of an array of
  zeros when the step is observed (pos = rank − 1) and in the extra slot 2048 otherwise; the extra slot is then
  dropped. So slot p < 2048 of the packed result sums the feature rows of the observed steps of rank p + 1, which is
  at most one step, and exactly one when p is below the number of observed steps: the specified array on the
  channels below 32.
-/
import proofs.«146262_j33595234189952_2_alg».proof.Proof.RefStages
import proofs.«146262_j33595234189952_2_alg».proof.Proof.CumSum
import Idealize.ShloMosaic.Lib.Pipeline.Value
import Idealize.ShloMosaic.Lib.IdealHost

noncomputable section

namespace Cert.ReferenceIdeal.Hand

open Cert.ReferenceIdeal Cert.ReferenceIdeal.Gen Idealize.ShloMosaic
open Idealize.ShloMosaic.ValueIdx (ix2 ix3 ix4)
open scoped BigOperators

/-!
  The packed half of the reference, read at an index.

  The reference scatters, for every (batch row b, step t, channel ch), the feature row
  (time · m, one_hot(ch) · m, value · m), m the mask as a float, onto slot (ch, b, s) of an array of zeros, where the
  slot number s is the rank of the step less one when the step is observed and the extra slot 2048 otherwise, adding
  the rows that meet; then drops slot 2048. A slot p < 2048 of channel ch of row b therefore receives exactly the rows
  of the steps t of that row and channel that are observed with rank p + 1: at most one step, and one exactly when
  p is below the number of observed steps. This is the specified array on the channels below 32.
-/

abbrev dS : ScatterDims S32x32x2049x42 S32x2048x32x3 S32x2048x32x42 :=
  scatter_S32x32x2049x42_S32x2048x32x3_S32x2048x32x42_3_012_012_3

/-! ### Words -/

/-- The word of a natural below 2^31, read signed, is the natural. -/
theorem toInt_ofNat_small {n : ℕ} (h : n < 2 ^ 31) : (BitVec.ofNat 32 n).toInt = (n : ℤ) := by
  rw [BitVec.toInt_eq_toNat_cond]; simp only [BitVec.toNat_ofNat]; split <;> omega

/-- Words of naturals below 2^32 are equal only when the naturals are. -/
theorem ofNat_inj_small {a c : ℕ} (ha : a < 2 ^ 32) (hc : c < 2 ^ 32) : BitVec.ofNat 32 a = BitVec.ofNat 32 c ↔ a = c := by
  constructor
  · intro h
    have h' := congrArg BitVec.toNat h
    simp only [BitVec.toNat_ofNat] at h'
    omega
  · rintro rfl; rfl

/-- A one-bit word as a float: one or zero. -/
theorem uitofp_bit (x : BitVec 1) : (FloatOps.uitofp (F := Ideal) .f32 x : EReal) = if x = 1#1 then 1 else 0 := by
  by_cases h : x = 1#1
  · subst h; rw [if_pos rfl]; show (((1#1 : BitVec 1).toNat : ℝ) : EReal) = 1; simp
  · rw [if_neg h, ValueIdx.eq_zero_of_ne_one h]; show (((0#1 : BitVec 1).toNat : ℝ) : EReal) = 0; simp

/-! ### Broadcasts read at an index -/

/-- A rank-3 array broadcast to a trailing unit axis reads the array. -/
theorem bc3to4 {α : Type} (h : S32x2048x32.BroadcastsInDim S32x2048x32x1 (![0, 1, 2] : Fin 3 → Fin S32x2048x32x1.rank))
    (x : S32x2048x32.Idx → α) (b : Fin 32) (t : Fin 2048) (ch : Fin 32) (k : Fin 1) :
    broadcastInDim S32x2048x32x1 ![0, 1, 2] h x (ix4 b t ch k) = x (ix3 b t ch) := by
  refine broadcastInDim_apply _ h x _ (ix3 b t ch) ?_
  intro a
  match a with
  | ⟨0, _⟩ => rfl
  | ⟨1, _⟩ => rfl
  | ⟨2, _⟩ => rfl

/-- A trailing unit axis broadcast to 40 reads the unit axis's one element. -/
theorem bc41to440 {α : Type} (h : S32x2048x32x1.BroadcastsInDim S32x2048x32x40 (![0, 1, 2, 3] : Fin 4 → Fin S32x2048x32x40.rank))
    (x : S32x2048x32x1.Idx → α) (b : Fin 32) (t : Fin 2048) (ch : Fin 32) (g : Fin 40) :
    broadcastInDim S32x2048x32x40 ![0, 1, 2, 3] h x (ix4 b t ch g) = x (ix4 b t ch (0 : Fin 1)) := by
  refine broadcastInDim_apply _ h x _ (ix4 b t ch (0 : Fin 1)) ?_
  intro a
  match a with
  | ⟨0, _⟩ => rfl
  | ⟨1, _⟩ => rfl
  | ⟨2, _⟩ => rfl
  | ⟨3, _⟩ => rfl

/-! ### The slot a step is sent to -/

section Slot
variable (a3 : IVec S32x2048x32 1) (b : Fin 32) (t : Fin 2048) (ch : Fin 32)

/-- The slot number of step `t`: its rank less one when observed, the extra slot otherwise. -/
def slot : ℕ := if Cert.Spec.M a3 b t ch then Cert.Spec.rank a3 b t ch - 1 else 2048

theorem slot_le : slot a3 b t ch ≤ 2048 := by
  unfold slot
  have := Cert.Spec.rank_le a3 b ch t
  split <;> omega

/-- A step is sent to slot `p` < 2048 exactly when it is the observed step of rank `p + 1`. -/
theorem slot_eq_iff (p : Fin 2048) : slot a3 b t ch = p.val ↔ Cert.Spec.hit a3 b t ch p := by
  unfold slot Cert.Spec.hit
  have hp := p.isLt
  by_cases hM : Cert.Spec.M a3 b t ch
  · rw [if_pos hM]
    have := Cert.Spec.one_le_rank a3 b ch hM
    constructor
    · intro h; exact ⟨hM, by omega⟩
    · rintro ⟨_, h⟩; omega
  · rw [if_neg hM]
    constructor
    · intro h; omega
    · rintro ⟨h, _⟩; exact absurd h hM

theorem r_v27_apply : r_v27 (ix3 b t ch) = BitVec.ofNat 32 ch.val := rfl
theorem r_v30_apply : r_v30 (ix3 b t ch) = BitVec.ofNat 32 b.val := rfl
theorem r_v32_apply : r_v32 (ix3 b t ch) = BitVec.ofNat 32 0 := rfl
theorem r_v37_apply : r_v37 (ix3 b t ch) = BitVec.ofNat 32 0 := rfl
theorem r_v42_apply : r_v42 (ix3 b t ch) = BitVec.ofNat 32 0 := rfl
theorem r_v3_apply : r_v3 (ix3 b t ch) = 1#32 := rfl
theorem r_call1_v1_apply : r_call1_v1 (ix3 b t ch) = BitVec.ofNat 32 2048 := rfl

theorem r_v36_apply : r_v36 (ix3 b t ch) = BitVec.ofNat 32 ch.val := by
  show Scalar.select (IntOp.cmpi .slt (r_v27 (ix3 b t ch)) (r_v32 (ix3 b t ch)))
    (IntOp.addi (r_v27 (ix3 b t ch)) (r_v34 (ix3 b t ch))) (r_v27 (ix3 b t ch)) = _
  have hch := ch.isLt
  rw [r_v27_apply, r_v32_apply, Cert.Spec.cmpi_slt_ofNat (by omega) (by omega), if_neg (by omega), ValueIdx.select_zero]

theorem r_v41_apply : r_v41 (ix3 b t ch) = BitVec.ofNat 32 b.val := by
  show Scalar.select (IntOp.cmpi .slt (r_v30 (ix3 b t ch)) (r_v37 (ix3 b t ch)))
    (IntOp.addi (r_v30 (ix3 b t ch)) (r_v39 (ix3 b t ch))) (r_v30 (ix3 b t ch)) = _
  have hb := b.isLt
  rw [r_v30_apply, r_v37_apply, Cert.Spec.cmpi_slt_ofNat (by omega) (by omega), if_neg (by omega), ValueIdx.select_zero]

theorem r_v2_apply : r_v2 a3 (ix3 b t ch) = BitVec.ofNat 32 (Cert.Spec.rank a3 b t ch) :=
  Cert.Spec.cumsum_apply_printed a3 _ _ _ _ b t ch

theorem r_v4_apply : r_v4 a3 (ix3 b t ch) = BitVec.ofNat 32 (Cert.Spec.rank a3 b t ch) - 1#32 := by
  show IntOp.subi (r_v2 a3 (ix3 b t ch)) (r_v3 (ix3 b t ch)) = _
  rw [r_v2_apply, r_v3_apply]; rfl

theorem r_v5_apply : r_v5 a3 (ix3 b t ch) = BitVec.ofNat 32 (slot a3 b t ch) := by
  show Scalar.select (a3 (ix3 b t ch)) (r_v4 a3 (ix3 b t ch)) (r_call1_v1 (ix3 b t ch)) = _
  unfold slot
  by_cases hM : Cert.Spec.M a3 b t ch
  · have h1 : a3 (ix3 b t ch) = 1#1 := hM
    have hr := Cert.Spec.rank_le a3 b ch t
    have h1r := Cert.Spec.one_le_rank a3 b ch hM
    rw [if_pos hM, h1, ValueIdx.select_one, r_v4_apply]
    exact (Cert.Spec.ofNat_sub_one_eq_iff hr (by omega)).2 (by omega)
  · have h0 : a3 (ix3 b t ch) = 0#1 := ValueIdx.eq_zero_of_ne_one hM
    rw [if_neg hM, h0, ValueIdx.select_zero, r_call1_v1_apply]

theorem r_v46_apply : r_v46 a3 (ix3 b t ch) = BitVec.ofNat 32 (slot a3 b t ch) := by
  show Scalar.select (IntOp.cmpi .slt (r_v5 a3 (ix3 b t ch)) (r_v42 (ix3 b t ch)))
    (IntOp.addi (r_v5 a3 (ix3 b t ch)) (r_v44 (ix3 b t ch))) (r_v5 a3 (ix3 b t ch)) = _
  have hs := slot_le a3 b t ch
  rw [r_v5_apply, r_v42_apply, Cert.Spec.cmpi_slt_ofNat (by omega) (by omega), if_neg (by omega), ValueIdx.select_zero]

/-- The scatter index of (b, t, ch): the triple (ch, b, slot). -/
theorem r_v50_apply0 : r_v50 a3 (ix4 b t ch (0 : Fin 3)) = BitVec.ofNat 32 ch.val := by
  unfold r_v50
  rw [concatenate_apply_piece 3 _ _ (ix4 b t ch (0 : Fin 3)) 0 (by show (0 : ℕ) < 3; omega) S32x2048x32x1 r_v47 rfl rfl 0 rfl
    (ix4 b t ch (0 : Fin 1))]
  · show r_v36 (ix3 b t ch) = _
    exact r_v36_apply b t ch
  · intro c hc
    match c with
    | ⟨0, _⟩ => rfl
    | ⟨1, _⟩ => rfl
    | ⟨2, _⟩ => rfl
    | ⟨3, _⟩ => exact absurd rfl hc
  · rfl

theorem r_v50_apply1 : r_v50 a3 (ix4 b t ch (1 : Fin 3)) = BitVec.ofNat 32 b.val := by
  unfold r_v50
  rw [concatenate_apply_piece 3 _ _ (ix4 b t ch (1 : Fin 3)) 1 (by show (1 : ℕ) < 3; omega) S32x2048x32x1 r_v48 rfl rfl 1 rfl
    (ix4 b t ch (0 : Fin 1))]
  · show r_v41 (ix3 b t ch) = _
    exact r_v41_apply b t ch
  · intro c hc
    match c with
    | ⟨0, _⟩ => rfl
    | ⟨1, _⟩ => rfl
    | ⟨2, _⟩ => rfl
    | ⟨3, _⟩ => exact absurd rfl hc
  · rfl

theorem r_v50_apply2 : r_v50 a3 (ix4 b t ch (2 : Fin 3)) = BitVec.ofNat 32 (slot a3 b t ch) := by
  unfold r_v50
  rw [concatenate_apply_piece 3 _ _ (ix4 b t ch (2 : Fin 3)) 2 (by show (2 : ℕ) < 3; omega) S32x2048x32x1 (r_v49 a3) rfl rfl 2 rfl
    (ix4 b t ch (0 : Fin 1))]
  · unfold r_v49
    rw [bc3to4]
    exact r_v46_apply a3 b t ch
  · intro c hc
    match c with
    | ⟨0, _⟩ => rfl
    | ⟨1, _⟩ => rfl
    | ⟨2, _⟩ => rfl
    | ⟨3, _⟩ => exact absurd rfl hc
  · rfl

end Slot

/-! ### Where an update lands -/

section Lands
variable (idx : IVec S32x2048x32x3 32) (b : Fin 32) (t : Fin 2048) (ch : Fin 32) (f : Fin 42)

theorem dS_start0 : dS.start (ix4 b t ch f) idx 0 = (idx (ix4 b t ch (0 : Fin 3))).toInt := by
  unfold ScatterDims.start
  rw [dif_pos (by decide)]
  refine congrArg (fun i => (idx i).toInt) ?_
  funext a
  match a with
  | ⟨0, _⟩ => exact Fin.ext rfl
  | ⟨1, _⟩ => exact Fin.ext rfl
  | ⟨2, _⟩ => exact Fin.ext rfl
  | ⟨3, _⟩ => exact Fin.ext rfl

theorem dS_start1 : dS.start (ix4 b t ch f) idx 1 = (idx (ix4 b t ch (1 : Fin 3))).toInt := by
  unfold ScatterDims.start
  rw [dif_pos (by decide)]
  refine congrArg (fun i => (idx i).toInt) ?_
  funext a
  match a with
  | ⟨0, _⟩ => exact Fin.ext rfl
  | ⟨1, _⟩ => exact Fin.ext rfl
  | ⟨2, _⟩ => exact Fin.ext rfl
  | ⟨3, _⟩ => exact Fin.ext rfl

theorem dS_start2 : dS.start (ix4 b t ch f) idx 2 = (idx (ix4 b t ch (2 : Fin 3))).toInt := by
  unfold ScatterDims.start
  rw [dif_pos (by decide)]
  refine congrArg (fun i => (idx i).toInt) ?_
  funext a
  match a with
  | ⟨0, _⟩ => exact Fin.ext rfl
  | ⟨1, _⟩ => exact Fin.ext rfl
  | ⟨2, _⟩ => exact Fin.ext rfl
  | ⟨3, _⟩ => exact Fin.ext rfl

theorem dS_start3 : dS.start (ix4 b t ch f) idx 3 = 0 := by
  unfold ScatterDims.start
  rw [dif_neg (by decide)]

theorem dS_window0 : dS.window (ix4 b t ch f) 0 = 0 := by
  unfold ScatterDims.window
  rw [dif_neg (by decide)]

theorem dS_window1 : dS.window (ix4 b t ch f) 1 = 0 := by
  unfold ScatterDims.window
  rw [dif_neg (by decide)]

theorem dS_window2 : dS.window (ix4 b t ch f) 2 = 0 := by
  unfold ScatterDims.window
  rw [dif_neg (by decide)]

theorem dS_window3 : dS.window (ix4 b t ch f) 3 = f.val := by
  unfold ScatterDims.window
  rw [dif_pos (by decide)]
  rfl

/-- The update of (b, t, ch, f) lands on (ch, b, slot, f), when the scatter indices are the triples (ch, b, slot). -/
theorem dS_resultIdx (sl : Fin 32 → Fin 2048 → Fin 32 → ℕ) (hsl : ∀ b t ch, sl b t ch < 2049)
    (h0 : ∀ b t ch, (idx (ix4 b t ch (0 : Fin 3))).toInt = (ch.val : ℤ))
    (h1 : ∀ b t ch, (idx (ix4 b t ch (1 : Fin 3))).toInt = (b.val : ℤ))
    (h2 : ∀ b t ch, (idx (ix4 b t ch (2 : Fin 3))).toInt = (sl b t ch : ℤ)) :
    dS.resultIdx? (ix4 b t ch f) idx = some (ix4 ch b (⟨sl b t ch, hsl b t ch⟩ : Fin 2049) f) := by
  have hb := b.isLt
  have hch := ch.isLt
  have hf := f.isLt
  have hs := hsl b t ch
  have e0 : dS.start (ix4 b t ch f) idx 0 + (dS.window (ix4 b t ch f) 0 : ℤ) = (ch.val : ℤ) := by
    rw [dS_start0, dS_window0, h0]; simp
  have e1 : dS.start (ix4 b t ch f) idx 1 + (dS.window (ix4 b t ch f) 1 : ℤ) = (b.val : ℤ) := by
    rw [dS_start1, dS_window1, h1]; simp
  have e2 : dS.start (ix4 b t ch f) idx 2 + (dS.window (ix4 b t ch f) 2 : ℤ) = (sl b t ch : ℤ) := by
    rw [dS_start2, dS_window2, h2]; simp
  have e3 : dS.start (ix4 b t ch f) idx 3 + (dS.window (ix4 b t ch f) 3 : ℤ) = (f.val : ℤ) := by
    rw [dS_start3, dS_window3]; simp
  unfold ScatterDims.resultIdx?
  rw [dif_pos ?_]
  · congr 1
    funext a
    match a with
    | ⟨0, _⟩ =>
      apply Fin.ext
      show (dS.start (ix4 b t ch f) idx 0 + (dS.window (ix4 b t ch f) 0 : ℤ)).toNat = ch.val
      rw [e0]; simp
    | ⟨1, _⟩ =>
      apply Fin.ext
      show (dS.start (ix4 b t ch f) idx 1 + (dS.window (ix4 b t ch f) 1 : ℤ)).toNat = b.val
      rw [e1]; simp
    | ⟨2, _⟩ =>
      apply Fin.ext
      show (dS.start (ix4 b t ch f) idx 2 + (dS.window (ix4 b t ch f) 2 : ℤ)).toNat = sl b t ch
      rw [e2]; simp
    | ⟨3, _⟩ =>
      apply Fin.ext
      show (dS.start (ix4 b t ch f) idx 3 + (dS.window (ix4 b t ch f) 3 : ℤ)).toNat = f.val
      rw [e3]; simp
  · intro a
    match a with
    | ⟨0, _⟩ =>
      show 0 ≤ dS.start (ix4 b t ch f) idx 0 + (dS.window (ix4 b t ch f) 0 : ℤ) ∧
        dS.start (ix4 b t ch f) idx 0 + (dS.window (ix4 b t ch f) 0 : ℤ) < ((32 : ℕ) : ℤ)
      rw [e0]; constructor <;> omega
    | ⟨1, _⟩ =>
      show 0 ≤ dS.start (ix4 b t ch f) idx 1 + (dS.window (ix4 b t ch f) 1 : ℤ) ∧
        dS.start (ix4 b t ch f) idx 1 + (dS.window (ix4 b t ch f) 1 : ℤ) < ((32 : ℕ) : ℤ)
      rw [e1]; constructor <;> omega
    | ⟨2, _⟩ =>
      show 0 ≤ dS.start (ix4 b t ch f) idx 2 + (dS.window (ix4 b t ch f) 2 : ℤ) ∧
        dS.start (ix4 b t ch f) idx 2 + (dS.window (ix4 b t ch f) 2 : ℤ) < ((2049 : ℕ) : ℤ)
      rw [e2]; constructor <;> omega
    | ⟨3, _⟩ =>
      show 0 ≤ dS.start (ix4 b t ch f) idx 3 + (dS.window (ix4 b t ch f) 3 : ℤ) ∧
        dS.start (ix4 b t ch f) idx 3 + (dS.window (ix4 b t ch f) 3 : ℤ) < ((42 : ℕ) : ℤ)
      rw [e3]; constructor <;> omega

end Lands

/-! ### The feature rows -/

section Feat
variable (a1 : FVec Ideal S32x2048 .f32) (a2 : FVec Ideal S32x2048x32 .f32) (a3 : IVec S32x2048x32 1)
  (b : Fin 32) (t : Fin 2048) (ch : Fin 32)

/-- The mask as a float. -/
theorem r_v0_apply : r_v0 (F := Ideal) a3 (ix3 b t ch) = if Cert.Spec.M a3 b t ch then 1 else 0 :=
  uitofp_bit (a3 (ix3 b t ch))

theorem r_v14_apply : r_v14 (F := Ideal) a1 (ix3 b t ch) = a1 (ix2 b t) := by
  unfold r_v14 r_v13
  rw [broadcastInDim_apply _ _ _ _ (ix3 b t (0 : Fin 1)) ?_, broadcastInDim_apply _ _ _ _ (ix2 b t) ?_]
  · intro a
    match a with
    | ⟨0, _⟩ => rfl
    | ⟨1, _⟩ => rfl
  · intro a
    match a with
    | ⟨0, _⟩ => rfl
    | ⟨1, _⟩ => rfl
    | ⟨2, _⟩ => rfl

/-- The identity's entry (ch, g). -/
theorem r_v20_apply (g : Fin 40) :
    r_v20 (F := Ideal) (ix4 b t ch g) = if ch.val = g.val then 1 else 0 := by
  have e : r_v20 (F := Ideal) (ix4 b t ch g) = FloatOps.uitofp (F := Ideal) .f32
      (IntOp.cmpi .eq (IntOp.addi (BitVec.ofNat 32 (0 + ch.val)) (BitVec.ofNat 32 0)) (BitVec.ofNat 32 (0 + g.val))) := rfl
  have hch := ch.isLt
  have hg := g.isLt
  have c : IntOp.cmpi .eq (IntOp.addi (BitVec.ofNat 32 (0 + ch.val)) (BitVec.ofNat 32 0)) (BitVec.ofNat 32 (0 + g.val))
      = if ch.val = g.val then 1#1 else 0#1 := by
    show BitVec.ofBool (BitVec.ofNat 32 (0 + ch.val) + BitVec.ofNat 32 0 == BitVec.ofNat 32 (0 + g.val)) = _
    rw [Cert.Spec.ofBool_beq, Nat.zero_add, Nat.zero_add]
    have z : BitVec.ofNat 32 ch.val + BitVec.ofNat 32 0 = BitVec.ofNat 32 ch.val := by simp
    rw [z]
    exact if_congr (ofNat_inj_small (by omega) (by omega)) rfl rfl
  rw [e, c, uitofp_bit]
  by_cases h : ch.val = g.val
  · rw [if_pos h, if_pos h, if_pos rfl]
  · rw [if_neg h, if_neg h, if_neg (by decide)]

/-- The time entry of the row of (b, t, ch). -/
theorem r_v24_apply_time (f : Fin 42) (hf : f.val = 0) :
    r_v24 (F := Ideal) a1 a2 a3 (ix4 b t ch f) = a1 (ix2 b t) * (if Cert.Spec.M a3 b t ch then 1 else 0) := by
  unfold r_v24
  rw [concatenate_apply_piece 3 _ _ (ix4 b t ch f) 0 (by show (0 : ℕ) < 3; omega) S32x2048x32x1 (r_v16 (F := Ideal) a1 a3) rfl rfl 0 rfl
    (ix4 b t ch (0 : Fin 1))]
  · unfold r_v16
    rw [bc3to4]
    show r_v14 (F := Ideal) a1 (ix3 b t ch) * r_v0 (F := Ideal) a3 (ix3 b t ch) = _
    rw [r_v14_apply, r_v0_apply]
  · intro c hc
    match c with
    | ⟨0, _⟩ => rfl
    | ⟨1, _⟩ => rfl
    | ⟨2, _⟩ => rfl
    | ⟨3, _⟩ => exact absurd rfl hc
  · show 0 + 0 = f.val
    omega

/-- The value entry of the row of (b, t, ch). -/
theorem r_v24_apply_value (f : Fin 42) (hf : f.val = 41) :
    r_v24 (F := Ideal) a1 a2 a3 (ix4 b t ch f) = a2 (ix3 b t ch) * (if Cert.Spec.M a3 b t ch then 1 else 0) := by
  unfold r_v24
  rw [concatenate_apply_piece 3 _ _ (ix4 b t ch f) 2 (by show (2 : ℕ) < 3; omega) S32x2048x32x1 (r_v23 (F := Ideal) a2 a3) rfl rfl 41 rfl
    (ix4 b t ch (0 : Fin 1))]
  · unfold r_v23
    rw [bc3to4]
    show a2 (ix3 b t ch) * r_v0 (F := Ideal) a3 (ix3 b t ch) = _
    rw [r_v0_apply]
  · intro c hc
    match c with
    | ⟨0, _⟩ => rfl
    | ⟨1, _⟩ => rfl
    | ⟨2, _⟩ => rfl
    | ⟨3, _⟩ => exact absurd rfl hc
  · show 41 + 0 = f.val
    omega

/-- The one-hot entries of the row of (b, t, ch). -/
theorem r_v24_apply_onehot (f : Fin 42) (hf1 : 1 ≤ f.val) (hf2 : f.val ≤ 40) :
    r_v24 (F := Ideal) a1 a2 a3 (ix4 b t ch f)
      = (if Cert.Spec.M a3 b t ch then 1 else 0) * (if ch.val = f.val - 1 then 1 else 0) := by
  unfold r_v24
  rw [concatenate_apply_piece 3 _ _ (ix4 b t ch f) 1 (by show (1 : ℕ) < 3; omega) S32x2048x32x40 (r_v21 (F := Ideal) a3) rfl rfl 1 rfl
    (ix4 b t ch (⟨f.val - 1, by omega⟩ : Fin 40))]
  · show r_v19 (F := Ideal) a3 (ix4 b t ch (⟨f.val - 1, by omega⟩ : Fin 40)) * r_v20 (F := Ideal) (ix4 b t ch (⟨f.val - 1, by omega⟩ : Fin 40)) = _
    rw [r_v20_apply]
    unfold r_v19 r_v17
    rw [bc41to440, bc3to4, r_v0_apply]
  · intro c hc
    match c with
    | ⟨0, _⟩ => rfl
    | ⟨1, _⟩ => rfl
    | ⟨2, _⟩ => rfl
    | ⟨3, _⟩ => exact absurd rfl hc
  · show 1 + (f.val - 1) = f.val
    omega

end Feat

/-! ### The scatter read at a slot below 2048 -/

section Packed
variable (a0 : FVec Ideal S32x8 .f32) (a1 : FVec Ideal S32x2048 .f32) (a2 : FVec Ideal S32x2048x32 .f32)
  (a3 : IVec S32x2048x32 1) (ch : Fin 32) (b : Fin 32) (p : Fin 2048) (f : Fin 42)

/-- The updates that land on slot (ch, b, p, f), p < 2048: those of row b, channel ch, entry f, at the step that is
    observed with rank p + 1. -/
theorem lands_iff (j : S32x2048x32x42.Idx) :
    dS.resultIdx? j (r_v50 a3) = some (ix4 ch b (⟨p.val, by have := p.isLt; omega⟩ : Fin 2049) f)
      ↔ j = ix4 b (j 1) ch f ∧ Cert.Spec.hit a3 b (j 1) ch p := by
  obtain ⟨b', t', ch', f', rfl⟩ : ∃ b' t' ch' f', j = ix4 b' t' ch' f' := ⟨j 0, j 1, j 2, j 3, ValueIdx.eq_ix4 j⟩
  rw [dS_resultIdx (r_v50 a3) b' t' ch' f' (slot a3) (fun b t ch => by have := slot_le a3 b t ch; omega)
    (fun b t ch => by rw [r_v50_apply0]; exact toInt_ofNat_small (by have := ch.isLt; omega))
    (fun b t ch => by rw [r_v50_apply1]; exact toInt_ofNat_small (by have := b.isLt; omega))
    (fun b t ch => by rw [r_v50_apply2]; exact toInt_ofNat_small (by have := slot_le a3 b t ch; omega))]
  show _ ↔ ix4 b' t' ch' f' = ix4 b t' ch f ∧ Cert.Spec.hit a3 b t' ch p
  constructor
  · intro h
    have e := Option.some.inj h
    have c0 : ch' = ch := congrFun e 0
    have c1 : b' = b := congrFun e 1
    have c2 : (⟨slot a3 b' t' ch', _⟩ : Fin 2049) = ⟨p.val, _⟩ := congrFun e 2
    have c3 : f' = f := congrFun e 3
    subst c0 c1 c3
    exact ⟨rfl, (slot_eq_iff a3 b' t' ch' p).1 (congrArg Fin.val c2)⟩
  · rintro ⟨e, hh⟩
    have c0 : b' = b := congrFun e 0
    have c2 : ch' = ch := congrFun e 2
    have c3 : f' = f := congrFun e 3
    subst c0 c2 c3
    have hs : (⟨slot a3 b' t' ch', by have := slot_le a3 b' t' ch'; omega⟩ : Fin 2049) = ⟨p.val, by have := p.isLt; omega⟩ :=
      Fin.ext ((slot_eq_iff a3 b' t' ch' p).2 hh)
    rw [hs]

/-- The packed array at a slot is the sum, over the steps that land there, of their rows' entries. -/
theorem r_v52_eq_sum :
    r_v52 (F := Ideal) a1 a2 a3 (ix4 ch b p f)
      = ∑ t : Fin 2048, if Cert.Spec.hit a3 b t ch p then r_v24 (F := Ideal) a1 a2 a3 (ix4 b t ch f) else 0 := by
  unfold r_v52
  rw [extractStridedSlice_apply _ _ _ _ (ix4 ch b (⟨p.val, by have := p.isLt; omega⟩ : Fin 2049) f) ?_]
  · unfold r_v51
    show Ideal.hostScatterAdd dS (r_v31 (F := Ideal)) (r_v50 a3) (r_v24 (F := Ideal) a1 a2 a3) _ = _
    unfold Ideal.hostScatterAdd
    have hz : r_v31 (F := Ideal) (ix4 ch b (⟨p.val, by have := p.isLt; omega⟩ : Fin 2049) f) = 0 := Ideal.ofBits_zero_f32
    rw [hz, zero_add, ← Finset.sum_filter]
    refine Finset.sum_nbij' (fun j => (j 1 : Fin 2048)) (fun t => ix4 b t ch f) ?_ ?_ ?_ ?_ ?_
    · intro j hj
      have h := (lands_iff a3 ch b p f j).1 (Finset.mem_filter.1 hj).2
      exact Finset.mem_filter.2 ⟨Finset.mem_univ _, h.2⟩
    · intro t ht
      have h := (Finset.mem_filter.1 ht).2
      exact Finset.mem_filter.2 ⟨Finset.mem_univ _, (lands_iff a3 ch b p f (ix4 b t ch f)).2 ⟨rfl, h⟩⟩
    · intro j hj
      exact ((lands_iff a3 ch b p f j).1 (Finset.mem_filter.1 hj).2).1.symm
    · intro t _
      rfl
    · intro j hj
      exact congrArg (r_v24 (F := Ideal) a1 a2 a3) ((lands_iff a3 ch b p f j).1 (Finset.mem_filter.1 hj).2).1
  · intro a
    match a with
    | ⟨0, _⟩ => show ch.val = 0 + ch.val; omega
    | ⟨1, _⟩ => show b.val = 0 + b.val; omega
    | ⟨2, _⟩ => show p.val = 0 + p.val; omega
    | ⟨3, _⟩ => show f.val = 0 + f.val; omega

/-- **The packed half of the reference is the specified array on the channels below 32.** -/
theorem r_v52_apply :
    r_v52 (F := Ideal) a1 a2 a3 (ix4 ch b p f)
      = Cert.Spec.G a0 a1 a2 a3 (ix4 (⟨ch.val, by have := ch.isLt; omega⟩ : Fin 40) b p f) := by
  have hch := ch.isLt
  rw [r_v52_eq_sum]
  by_cases hf0 : f.val = 0
  · rw [Cert.Spec.G_apply_time a0 a1 a2 a3 _ hch b p f hf0]
    refine Finset.sum_congr rfl fun t _ => ?_
    by_cases hh : Cert.Spec.hit a3 b t ch p
    · rw [if_pos hh, if_pos hh, r_v24_apply_time a1 a2 a3 b t ch f hf0, if_pos hh.1, mul_one]
    · rw [if_neg hh, if_neg hh]
  · by_cases hf41 : f.val = 41
    · rw [Cert.Spec.G_apply_value a0 a1 a2 a3 _ hch b p f hf41]
      refine Finset.sum_congr rfl fun t _ => ?_
      by_cases hh : Cert.Spec.hit a3 b t ch p
      · rw [if_pos hh, if_pos hh, r_v24_apply_value a1 a2 a3 b t ch f hf41, if_pos hh.1, mul_one]
      · rw [if_neg hh, if_neg hh]
    · have hf := f.isLt
      have hf1 : 1 ≤ f.val := by omega
      have hf2 : f.val ≤ 40 := by omega
      rw [Cert.Spec.G_apply_onehot a0 a1 a2 a3 _ hch b p f hf1 hf2]
      by_cases he : ch.val = f.val - 1
      · have e : ∀ t : Fin 2048, (if Cert.Spec.hit a3 b t ch p then r_v24 (F := Ideal) a1 a2 a3 (ix4 b t ch f) else 0)
            = if Cert.Spec.hit a3 b t ch p then (1 : EReal) else 0 := by
          intro t
          by_cases hh : Cert.Spec.hit a3 b t ch p
          · rw [if_pos hh, if_pos hh, r_v24_apply_onehot a1 a2 a3 b t ch f hf1 hf2, if_pos hh.1, if_pos he, mul_one]
          · rw [if_neg hh, if_neg hh]
        rw [Finset.sum_congr rfl fun t _ => e t, Cert.Spec.sum_hit_one a3 b ch p]
        by_cases hp : p.val < Cert.Spec.total a3 b ch
        · rw [if_pos hp, if_pos ⟨hp, he.symm⟩]
        · rw [if_neg hp, if_neg (fun h => hp h.1)]
      · have e : ∀ t : Fin 2048, (if Cert.Spec.hit a3 b t ch p then r_v24 (F := Ideal) a1 a2 a3 (ix4 b t ch f) else 0)
            = (0 : EReal) := by
          intro t
          by_cases hh : Cert.Spec.hit a3 b t ch p
          · rw [if_pos hh, r_v24_apply_onehot a1 a2 a3 b t ch f hf1 hf2, if_neg he, mul_zero]
          · rw [if_neg hh]
        rw [Finset.sum_congr rfl fun t _ => e t, Finset.sum_const_zero, if_neg (fun h => he h.2.symm)]

end Packed

end Cert.ReferenceIdeal.Hand
-- ==== Proof.LibScatterSet.lean ====
/-
  A scatter whose body keeps the update ("set"), read at one element.

  The scatter is a left fold over the update's indices in row-major order: the step at update index `j` overwrites the
  element its result index names, if that index lies inside the operand, and does nothing otherwise. So an element
  that is the result index of exactly one update index ends holding that update's value, whatever the other steps
  do (they touch other elements), and an element that is no update's result index keeps the operand's value. When the
  result indices are given by one injective map of the update indices, every update lands on its own element.
-/
import Idealize.ShloMosaic.PureOps

noncomputable section

namespace Cert.LibScatterSet

open Idealize.ShloMosaic

variable {s si u : Shape} {α : Type} {w : Nat}

/-- One step of the fold: update index number `n` (row-major) applied to the running result `r`. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of its steps. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose result index is another element leaves this one alone. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases h0 : d.resultIdx? (u.rowMajor.symm n) idx with
  | none => rfl
  | some i0 =>
    rw [h0] at h
    show (if i = i0 then f (r i0) (upd (u.rowMajor.symm n)) else r i) = r i
    exact if_neg (fun e => h (by rw [e]))

/-- Steps none of which lands on element `i` leave it alone. -/
theorem foldl_of_ne (d : ScatterDims s si u) (f : α → α → α) (idx : IVec si w) (upd : u.Idx → α) (i : s.Idx)
    (l : List (Fin u.numel)) (r : s.Idx → α) (h : ∀ n ∈ l, d.resultIdx? (u.rowMajor.symm n) idx ≠ some i) :
    (l.foldl (step d f idx upd) r) i = r i := by
  induction l generalizing r with
  | nil => rfl
  | cons a l ih =>
    rw [List.foldl_cons, ih _ (fun n hn => h n (List.mem_cons_of_mem _ hn))]
    exact step_of_ne d f idx upd r a i (h a List.mem_cons_self)

/-- The step that lands on element `i`, its body keeping the update, leaves the update's value there. -/
theorem step_of_eq (d : ScatterDims s si u) (idx : IVec si w) (upd : u.Idx → α) (r : s.Idx → α)
    (n : Fin u.numel) (i : s.Idx) (h : d.resultIdx? (u.rowMajor.symm n) idx = some i) :
    step d (fun _ b => b) idx upd r n i = upd (u.rowMajor.symm n) := by
  unfold step
  cases h0 : d.resultIdx? (u.rowMajor.symm n) idx with
  | none => rw [h0] at h; cases h
  | some i0 =>
    rw [h0] at h
    obtain rfl : i0 = i := Option.some.inj h
    show (if i0 = i0 then upd (u.rowMajor.symm n) else r i0) = upd (u.rowMajor.symm n)
    exact if_pos rfl

/-- Of steps exactly one of which (`n₀`) lands on element `i`, that one's update is what `i` ends holding. -/
theorem foldl_of_unique (d : ScatterDims s si u) (idx : IVec si w) (upd : u.Idx → α) (i : s.Idx)
    (l : List (Fin u.numel)) (r : s.Idx → α) (n₀ : Fin u.numel) (hmem : n₀ ∈ l)
    (hhit : d.resultIdx? (u.rowMajor.symm n₀) idx = some i)
    (huniq : ∀ n ∈ l, d.resultIdx? (u.rowMajor.symm n) idx = some i → n = n₀) :
    (l.foldl (step d (fun _ b => b) idx upd) r) i = upd (u.rowMajor.symm n₀) := by
  induction l generalizing r with
  | nil => cases hmem
  | cons a l ih =>
    rw [List.foldl_cons]
    by_cases hl : n₀ ∈ l
    · exact ih _ hl (fun n hn => huniq n (List.mem_cons_of_mem _ hn))
    · have ha : a = n₀ := by
        rcases List.mem_cons.1 hmem with e | e
        · exact e.symm
        · exact absurd e hl
      subst ha
      rw [foldl_of_ne d _ idx upd i l _ (fun n hn e => hl ((huniq n (List.mem_cons_of_mem _ hn) e) ▸ hn))]
      exact step_of_eq d idx upd r a i hhit

/-- A "set" scatter at an element that exactly one update index `j` lands on holds that update's value. -/
theorem scatter_set_apply (d : ScatterDims s si u) (x : s.Idx → α) (idx : IVec si w) (upd : u.Idx → α)
    (j : u.Idx) (i : s.Idx) (hhit : d.resultIdx? j idx = some i)
    (huniq : ∀ j', d.resultIdx? j' idx = some i → j' = j) :
    Host.scatter d (fun _ b => b) x idx upd i = upd j := by
  rw [scatter_eq_foldl]
  have h := foldl_of_unique d idx upd i (List.finRange u.numel) x (u.rowMajor j) (List.mem_finRange _)
    (by rw [Equiv.symm_apply_apply]; exact hhit)
    (fun n _ e => by rw [← huniq _ e, Equiv.apply_symm_apply])
  rw [Equiv.symm_apply_apply] at h
  exact h

/-- A scatter at an element no update index lands on holds the operand's value. -/
theorem scatter_apply_of_forall_ne (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_of_ne d f idx upd i _ x (fun n _ => h _)

/-- When every update index `j` lands on `e j` for one injective map `e`, a "set" scatter holds `upd j` at `e j`. -/
theorem scatter_set_apply_of_injective (d : ScatterDims s si u) (x : s.Idx → α) (idx : IVec si w) (upd : u.Idx → α)
    (e : u.Idx → s.Idx) (he : Function.Injective e) (h : ∀ j, d.resultIdx? j idx = some (e j)) (j : u.Idx) :
    Host.scatter d (fun _ b => b) x idx upd (e j) = upd j :=
  scatter_set_apply d x idx upd j (e j) (h j) (fun j' hj' => he (Option.some.inj ((h j').symm.trans hj')))

end Cert.LibScatterSet

end
-- ==== Proof.RefValue.lean ====
/- The reference's demo channels, read index by index. Channel `32 + dd` (`dd < 8`) of the result is the
   array of zeros with, at position 0 of every batch row `b`, the row `(0, one_hot_40(31 + dd), demo(b, dd))`:
   a scatter that keeps its update, over the single index 0, lands update element `(dd, b, f)` on
   `(dd, b, 0, f)` and on nothing else; the update row is a three-piece concatenation of a zero, row
   `31 + dd` of the 40 × 40 identity (a gather whose start index `31 + dd` lies inside the operand, so the
   clamp is the identity) and the transposed demo array. -/
import proofs.«146262_j33595234189952_2_alg».proof.Proof.RefStages
import proofs.«146262_j33595234189952_2_alg».proof.Proof.LibScatterSet
import proofs.«146262_j33595234189952_2_alg».proof.Proof.Spec
import Idealize.ShloMosaic.Lib.IdealHost
import Idealize.ShloMosaic.Lib.Pipeline.Value
import Idealize.ShloMosaic.Lib.ValueLayout
import Idealize.ShloMosaic.Lib.ValueIdx

noncomputable section

namespace Cert.ReferenceIdeal.Hand

open Cert.ReferenceIdeal Cert.ReferenceIdeal.Gen Idealize.ShloMosaic Idealize.ShloMosaic.ValueIdx

/-! ## The demo channels: the scatter that sets row 0 -/

/-- Where the update element `(dd, b, f)` lands: `(dd, b, 0, f)`. -/
def eSet (j : S8x32x42.Idx) : S8x32x2048x42.Idx := ix4 (j 0) (j 1) (0 : Fin 2048) (j 2)

theorem eSet_injective : Function.Injective eSet := by
  intro j j' h
  funext a
  have h0 := congrFun h 0; have h1 := congrFun h 1; have h3 := congrFun h 3
  match a with
  | ⟨0, _⟩ => exact h0
  | ⟨1, _⟩ => exact h1
  | ⟨2, _⟩ => exact h3

theorem r_v78_apply (i : S1.Idx) : r_v78 i = 0#32 := by
  unfold r_v78
  exact (broadcastInDim_scalar_apply _ _ _).trans rfl

theorem set_start (j : S8x32x42.Idx) (a : Fin 4) :
    scatter_S8x32x2048x42_S1_S8x32x42_012_2_2_0.start j r_v78 a = 0 := by
  unfold ScatterDims.start
  split
  · rw [r_v78_apply]; rfl
  · rfl

theorem set_window (j : S8x32x42.Idx) (a : Fin 4) :
    scatter_S8x32x2048x42_S1_S8x32x42_012_2_2_0.window j a = (eSet j a).val := by
  fin_cases a <;> rfl

theorem set_resultIdx (j : S8x32x42.Idx) :
    scatter_S8x32x2048x42_S1_S8x32x42_012_2_2_0.resultIdx? j r_v78 = some (eSet j) := by
  unfold ScatterDims.resultIdx?
  rw [dif_pos]
  · congr 1
    funext a
    apply Fin.ext
    simp only [set_start, set_window, zero_add, Int.toNat_natCast]
  · intro a
    rw [set_start, set_window]
    have := (eSet j a).isLt
    constructor <;> omega

/-! ## The demo channels: the rows -/

variable {F : FTy → Type} [FloatOps F]

/-- The set scatter at row 0 holds the update. -/
theorem r_v79_zero (a0 : FVec F S32x8 .f32) (dd : Fin 8) (b : Fin 32) (f : Fin 42) :
    r_v79 (F := F) a0 (ix4 dd b (0 : Fin 2048) f) = r_v76 (F := F) a0 (ix3 dd b f) := by
  unfold r_v79
  exact Cert.LibScatterSet.scatter_set_apply_of_injective scatter_S8x32x2048x42_S1_S8x32x42_012_2_2_0
    (r_v77 (F := F)) r_v78 (r_v76 (F := F) a0) eSet eSet_injective set_resultIdx (ix3 dd b f)

/-- The set scatter off row 0 holds the operand: zeros. -/
theorem r_v79_pos (a0 : FVec F S32x8 .f32) (dd : Fin 8) (b : Fin 32) (p : Fin 2048) (hp : p.val ≠ 0) (f : Fin 42) :
    r_v79 (F := F) a0 (ix4 dd b p f) = r_v77 (F := F) (ix4 dd b p f) := by
  unfold r_v79
  refine Cert.LibScatterSet.scatter_apply_of_forall_ne _ _ _ _ _ _ (fun j h => hp ?_)
  rw [set_resultIdx] at h
  have h2 := congrFun (Option.some.inj h) 2
  exact (congrArg Fin.val h2).symm

theorem r_v77_apply (i : S8x32x2048x42.Idx) : r_v77 (F := Ideal) i = 0 := by
  unfold r_v77
  rw [broadcastInDim_scalar_apply]
  exact Ideal.ofBits_zero_f32

theorem r_v71_apply (i : S8x32x1.Idx) : r_v71 (F := Ideal) i = 0 := by
  unfold r_v71
  rw [broadcastInDim_scalar_apply]
  exact Ideal.ofBits_zero_f32

/-- The transposed demo array, broadcast to a unit axis. -/
theorem r_v75_apply (a0 : FVec F S32x8 .f32) (dd : Fin 8) (b : Fin 32) :
    r_v75 (F := F) a0 (ix3 dd b (0 : Fin 1)) = a0 (ix2 b dd) := by
  unfold r_v75 r_v74
  rw [broadcastInDim_apply _ _ _ _ (ix2 dd b) (fun a => by fin_cases a <;> rfl)]
  exact transpose_ix2_apply _ _ _ _

/-- The gathered identity rows, broadcast over the batch. -/
theorem r_v73_apply (dd : Fin 8) (b : Fin 32) (c : Fin 40) :
    r_v73 (F := F) (ix3 dd b c) = r_v70 (F := F) (ix2 dd c) := by
  unfold r_v73 r_v72
  rw [broadcastInDim_apply _ _ _ _ (ix3 dd (0 : Fin 1) c) (fun a => by fin_cases a <;> rfl)]
  rw [broadcastInDim_apply _ _ _ _ (ix2 dd c) (fun a => by fin_cases a <;> rfl)]

/-! ## The demo channels: the gathered identity rows -/

/-- The start indices of the gather: `31 + dd`. -/
theorem r_v69_apply (dd : Fin 8) : r_v69 (ix2 dd (0 : Fin 1)) = BitVec.ofNat 32 (31 + dd.val) := by
  unfold r_v69
  rw [broadcastInDim_apply _ _ _ _ (ix1 dd) (fun a => by fin_cases a; rfl)]
  fin_cases dd <;> decide

/-- The gather reads row `31 + dd` of its operand (the start index is `31 + dd`, inside the operand). -/
theorem gather_idx (dd : Fin 8) (c : Fin 40) :
    gather_S40x40_S8x1_S8x40_1_0_n_n_0_1_140.operandIdx (ix2 dd c) r_v69
      = ix2 (⟨31 + dd.val, by omega⟩ : Fin 40) c := by
  funext a
  apply Fin.ext
  show gather_S40x40_S8x1_S8x40_1_0_n_n_0_1_140.start (ix2 dd c) r_v69 a
      + gather_S40x40_S8x1_S8x40_1_0_n_n_0_1_140.batchCoord (ix2 dd c) a
      + gather_S40x40_S8x1_S8x40_1_0_n_n_0_1_140.offCoord (ix2 dd c) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin S40x40.rank) ∈ gather_S40x40_S8x1_S8x40_1_0_n_n_0_1_140.startIndexMap from List.mem_singleton.mpr rfl)]
    have hsi : gather_S40x40_S8x1_S8x40_1_0_n_n_0_1_140.siIdx (ix2 dd c)
        ⟨List.idxOf (0 : Fin S40x40.rank) gather_S40x40_S8x1_S8x40_1_0_n_n_0_1_140.startIndexMap,
          List.idxOf_lt_length_iff.2 (List.mem_singleton.mpr rfl)⟩ = ix2 dd (0 : Fin 1) := by
      funext b; refine Fin.ext ?_
      match b with
      | ⟨0, _⟩ => rfl
      | ⟨1, _⟩ => rfl
    rw [hsi, r_v69_apply]
    show min (BitVec.ofNat 32 (31 + dd.val)).toInt.toNat (40 - 1) = 31 + dd.val
    fin_cases dd <;> decide
  · have hs : gather_S40x40_S8x1_S8x40_1_0_n_n_0_1_140.start (ix2 dd c) r_v69 (1 : Fin S40x40.rank) = 0 := by
      unfold GatherDims.start
      rw [dif_neg (by decide)]
    rw [hs, Nat.zero_add]
    unfold GatherDims.offCoord
    rw [dif_pos (by decide)]
    rfl

theorem r_v70_apply (dd : Fin 8) (c : Fin 40) :
    r_v70 (F := F) (ix2 dd c) = r_v63 (F := F) (ix2 (⟨31 + dd.val, by omega⟩ : Fin 40) c) := by
  unfold r_v70 Host.gather
  rw [gather_idx]

theorem ofNat32_inj_of_lt {r c : ℕ} (hr : r < 40) (hc : c < 40) (e : BitVec.ofNat 32 r = BitVec.ofNat 32 c) : r = c := by
  have := congrArg BitVec.toNat e
  simp only [BitVec.toNat_ofNat] at this
  omega

/-- The 40 × 40 identity. -/
theorem r_v63_apply (r c : Fin 40) : r_v63 (F := Ideal) (ix2 r c) = if r.val = c.val then 1 else 0 := by
  have key : IntOp.cmpi .eq (IntOp.addi (BitVec.ofNat 32 r.val) (0#32)) (BitVec.ofNat 32 c.val)
      = if r.val = c.val then 1#1 else 0#1 := by
    unfold IntOp.cmpi IntOp.addi
    rw [BitVec.add_zero]
    by_cases h : r.val = c.val
    · rw [if_pos h, h]; simp
    · rw [if_neg h]
      have hne : BitVec.ofNat 32 r.val ≠ BitVec.ofNat 32 c.val := fun e => h (ofNat32_inj_of_lt r.isLt c.isLt e)
      show BitVec.ofBool (BitVec.ofNat 32 r.val == BitVec.ofNat 32 c.val) = 0#1
      rw [beq_eq_false_iff_ne.mpr hne]; rfl
  show ((( IntOp.cmpi .eq (IntOp.addi (BitVec.ofNat 32 r.val) (0#32)) (BitVec.ofNat 32 c.val)).toNat : ℝ) : EReal) = _
  rw [key]
  by_cases h : r.val = c.val
  · rw [if_pos h, if_pos h]; simp
  · rw [if_neg h, if_neg h]; simp

/-! ## The demo channels: the row `(0, one_hot(31 + dd), demo(b, dd))` and the result -/

theorem r_v76_fst (a0 : FVec F S32x8 .f32) (dd : Fin 8) (b : Fin 32) :
    r_v76 (F := F) a0 (ix3 dd b (0 : Fin 42)) = r_v71 (F := F) (ix3 dd b (0 : Fin 1)) := by
  unfold r_v76
  exact concatenate_apply_piece (t := S8x32x42) 2 [⟨S8x32x1, r_v71 (F := F)⟩, ⟨S8x32x40, r_v73 (F := F)⟩, ⟨S8x32x1, r_v75 (F := F) a0⟩] concatenates_S8x32x1_S8x32x40_S8x32x1_S8x32x42_d2 (ix3 dd b (0 : Fin 42)) 0 (by simp) S8x32x1 (r_v71 (F := F)) rfl rfl 0 rfl
    (ix3 dd b (0 : Fin 1))
    (fun b' hb => by match b', hb with | ⟨0, _⟩, _ => rfl | ⟨1, _⟩, _ => rfl | ⟨2, _⟩, hb => exact absurd rfl hb)
    (by rfl)

theorem r_v76_snd (a0 : FVec F S32x8 .f32) (dd : Fin 8) (b : Fin 32) (f : Fin 42) (c : Fin 40) (hc : 1 + c.val = f.val) :
    r_v76 (F := F) a0 (ix3 dd b f) = r_v73 (F := F) (ix3 dd b c) := by
  unfold r_v76
  exact concatenate_apply_piece (t := S8x32x42) 2 [⟨S8x32x1, r_v71 (F := F)⟩, ⟨S8x32x40, r_v73 (F := F)⟩, ⟨S8x32x1, r_v75 (F := F) a0⟩] concatenates_S8x32x1_S8x32x40_S8x32x1_S8x32x42_d2 (ix3 dd b f) 1 (by simp) S8x32x40 (r_v73 (F := F)) rfl rfl 1 rfl
    (ix3 dd b c)
    (fun b' hb => by match b', hb with | ⟨0, _⟩, _ => rfl | ⟨1, _⟩, _ => rfl | ⟨2, _⟩, hb => exact absurd rfl hb)
    (by show 1 + c.val = f.val; exact hc)

theorem r_v76_thd (a0 : FVec F S32x8 .f32) (dd : Fin 8) (b : Fin 32) :
    r_v76 (F := F) a0 (ix3 dd b (41 : Fin 42)) = r_v75 (F := F) a0 (ix3 dd b (0 : Fin 1)) := by
  unfold r_v76
  exact concatenate_apply_piece (t := S8x32x42) 2 [⟨S8x32x1, r_v71 (F := F)⟩, ⟨S8x32x40, r_v73 (F := F)⟩, ⟨S8x32x1, r_v75 (F := F) a0⟩] concatenates_S8x32x1_S8x32x40_S8x32x1_S8x32x42_d2 (ix3 dd b (41 : Fin 42)) 2 (by simp) S8x32x1 (r_v75 (F := F) a0) rfl rfl 41 rfl
    (ix3 dd b (0 : Fin 1))
    (fun b' hb => by match b', hb with | ⟨0, _⟩, _ => rfl | ⟨1, _⟩, _ => rfl | ⟨2, _⟩, hb => exact absurd rfl hb)
    (by rfl)

/-- The demo channels `32 + dd`: position 0 holds `(0, one_hot(31 + dd), demo(b, dd))`, every other position zeros. -/
theorem demo_apply (a0 : FVec Ideal S32x8 .f32) (a1 : FVec Ideal S32x2048 .f32) (a2 : FVec Ideal S32x2048x32 .f32)
    (a3 : IVec S32x2048x32 1) (dd : Fin 8) (b : Fin 32) (p : Fin 2048) (f : Fin 42) :
    r_v79 (F := Ideal) a0 (ix4 dd b p f)
      = Cert.Spec.G a0 a1 a2 a3 (ix4 (⟨32 + dd.val, by omega⟩ : Fin 40) b p f) := by
  rw [Cert.Spec.G_apply_demo a0 a1 a2 a3 _ (by show 32 ≤ 32 + dd.val; omega)]
  by_cases hp : p.val = 0
  · obtain rfl : p = 0 := Fin.ext hp
    rw [if_pos hp, r_v79_zero]
    by_cases hf0 : f.val = 0
    · obtain rfl : f = 0 := Fin.ext hf0
      rw [if_pos hf0, r_v76_fst, r_v71_apply]
    · rw [if_neg hf0]
      by_cases hf41 : f.val = 41
      · obtain rfl : f = 41 := Fin.ext hf41
        rw [if_pos hf41, r_v76_thd, r_v75_apply]
        congr 2
        apply Fin.ext
        show dd.val = 32 + dd.val - 32
        omega
      · rw [if_neg hf41]
        have hlt := f.isLt
        rw [r_v76_snd a0 dd b f ⟨f.val - 1, by omega⟩ (by show 1 + (f.val - 1) = f.val; omega), r_v73_apply,
          r_v70_apply, r_v63_apply]
        show (if 31 + dd.val = f.val - 1 then (1 : EReal) else 0) = if f.val - 1 = 31 + (32 + dd.val - 32) then 1 else 0
        by_cases h : 31 + dd.val = f.val - 1
        · rw [if_pos h, if_pos (by omega)]
        · rw [if_neg h, if_neg (by omega)]
  · rw [if_neg hp, r_v79_pos _ _ _ _ hp, r_v77_apply]

end Cert.ReferenceIdeal.Hand

end
-- ==== Proof.RefFinal.lean ====
/-
  The reference's result is the packed specification: its last operation lays the 32 packed channels and the 8
  demographic channels end to end along the channel axis, so an entry with channel below 32 is the packed half's entry
  and an entry with channel 32 + dd is the demographic half's entry at dd.
-/
import proofs.«146262_j33595234189952_2_alg».proof.Proof.RefStages
import proofs.«146262_j33595234189952_2_alg».proof.Proof.Spec
import proofs.«146262_j33595234189952_2_alg».proof.Proof.RefPacked
import proofs.«146262_j33595234189952_2_alg».proof.Proof.RefValue
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-- The two halves joined along the channel axis: given each half entry by entry, the whole is the specification. -/
theorem result_eq_of (a0 : FVec Ideal S32x8 .f32) (a1 : FVec Ideal S32x2048 .f32) (a2 : FVec Ideal S32x2048x32 .f32)
    (a3 : IVec S32x2048x32 1)
    (hp : ∀ (ch : Fin 32) (b : Fin 32) (p : Fin 2048) (f : Fin 42),
      r_v52 (F := Ideal) a1 a2 a3 (ix4 ch b p f)
        = Cert.Spec.G a0 a1 a2 a3 (ix4 (⟨ch.val, lt_trans ch.isLt (by norm_num)⟩ : Fin 40) b p f))
    (hd : ∀ (dd : Fin 8) (b : Fin 32) (p : Fin 2048) (f : Fin 42),
      r_v79 (F := Ideal) a0 (ix4 dd b p f)
        = Cert.Spec.G a0 a1 a2 a3 (ix4 (⟨32 + dd.val, by have := dd.isLt; omega⟩ : Fin 40) b p f)) :
    result (F := Ideal) a0 a1 a2 a3 = Cert.Spec.G a0 a1 a2 a3 := by
  funext j
  obtain ⟨ch, b, p, f, rfl⟩ : ∃ (ch : Fin 40) (b : Fin 32) (p : Fin 2048) (f : Fin 42), j = ix4 ch b p f :=
    ⟨j 0, j 1, j 2, j 3, eq_ix4 j⟩
  unfold result
  by_cases h : ch.val < 32
  · refine (concatenate_pair_apply_left (t := S40x32x2048x42) (s₁ := S32x32x2048x42) (s₂ := S8x32x2048x42) 0 _ _ _
      (ix4 ch b p f) rfl (ix4 (⟨ch.val, h⟩ : Fin 32) b p f) (fun ax => by
        match ax with
        | ⟨0, _⟩ => rfl
        | ⟨1, _⟩ => rfl
        | ⟨2, _⟩ => rfl
        | ⟨3, _⟩ => rfl)).trans ?_
    exact hp ⟨ch.val, h⟩ b p f
  · have hch := ch.isLt
    refine (concatenate_pair_apply_right (t := S40x32x2048x42) (s₁ := S32x32x2048x42) (s₂ := S8x32x2048x42) 0 _ _ _
      (ix4 ch b p f) rfl rfl (ix4 (⟨ch.val - 32, by omega⟩ : Fin 8) b p f) (fun ax hax => by
        match ax, hax with
        | ⟨0, _⟩, hax => exact absurd rfl hax
        | ⟨1, _⟩, _ => rfl
        | ⟨2, _⟩, _ => rfl
        | ⟨3, _⟩, _ => rfl) (by show ch.val - 32 + 32 = ch.val; omega)).trans ?_
    refine (hd ⟨ch.val - 32, by omega⟩ b p f).trans ?_
    exact congrArg (fun c : Fin 40 => Cert.Spec.G a0 a1 a2 a3 (ix4 c b p f))
      (Fin.ext (by show 32 + (ch.val - 32) = ch.val; omega))

/-- **The reference's result is the packed specification.** -/
theorem result_eq (a0 : FVec Ideal S32x8 .f32) (a1 : FVec Ideal S32x2048 .f32) (a2 : FVec Ideal S32x2048x32 .f32)
    (a3 : IVec S32x2048x32 1) : result (F := Ideal) a0 a1 a2 a3 = Cert.Spec.G a0 a1 a2 a3 :=
  result_eq_of a0 a1 a2 a3 (fun ch b p f => r_v52_apply a0 a1 a2 a3 ch b p f)
    (fun dd b p f => demo_apply a0 a1 a2 a3 dd b p f)

end Cert.ReferenceIdeal.Hand

end
-- ==== Proof.lean ====
/-
  The certificate's five claims. The kernel program (a packing kernel and a demo kernel writing one aliased result)
  and the reference (a scatter-add of masked features at the running count of observations) compute, at the ideal
  instance, one function of the arguments: channel ch < 32 holds, at packed position p, the time, the one-hot of ch and
  the value of the observation of rank p+1 in its row (zeros past the row's count), and channel 32+dd holds the demo
  row at position 0. The three frames are the programs' runs with the result dropped; the idealization rewrote
  nothing, so it is preserved trivially.
-/
import proofs.«146262_j33595234189952_2_alg».proof.Defs
import proofs.«146262_j33595234189952_2_alg».proof.Proof.K.Run
import proofs.«146262_j33595234189952_2_alg».proof.Proof.KI.KernelValue
import proofs.«146262_j33595234189952_2_alg».proof.Proof.RefRun
import proofs.«146262_j33595234189952_2_alg».proof.Proof.RefFinal
import proofs.«146262_j33595234189952_2_alg».proof.Proof.Gen.Pre_finite_inputs

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the specification of the (agreeing) argument arrays in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KernelIdeal.Hand.kernel_value m ρ c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]
    exact Cert.ReferenceIdeal.Hand.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
